-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S512 .f32) (main_arg9 : FVec F S512 .f32) (main_arg10 : FVec F S128x64 .f32) (main_arg11 : FVec F S64 .f32) (main_arg12 : FVec F S128x64 .f32) (main_arg13 : FVec F S64 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S512x128 .f32) (main_arg7 : FVec F S512x128 .f32) (main_arg8 : FVec F S512 .f32) (main_arg9 : FVec F S512 .f32) (main_arg10 : FVec F S128x64 .f32) (main_arg11 : FVec F S64 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S512x128 .f32) (main_arg7 : FVec F S512x128 .f32) (main_arg8 : FVec F S512 .f32) (main_arg9 : FVec F S512 .f32) (main_arg10 : FVec F S128x64 .f32) (main_arg11 : FVec F S64 .f32) (main_arg12 : FVec F S128x64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S128x512 : Shape := ⟨2, ![128, 512]⟩
abbrev S1x512 : Shape := ⟨2, ![1, 512]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 164
  | .vmem => 49
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S512x128, .f32⟩
  | 7 => ⟨S512x128, .f32⟩
  | 8 => ⟨S512, .f32⟩
  | 9 => ⟨S512, .f32⟩
  | 10 => ⟨S128x64, .f32⟩
  | 11 => ⟨S64, .f32⟩
  | 12 => ⟨S128x64, .f32⟩
  | 13 => ⟨S64, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x1, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S100000x128, .f32⟩
  | 94 => ⟨S1x128, .f32⟩
  | 95 => ⟨S128x512, .f32⟩
  | 96 => ⟨S1x512, .f32⟩
  | 97 => ⟨S1x512, .f32⟩
  | 98 => ⟨S1x512, .f32⟩
  | 99 => ⟨S1x512, .f32⟩
  | 100 => ⟨S1x512, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S100000x128, .f32⟩
  | 126 => ⟨S100000x64, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x64, .f32⟩
  | 8 => ⟨S1700000x1, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S1x64, .f32⟩
  | 16 => ⟨S100000x64, .f32⟩
  | 17 => ⟨S100000x64, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x64, .f32⟩
  | 27 => ⟨S1700000x1, .f32⟩
  | 28 => ⟨S1700000x64, .f32⟩
  | 29 => ⟨S1700000x64, .f32⟩
  | 30 => ⟨S_, .f32⟩
  | 31 => ⟨S100000x64, .f32⟩
  | 32 => ⟨S1700000x1, .i32⟩
  | 33 => ⟨S100000x64, .f32⟩
  | 34 => ⟨S1x64, .f32⟩
  | 35 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S128x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | .local _ .vmem, ⟨39, _⟩ => ⟨S10000x128, .f32⟩
  | .local _ .vmem, ⟨40, _⟩ => ⟨S10000x128, .f32⟩
  | .local _ .vmem, ⟨41, _⟩ => ⟨S128x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S10000x64, .f32⟩
  | .local _ .vmem, ⟨48, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_cst_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_17 : Ref sig .tc := ⟨.hbm, 127, rfl⟩
abbrev main_v92 : Ref sig .tc := ⟨.hbm, 128, rfl⟩
abbrev main_v93 : Ref sig .tc := ⟨.hbm, 129, rfl⟩
abbrev main_c_18 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_20 : Ref sig .tc := ⟨.hbm, 146, rfl⟩
abbrev main_v108 : Ref sig .tc := ⟨.hbm, 147, rfl⟩
abbrev main_v109 : Ref sig .tc := ⟨.hbm, 148, rfl⟩
abbrev main_c_21 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_scratch0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc8_stg0_0 : Ref sig .tc := ⟨.vmem, 39, rfl⟩
abbrev cc8_stg0_1 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg2_1 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg2_0 : Ref sig .tc := ⟨.vmem, 47, rfl⟩
abbrev cc9_stg2_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem2_0 : DmaSem sig := 31
abbrev cc6_sem2_1 : DmaSem sig := 32
abbrev cc7_sem0_0 : DmaSem sig := 33
abbrev cc7_sem0_1 : DmaSem sig := 34
abbrev cc7_sem1_0 : DmaSem sig := 35
abbrev cc7_sem2_0 : DmaSem sig := 36
abbrev cc7_sem2_1 : DmaSem sig := 37
abbrev cc8_sem0_0 : DmaSem sig := 38
abbrev cc8_sem0_1 : DmaSem sig := 39
abbrev cc8_sem1_0 : DmaSem sig := 40
abbrev cc8_sem2_0 : DmaSem sig := 41
abbrev cc8_sem2_1 : DmaSem sig := 42
abbrev cc9_sem0_0 : DmaSem sig := 43
abbrev cc9_sem0_1 : DmaSem sig := 44
abbrev cc9_sem1_0 : DmaSem sig := 45
abbrev cc9_sem2_0 : DmaSem sig := 46
abbrev cc9_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  transposes_S512x128_S128x512_1_0 : S512x128.Transposes [1, 0] S128x512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1x128_S128x512_S1x512_1_0_0_1_n_n_wf : DotDims.WF S1x128 S128x512 S1x512 [1] [0] [0] [1] [] []
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

abbrev win5_0 : Pipeline.Window sig grid5 :=
  Pipeline.Window.ofSpec (Memref.whole main_v62) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v90) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v90) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v107) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v120) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v121) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v122) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x512 : Shape := ⟨2, ![128, 512]⟩
abbrev S1x512 : Shape := ⟨2, ![1, 512]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S512x128, .f32⟩
  | 7 => ⟨S512x128, .f32⟩
  | 8 => ⟨S512, .f32⟩
  | 9 => ⟨S512, .f32⟩
  | 10 => ⟨S128x64, .f32⟩
  | 11 => ⟨S64, .f32⟩
  | 12 => ⟨S128x64, .f32⟩
  | 13 => ⟨S64, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S128x512, .f32⟩
  | 109 => ⟨S1x512, .f32⟩
  | 110 => ⟨S1x512, .f32⟩
  | 111 => ⟨S1x512, .f32⟩
  | 112 => ⟨S1x512, .f32⟩
  | 113 => ⟨S1x512, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S100000x128, .f32⟩
  | 11 => ⟨S100000x128, .f32⟩
  | 12 => ⟨S100000x64, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000x64, .f32⟩
  | 22 => ⟨S1700000x1, .f32⟩
  | 23 => ⟨S1700000x64, .f32⟩
  | 24 => ⟨S1700000x64, .f32⟩
  | 25 => ⟨S_, .f32⟩
  | 26 => ⟨S100000x64, .f32⟩
  | 27 => ⟨S1700000x1, .i32⟩
  | 28 => ⟨S100000x64, .f32⟩
  | 29 => ⟨S1x64, .f32⟩
  | 30 => ⟨S100000x64, .f32⟩
  | 31 => ⟨S100000x64, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x64, .f32⟩
  | 42 => ⟨S1700000x1, .f32⟩
  | 43 => ⟨S1700000x64, .f32⟩
  | 44 => ⟨S1700000x64, .f32⟩
  | 45 => ⟨S_, .f32⟩
  | 46 => ⟨S100000x64, .f32⟩
  | 47 => ⟨S1700000x1, .i32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_cst : Ref sig .tc := ⟨.hbm, 76, rfl⟩
abbrev main_call1_v0 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_19 : Ref sig .tc := ⟨.hbm, 141, rfl⟩
abbrev main_v100 : Ref sig .tc := ⟨.hbm, 142, rfl⟩
abbrev main_v101 : Ref sig .tc := ⟨.hbm, 143, rfl⟩
abbrev main_c_20 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_22 : Ref sig .tc := ⟨.hbm, 161, rfl⟩
abbrev main_v117 : Ref sig .tc := ⟨.hbm, 162, rfl⟩
abbrev main_v118 : Ref sig .tc := ⟨.hbm, 163, rfl⟩
abbrev main_c_23 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_25 : Ref sig .tc := ⟨.hbm, 180, rfl⟩
abbrev main_v133 : Ref sig .tc := ⟨.hbm, 181, rfl⟩
abbrev main_v134 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  transposes_S512x128_S128x512_1_0 : S512x128.Transposes [1, 0] S128x512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1x128_S128x512_S1x512_1_0_0_1_n_n_wf : DotDims.WF S1x128 S128x512 S1x512 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K_Reg0.lean ====
/-
  Region 0 of @main (`cc0__matmul_kernel`, pipeline 0), entered from ANY contents `V` of the TensorCore's buffers.
  The kernel is gridded over ten row blocks. At a point it loads its two staged input blocks whole, computes one
  value from them (the skeleton's payload `k0_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched at that point
    or earlier (the second input's block index never moves, so it is fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev ra0 : Rect S10000x128 := Rect.unit (s := S10000x128) ![0, 0] S10000x128.size inb_S10000x128_S10000x128_0_0
abbrev rb0 : Rect S128x128 := Rect.unit (s := S128x128) ![0, 0] S128x128.size inb_S128x128_S128x128_0_0
abbrev ro0 : Rect S10000x128 := Rect.unit (s := S10000x128) ![0, 0] S10000x128.size inb_S10000x128_S10000x128_0_0

/-- What the body leaves in the output's staging buffer, from the two input blocks: its one store. -/
def out0 (x0 : Vec F S10000x128 .f32) (x1 : Vec F S128x128 .f32) : Vec F S10000x128 .f32 :=
  View.canon [⟨ro0, k0_pay1 (View.ld x0 ra0) (View.ld x1 rb0)⟩]

/-- The one store is over the whole block, so it covers it. -/
theorem cover0 (p0 : Vec F S10000x128 .f32) (y : S10000x128.Idx) :
    ∃ pc ∈ ([⟨ro0, p0⟩] : List (View.Piece (Elt F) S10000x128 .f32)), y ∈ pc.1.set :=
  View.cover_of_tiled [⟨ro0, p0⟩] S10000x128.size (by rfl) y

set_option maxHeartbeats 1000000 in
/-- The body on whole staging memrefs, the inputs' at `x0`, `x1` and the output's at anything, runs to the
    continuation with the inputs' as they were and the output's at `out0 x0 x1`. -/
theorem sound_kernel0 (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of pipeline 0 on core `c`: the arrays as the region finds them; after the body at point `t`
    each input's buffer at its block and the output's at `out0` of the two input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Reg1.lean ====
/-
  Region 1 of @main (`cc1_kernel`, pipeline 1), entered from ANY contents `V` of the TensorCore's buffers.
  The kernel is gridded over ten row blocks. At a point it loads its two staged input blocks whole, computes one
  value from them (the skeleton's payload `k1_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched at that point
    or earlier (the second input's block index never moves, so it is fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev ra1 : Rect S10000x128 := Rect.unit (s := S10000x128) ![0, 0] S10000x128.size inb_S10000x128_S10000x128_0_0
abbrev rb1 : Rect S1x128 := Rect.unit (s := S1x128) ![0, 0] S1x128.size inb_S1x128_S1x128_0_0
abbrev ro1 : Rect S10000x128 := Rect.unit (s := S10000x128) ![0, 0] S10000x128.size inb_S10000x128_S10000x128_0_0

/-- What the body leaves in the output's staging buffer, from the two input blocks: its one store. -/
def out1 (x0 : Vec F S10000x128 .f32) (x1 : Vec F S1x128 .f32) : Vec F S10000x128 .f32 :=
  View.canon [⟨ro1, k1_pay1 (View.ld x0 ra1) (View.ld x1 rb1)⟩]

/-- The one store is over the whole block, so it covers it. -/
theorem cover1 (p0 : Vec F S10000x128 .f32) (y : S10000x128.Idx) :
    ∃ pc ∈ ([⟨ro1, p0⟩] : List (View.Piece (Elt F) S10000x128 .f32)), y ∈ pc.1.set :=
  View.cover_of_tiled [⟨ro1, p0⟩] S10000x128.size (by rfl) y

set_option maxHeartbeats 1000000 in
/-- The body on whole staging memrefs, the inputs' at `x0`, `x1` and the output's at anything, runs to the
    continuation with the inputs' as they were and the output's at `out1 x0 x1`. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of pipeline 1 on core `c`: the arrays as the region finds them; after the body at point `t`
    each input's buffer at its block and the output's at `out1` of the two input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Reg2.lean ====
/-
  Region 2 of @main (`cc2__matmul_kernel`, pipeline 2), entered from ANY contents `V` of the TensorCore's buffers.
  The kernel is gridded over ten row blocks. At a point it loads its two staged input blocks whole, computes one
  value from them (the skeleton's payload `k2_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched at that point
    or earlier (the second input's block index never moves, so it is fetched once). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev ra2 : Rect S10000x128 := Rect.unit (s := S10000x128) ![0, 0] S10000x128.size inb_S10000x128_S10000x128_0_0
abbrev rb2 : Rect S128x128 := Rect.unit (s := S128x128) ![0, 0] S128x128.size inb_S128x128_S128x128_0_0
abbrev ro2 : Rect S10000x128 := Rect.unit (s := S10000x128) ![0, 0] S10000x128.size inb_S10000x128_S10000x128_0_0

/-- What the body leaves in the output's staging buffer, from the two input blocks: its one store. -/
def out2 (x0 : Vec F S10000x128 .f32) (x1 : Vec F S128x128 .f32) : Vec F S10000x128 .f32 :=
  View.canon [⟨ro2, k2_pay1 (View.ld x0 ra2) (View.ld x1 rb2)⟩]

/-- The one store is over the whole block, so it covers it. -/
theorem cover2 (p0 : Vec F S10000x128 .f32) (y : S10000x128.Idx) :
    ∃ pc ∈ ([⟨ro2, p0⟩] : List (View.Piece (Elt F) S10000x128 .f32)), y ∈ pc.1.set :=
  View.cover_of_tiled [⟨ro2, p0⟩] S10000x128.size (by rfl) y

set_option maxHeartbeats 1000000 in
/-- The body on whole staging memrefs, the inputs' at `x0`, `x1` and the output's at anything, runs to the
    continuation with the inputs' as they were and the output's at `out2 x0 x1`. -/
theorem sound_kernel2 (c : Dev nD) (E : Set ℕ) (i : grid2.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of pipeline 2 on core `c`: the arrays as the region finds them; after the body at point `t`
    each input's buffer at its block and the output's at `out2` of the two input blocks; the invariant is the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Reg3.lean ====
/-
  Region 3 of @main (`cc3_kernel`, pipeline 3), entered from ANY contents `V` of the TensorCore's buffers.
  The kernel is gridded over ten row blocks. At a point it loads its two staged input blocks whole, computes one
  value from them (the skeleton's payload `k3_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether it was fetched at that point
    or earlier (the second input's block index never moves, so it is fetched once). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The three whole-block rectangles the body reads and writes through. -/
abbrev ra3 : Rect S10000x128 := Rect.unit (s := S10000x128) ![0, 0] S10000x128.size inb_S10000x128_S10000x128_0_0
abbrev rb3 : Rect S1x128 := Rect.unit (s := S1x128) ![0, 0] S1x128.size inb_S1x128_S1x128_0_0
abbrev ro3 : Rect S10000x128 := Rect.unit (s := S10000x128) ![0, 0] S10000x128.size inb_S10000x128_S10000x128_0_0

/-- What the body leaves in the output's staging buffer, from the two input blocks: its one store. -/
def out3 (x0 : Vec F S10000x128 .f32) (x1 : Vec F S1x128 .f32) : Vec F S10000x128 .f32 :=
  View.canon [⟨ro3, k3_pay1 (View.ld x0 ra3) (View.ld x1 rb3)⟩]

/-- The one store is over the whole block, so it covers it. -/
theorem cover3 (p0 : Vec F S10000x128 .f32) (y : S10000x128.Idx) :
    ∃ pc ∈ ([⟨ro3, p0⟩] : List (View.Piece (Elt F) S10000x128 .f32)), y ∈ pc.1.set :=
  View.cover_of_tiled [⟨ro3, p0⟩] S10000x128.size (by rfl) y

set_option maxHeartbeats 1000000 in
/-- The body on whole staging memrefs, the inputs' at `x0`, `x1` and the output's at anything, runs to the
    continuation with the inputs' as they were and the output's at `out3 x0 x1`. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of pipeline 3 on core `c`: the arrays as the region finds them; after the body at point `t`
    each input's buffer at its block and the output's at `out3` of the two input blocks; the invariant is the
    scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K_Reg5.lean ====
/-
  Region 5 of @main (`cc5__broadcast_add_kernel`, pipeline 5), entered from ANY contents `V` of the TensorCore's buffers.
  The kernel is gridded over ten row blocks. At a point it loads its two staged input blocks whole, computes one
  value from them (the skeleton's payload `k5_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether it was fetched at that point
    or earlier (the second input's block index never moves, so it is fetched once). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The three whole-block rectangles the body reads and writes through. -/
abbrev ra5 : Rect S10000x128 := Rect.unit (s := S10000x128) ![0, 0] S10000x128.size inb_S10000x128_S10000x128_0_0
abbrev rb5 : Rect S1x128 := Rect.unit (s := S1x128) ![0, 0] S1x128.size inb_S1x128_S1x128_0_0
abbrev ro5 : Rect S10000x128 := Rect.unit (s := S10000x128) ![0, 0] S10000x128.size inb_S10000x128_S10000x128_0_0

/-- What the body leaves in the output's staging buffer, from the two input blocks: its one store. -/
def out5 (x0 : Vec F S10000x128 .f32) (x1 : Vec F S1x128 .f32) : Vec F S10000x128 .f32 :=
  View.canon [⟨ro5, k5_pay1 (View.ld x0 ra5) (View.ld x1 rb5)⟩]

/-- The one store is over the whole block, so it covers it. -/
theorem cover5 (p0 : Vec F S10000x128 .f32) (y : S10000x128.Idx) :
    ∃ pc ∈ ([⟨ro5, p0⟩] : List (View.Piece (Elt F) S10000x128 .f32)), y ∈ pc.1.set :=
  View.cover_of_tiled [⟨ro5, p0⟩] S10000x128.size (by rfl) y

set_option maxHeartbeats 1000000 in
/-- The body on whole staging memrefs, the inputs' at `x0`, `x1` and the output's at anything, runs to the
    continuation with the inputs' as they were and the output's at `out5 x0 x1`. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__broadcast_add_kernel i arg1 harg1 arg2 harg2 arg3 harg3) K := by
  simp only [cc5__broadcast_add_kernel_eq_skeleton]; unfold cc5__broadcast_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of pipeline 5 on core `c`: the arrays as the region finds them; after the body at point `t`
    each input's buffer at its block and the output's at `out5` of the two input blocks; the invariant is the
    scoped buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K_Reg6.lean ====
/-
  Region 6 of @main (`cc6__matmul_kernel`, pipeline 6), entered from ANY contents `V` of the TensorCore's buffers.
  The kernel is gridded over ten row blocks. At a point it loads its two staged input blocks whole, computes one
  value from them (the skeleton's payload `k6_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether it was fetched at that point
    or earlier (the second input's block index never moves, so it is fetched once). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The three whole-block rectangles the body reads and writes through. -/
abbrev ra6 : Rect S10000x128 := Rect.unit (s := S10000x128) ![0, 0] S10000x128.size inb_S10000x128_S10000x128_0_0
abbrev rb6 : Rect S128x64 := Rect.unit (s := S128x64) ![0, 0] S128x64.size inb_S128x64_S128x64_0_0
abbrev ro6 : Rect S10000x64 := Rect.unit (s := S10000x64) ![0, 0] S10000x64.size inb_S10000x64_S10000x64_0_0

/-- What the body leaves in the output's staging buffer, from the two input blocks: its one store. -/
def out6 (x0 : Vec F S10000x128 .f32) (x1 : Vec F S128x64 .f32) : Vec F S10000x64 .f32 :=
  View.canon [⟨ro6, k6_pay1 (View.ld x0 ra6) (View.ld x1 rb6)⟩]

/-- The one store is over the whole block, so it covers it. -/
theorem cover6 (p0 : Vec F S10000x64 .f32) (y : S10000x64.Idx) :
    ∃ pc ∈ ([⟨ro6, p0⟩] : List (View.Piece (Elt F) S10000x64 .f32)), y ∈ pc.1.set :=
  View.cover_of_tiled [⟨ro6, p0⟩] S10000x64.size (by rfl) y

set_option maxHeartbeats 1000000 in
/-- The body on whole staging memrefs, the inputs' at `x0`, `x1` and the output's at anything, runs to the
    continuation with the inputs' as they were and the output's at `out6 x0 x1`. -/
theorem sound_kernel6 (c : Dev nD) (E : Set ℕ) (i : grid6.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-- The proof data of pipeline 6 on core `c`: the arrays as the region finds them; after the body at point `t`
    each input's buffer at its block and the output's at `out6` of the two input blocks; the invariant is the
    scoped buffers no window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K_Reg7.lean ====
/-
  Region 7 of @main (`cc7_kernel`, pipeline 7), entered from ANY contents `V` of the TensorCore's buffers.
  The kernel is gridded over ten row blocks. At a point it loads its two staged input blocks whole, computes one
  value from them (the skeleton's payload `k7_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether it was fetched at that point
    or earlier (the second input's block index never moves, so it is fetched once). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The three whole-block rectangles the body reads and writes through. -/
abbrev ra7 : Rect S10000x64 := Rect.unit (s := S10000x64) ![0, 0] S10000x64.size inb_S10000x64_S10000x64_0_0
abbrev rb7 : Rect S1x64 := Rect.unit (s := S1x64) ![0, 0] S1x64.size inb_S1x64_S1x64_0_0
abbrev ro7 : Rect S10000x64 := Rect.unit (s := S10000x64) ![0, 0] S10000x64.size inb_S10000x64_S10000x64_0_0

/-- What the body leaves in the output's staging buffer, from the two input blocks: its one store. -/
def out7 (x0 : Vec F S10000x64 .f32) (x1 : Vec F S1x64 .f32) : Vec F S10000x64 .f32 :=
  View.canon [⟨ro7, k7_pay1 (View.ld x0 ra7) (View.ld x1 rb7)⟩]

/-- The one store is over the whole block, so it covers it. -/
theorem cover7 (p0 : Vec F S10000x64 .f32) (y : S10000x64.Idx) :
    ∃ pc ∈ ([⟨ro7, p0⟩] : List (View.Piece (Elt F) S10000x64 .f32)), y ∈ pc.1.set :=
  View.cover_of_tiled [⟨ro7, p0⟩] S10000x64.size (by rfl) y

set_option maxHeartbeats 1000000 in
/-- The body on whole staging memrefs, the inputs' at `x0`, `x1` and the output's at anything, runs to the
    continuation with the inputs' as they were and the output's at `out7 x0 x1`. -/
theorem sound_kernel7 (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7 x0 x1)) -∗ K ⟨⟩))
      ⊢ wp frame (wpE (defs₀ (F := F)) Variants.none c none) E (cc7_kernel i arg1 harg1 arg2 harg2 arg3 harg3) K := by
  simp only [cc7_kernel_eq_skeleton]; unfold cc7_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7 _)

/-- The proof data of pipeline 7 on core `c`: the arrays as the region finds them; after the body at point `t`
    each input's buffer at its block and the output's at `out7` of the two input blocks; the invariant is the
    scoped buffers no window stages and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so `sound_kernel7` applies; the invariant and
    the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K_Reg8.lean ====
/-
  Region 8 of @main (`cc8__matmul_kernel`, pipeline 8), entered from ANY contents `V` of the TensorCore's buffers.
  The kernel is gridded over ten row blocks. At a point it loads its two staged input blocks whole, computes one
  value from them (the skeleton's payload `k8_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether it was fetched at that point
    or earlier (the second input's block index never moves, so it is fetched once). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The three whole-block rectangles the body reads and writes through. -/
abbrev ra8 : Rect S10000x128 := Rect.unit (s := S10000x128) ![0, 0] S10000x128.size inb_S10000x128_S10000x128_0_0
abbrev rb8 : Rect S128x64 := Rect.unit (s := S128x64) ![0, 0] S128x64.size inb_S128x64_S128x64_0_0
abbrev ro8 : Rect S10000x64 := Rect.unit (s := S10000x64) ![0, 0] S10000x64.size inb_S10000x64_S10000x64_0_0

/-- What the body leaves in the output's staging buffer, from the two input blocks: its one store. -/
def out8 (x0 : Vec F S10000x128 .f32) (x1 : Vec F S128x64 .f32) : Vec F S10000x64 .f32 :=
  View.canon [⟨ro8, k8_pay1 (View.ld x0 ra8) (View.ld x1 rb8)⟩]

/-- The one store is over the whole block, so it covers it. -/
theorem cover8 (p0 : Vec F S10000x64 .f32) (y : S10000x64.Idx) :
    ∃ pc ∈ ([⟨ro8, p0⟩] : List (View.Piece (Elt F) S10000x64 .f32)), y ∈ pc.1.set :=
  View.cover_of_tiled [⟨ro8, p0⟩] S10000x64.size (by rfl) y

set_option maxHeartbeats 1000000 in
/-- The body on whole staging memrefs, the inputs' at `x0`, `x1` and the output's at anything, runs to the
    continuation with the inputs' as they were and the output's at `out8 x0 x1`. -/
theorem sound_kernel8 (c : Dev nD) (E : Set ℕ) (i : grid8.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8 _)

/-- The proof data of pipeline 8 on core `c`: the arrays as the region finds them; after the body at point `t`
    each input's buffer at its block and the output's at `out8` of the two input blocks; the invariant is the
    scoped buffers no window stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K_Reg9.lean ====
/-
  Region 9 of @main (`cc9_kernel`, pipeline 9), entered from ANY contents `V` of the TensorCore's buffers.
  The kernel is gridded over ten row blocks. At a point it loads its two staged input blocks whole, computes one
  value from them (the skeleton's payload `k9_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, whether it was fetched at that point
    or earlier (the second input's block index never moves, so it is fetched once). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The three whole-block rectangles the body reads and writes through. -/
abbrev ra9 : Rect S10000x64 := Rect.unit (s := S10000x64) ![0, 0] S10000x64.size inb_S10000x64_S10000x64_0_0
abbrev rb9 : Rect S1x64 := Rect.unit (s := S1x64) ![0, 0] S1x64.size inb_S1x64_S1x64_0_0
abbrev ro9 : Rect S10000x64 := Rect.unit (s := S10000x64) ![0, 0] S10000x64.size inb_S10000x64_S10000x64_0_0

/-- What the body leaves in the output's staging buffer, from the two input blocks: its one store. -/
def out9 (x0 : Vec F S10000x64 .f32) (x1 : Vec F S1x64 .f32) : Vec F S10000x64 .f32 :=
  View.canon [⟨ro9, k9_pay1 (View.ld x0 ra9) (View.ld x1 rb9)⟩]

/-- The one store is over the whole block, so it covers it. -/
theorem cover9 (p0 : Vec F S10000x64 .f32) (y : S10000x64.Idx) :
    ∃ pc ∈ ([⟨ro9, p0⟩] : List (View.Piece (Elt F) S10000x64 .f32)), y ∈ pc.1.set :=
  View.cover_of_tiled [⟨ro9, p0⟩] S10000x64.size (by rfl) y

set_option maxHeartbeats 1000000 in
/-- The body on whole staging memrefs, the inputs' at `x0`, `x1` and the output's at anything, runs to the
    continuation with the inputs' as they were and the output's at `out9 x0 x1`. -/
theorem sound_kernel9 (c : Dev nD) (E : Set ℕ) (i : grid9.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9 x0 x1)) -∗ K ⟨⟩))
      ⊢ wp frame (wpE (defs₀ (F := F)) Variants.none c none) E (cc9_kernel i arg1 harg1 arg2 harg2 arg3 harg3) K := by
  simp only [cc9_kernel_eq_skeleton]; unfold cc9_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9 _)

/-- The proof data of pipeline 9 on core `c`: the arrays as the region finds them; after the body at point `t`
    each input's buffer at its block and the output's at `out9` of the two input blocks; the invariant is the
    scoped buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and
    the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K_Reg4Body.lean ====
/-
  The mean-pool kernel of region 4 (`cc4__mean_kernel`, pipeline 4), run once symbolically in each of its three
  control cases. The kernel is gridded over ten row blocks and keeps a running column sum in a scratch buffer: at the
  first point it zeroes the scratch; at every point it adds the column sums of the staged input block to the scratch;
  at the last point it stores the scratch times a named constant over the whole staged output block. So the body
  leaves the scratch at `k4_pay2 s x` of what the scratch held (`s`, the zero block `k4_pay1` at the first point)
  and the input block `x`, and at the last point the output buffer at `k4_pay3` of that.
-/
import proofs.«145243_j28355374088213_1_alg».proof.Proof.Gen.Kernel.Launch
import proofs.«145243_j28355374088213_1_alg».proof.Proof.Gen.Kernel.Skeleton
import proofs.«145243_j28355374088213_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional, from the grid coordinates: the point is the first. -/
abbrev cond4_0 (i : grid4.Coords) : Prop := (Scalar.cmpi .ne (Scalar.extui (Scalar.cmpi .eq (BitVec.ofNat 32 (i 0).val) 0#32)) 0#32) = 1#1
/-- The condition of its second conditional: the point is the last. -/
abbrev cond4_1 (i : grid4.Coords) : Prop := k4_cond2 i = 1#1

/-- The zero offsets of a rank-two rectangle. -/
theorem hz4 : (![0, 0] : Fin 2 → Nat) = fun _ => 0 := funext fun a => by fin_cases a <;> rfl

/-- The whole-block rectangle of the row-vector buffers (the output's staging buffer and the scratch). -/
abbrev rs4 : Rect S1x128 := Rect.unit (s := S1x128) ![0, 0] S1x128.size inb_S1x128_S1x128_0_0

/-- A list of stores into a row-vector buffer whose newest is over the whole buffer covers it. -/
theorem cover4 (p0 : Vec F S1x128 .f32) (L : List (View.Piece (Elt F) S1x128 .f32)) (y : S1x128.Idx) :
    ∃ pc ∈ ((⟨rs4, p0⟩ : View.Piece (Elt F) S1x128 .f32) :: L), y ∈ pc.1.set :=
  ⟨_, List.mem_cons_self, View.mem_set_unit_zero (S := S1x128) hz4 inb_S1x128_S1x128_0_0 y⟩

set_option maxHeartbeats 1000000 in
/-- THE FIRST POINT. On whole memrefs, the input's at `x0`, the output's at `xi1` and the scratch at anything, the
    body runs to the continuation with the input's and the output's as they were and the scratch at
    `k4_pay2 k4_pay1 x0`: it zeroes the scratch, reads the zero block back and adds the block's column sums. -/
theorem sound_kernel4_A (c : Dev nD) (E : Set ℕ) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole)
    (hc0 : cond4_0 i) (hc1 : ¬cond4_1 i)
    (x0 : Vec F S10000x128 .f32) (xi1 : Vec F S1x128 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k4_pay2 (k4_pay1 (F := F)) x0)) -∗ K ⟨⟩))
      ⊢ wp frame (wpE (defs₀ (F := F)) Variants.none c none) E (cc4__mean_kernel i arg1 harg1 arg2 harg2 arg3 harg3) K := by
  simp only [cc4__mean_kernel_eq_skeleton]; unfold cc4__mean_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover4 _ _), View.canon_cons_unit_zero (S := S1x128) hz4]
  sl_unfold_run_names
  rw [View.readCov_unit_zero (S := S1x128) _ hz4]
  simp only [View.readAt_eq_ld, View.ld_unit_zero (S := S10000x128) hz4]

set_option maxHeartbeats 1000000 in
/-- A MIDDLE POINT. The same with the scratch at `xs`: it ends at `k4_pay2 xs x0`; the output's buffer is not touched. -/
theorem sound_kernel4_B (c : Dev nD) (E : Set ℕ) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole)
    (hc0 : ¬cond4_0 i) (hc1 : ¬cond4_1 i)
    (x0 : Vec F S10000x128 .f32) (xi1 : Vec F S1x128 .f32) (xs : Vec F S1x128 .f32) (K : PUnit → sProp 𝕄) :
    iprop(owns (c : Thread nD τ) arg1 fullShare x0 ∗ owns (c : Thread nD τ) arg2 fullShare xi1 ∗ owns (c : Thread nD τ) arg3 fullShare xs
        ∗ (iprop(owns (c : Thread nD τ) arg1 fullShare x0 ∗ owns (c : Thread nD τ) arg2 fullShare xi1 ∗ owns (c : Thread nD τ) arg3 fullShare (k4_pay2 xs x0)) -∗ K ⟨⟩))
      ⊢ wp frame (wpE (defs₀ (F := F)) Variants.none c none) E (cc4__mean_kernel i arg1 harg1 arg2 harg2 arg3 harg3) K := by
  simp only [cc4__mean_kernel_eq_skeleton]; unfold cc4__mean_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover4 _ _), View.canon_cons_unit_zero (S := S1x128) hz4]
  simp only [View.readAt_eq_ld, View.ld_unit_zero (S := S1x128) hz4, View.ld_unit_zero (S := S10000x128) hz4]

set_option maxHeartbeats 1000000 in
/-- THE LAST POINT. The scratch at `xs` ends at `k4_pay2 xs x0` as at a middle point, and the output's buffer, at
    anything, ends at `k4_pay3` of that: the one store over the whole output block. -/
theorem sound_kernel4_C (c : Dev nD) (E : Set ℕ) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole)
    (hc0 : ¬cond4_0 i) (hc1 : cond4_1 i)
    (x0 : Vec F S10000x128 .f32) (xs : Vec F S1x128 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k4_pay3 (k4_pay2 xs x0)) ∗ owns (c : Thread nD τ) arg3 fullShare (k4_pay2 xs x0)) -∗ K ⟨⟩))
      ⊢ wp frame (wpE (defs₀ (F := F)) Variants.none c none) E (cc4__mean_kernel i arg1 harg1 arg2 harg2 arg3 harg3) K := by
  simp only [cc4__mean_kernel_eq_skeleton]; unfold cc4__mean_kernel_skel
  unfold owns
  iintro ⟨⟨%f0, %hf0, H0⟩, ⟨%d1, %f1, -, H1⟩, ⟨%fs, %hfs, HS⟩, Hk⟩
  subst hf0 hfs
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [View.read_writes_eq_canon _ _ _ (cover4 _ _), View.canon_cons_unit_zero (S := S1x128) hz4]
    sl_unfold_run_names
    rw [View.readCov_unit_zero (S := S1x128) _ hz4]
    simp only [View.readAt_eq_ld, View.ld_unit_zero (S := S1x128) hz4, View.ld_unit_zero (S := S10000x128) hz4]
  iexists _; isplitr
  swap; · iexact HS
  ipureintro
  sl_unfold_run_names
  rw [View.read_writes_eq_canon _ _ _ (cover4 _ _), View.canon_cons_unit_zero (S := S1x128) hz4]
  simp only [View.readAt_eq_ld, View.ld_unit_zero (S := S1x128) hz4, View.ld_unit_zero (S := S10000x128) hz4]

end Cert.Kernel.Hand

end
-- ==== Proof.K_Reg4.lean ====
/-
  Region 4 of @main (`cc4__mean_kernel`, pipeline 4), entered from ANY contents `V` of the TensorCore's buffers.
  The kernel is gridded over ten row blocks of its input and keeps the running column sum in a scratch buffer of its
  own: zeroed at the first point, the block's column sums added at every point, and at the last point the sum times a
  named constant stored over the whole output block, which the pipeline writes back there and nowhere else. So the
  proof data carries the scratch's contents from point to point in the invariant — after `n` points the scratch holds
  `acc4 n`, the fold of `k4_pay2` over the first `n` blocks from the zero block —, the output window is idle at every
  point but the last, and the body obligation follows from one symbolic run of the body per control case.
-/
import proofs.«145243_j28355374088213_1_alg».proof.Proof.K_Reg4Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## Where the conditions hold and where the output window is idle -/

/-- The first conditional is taken at the first point only. -/
theorem hcond4_0 : ∀ t : Fin cfg4.N, cond4_0 (grid4.coords t) ↔ t.val % 10 = 0 :=
  (by decide +kernel : ∀ t : Fin grid4.N, cond4_0 (grid4.coords t) ↔ t.val % 10 = 0)
/-- The second at the last point only. -/
theorem hcond4_1 : ∀ t : Fin cfg4.N, cond4_1 (grid4.coords t) ↔ t.val % 10 = 9 :=
  (by decide +kernel : ∀ t : Fin grid4.N, cond4_1 (grid4.coords t) ↔ t.val % 10 = 9)

/-- The input window is never idle. -/
theorem liveAt4_0 : ∀ t : Fin cfg4.N, cfg4.idle 0 (grid4.coords t) = false := by decide +kernel
/-- Before the last point the output window is idle, -/
theorem idleAt4_1 : ∀ t : Fin cfg4.N, ¬cond4_1 (grid4.coords t) → cfg4.idle 1 (grid4.coords t) = true := by decide +kernel
/-- and not written back; -/
theorem noFlush4_1 : ∀ t : Fin cfg4.N, ¬cond4_1 (grid4.coords t) → (cfg4.win 1).flush t = false := by decide +kernel
/-- at the last point it is live. -/
theorem liveAt4_1 : ∀ t : Fin cfg4.N, cond4_1 (grid4.coords t) → cfg4.idle 1 (grid4.coords t) = false := by decide +kernel

/-! ## The scratch from point to point -/

/-- The kernel's scratch operand, a whole scoped buffer of its own. -/
abbrev scM4 : Memref sig .tc .vmem S1x128 .f32 := Memref.whole cc4_scratch0

/-- THE ACCUMULATION. What the scratch holds after `n` points: the zero block, then the column sums of each of the
    first `n` input blocks added in point order (past the grid's end nothing more). A function of the input array
    as the region finds it alone. -/
def acc4 (c : Dev nD) : ℕ → Vec F S1x128 .f32
  | 0 => k4_pay1
  | n + 1 => if h : n < cfg4.N then k4_pay2 (acc4 c n) (iblk4 V c 0 ⟨n, h⟩) else acc4 c n

theorem acc4_zero (c : Dev nD) : acc4 V c 0 = k4_pay1 := rfl

/-- One more point adds its block. -/
theorem acc4_succ (c : Dev nD) (t : Fin cfg4.N) : acc4 V c (t.val + 1) = k4_pay2 (acc4 V c t.val) (iblk4 V c 0 t) := by
  rw [acc4]; exact dif_pos t.isLt

/-- The region's invariant before position `n`: the generator register at some state; the scratch at anything
    before the first point, afterwards at what the points so far left in it; every other scoped buffer that is no
    staging buffer of this pipeline at some contents, untouched. -/
def Phi4 (c : Dev nD) : ℕ → sProp 𝕄
  | 0 => iprop((∃ r, prngReg c r) ∗ (∃ d, owns (c : Thread nD τ) scM4 fullShare d)
      ∗ Pipeline.scopedRestBut (Ix := Unit) (Name := ℕ) (U := UR sig nD τ) (Lvl := ℕ) (Val := Elt F) spec4 c [cc4_scratch0])
  | n + 1 => iprop((∃ r, prngReg c r) ∗ owns (c : Thread nD τ) scM4 fullShare (acc4 V c (n + 1))
      ∗ Pipeline.scopedRestBut (Ix := Unit) (Name := ℕ) (U := UR sig nD τ) (Lvl := ℕ) (Val := Elt F) spec4 c [cc4_scratch0])

theorem Phi4_zero (c : Dev nD) (n : ℕ) (hz : n = 0) :
    Phi4 V c n = iprop((∃ r, prngReg c r) ∗ (∃ d, owns (c : Thread nD τ) scM4 fullShare d)
      ∗ Pipeline.scopedRestBut (Ix := Unit) (Name := ℕ) (U := UR sig nD τ) (Lvl := ℕ) (Val := Elt F) spec4 c [cc4_scratch0]) := by
  subst hz; rfl

theorem Phi4_pos (c : Dev nD) (n : ℕ) (hz : n ≠ 0) :
    Phi4 V c n = iprop((∃ r, prngReg c r) ∗ owns (c : Thread nD τ) scM4 fullShare (acc4 V c n)
      ∗ Pipeline.scopedRestBut (Ix := Unit) (Name := ℕ) (U := UR sig nD τ) (Lvl := ℕ) (Val := Elt F) spec4 c [cc4_scratch0]) := by
  cases n with
  | zero => exact absurd rfl hz
  | succ n => rfl

/-! ## The pipeline's proof data -/

/-- The proof data of pipeline 4 on core `c`: the arrays as the region finds them; after the body at point `t` the
    input's buffer at its block and the output's at `k4_pay3` of the scratch's contents then (consulted at the last
    point only: before it the window is idle and its buffer is handed back as found); the invariant `Phi4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay3 (acc4 V c (t.val + 1))
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = k4_pay3 (acc4 V c (t.val + 1)) := by dsimp only [dat4]

theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := rfl

theorem before4_0 (c : Dev nD) (t : Fin cfg4.N) (d) : (dat4 V c).before 0 t d = iblk4 V c 0 t :=
  before4_0_of V (dat4 V c) (A_eq4 V c 0) (after4_0 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 1000000 in
/-- The body at any point: the input's memref holds its block; the point is the first, a middle one or the last, and
    that case's run applies, the invariant handing it the scratch at what the points before left (at anything at the
    first) and taking it back with this point's block added; before the last point the output's buffer goes back as
    it was found, at the last it holds `k4_pay3` of the scratch. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [Phi4_succ, Phi4_castSucc, Phi4_pos V c (t.val + 1) (Nat.succ_ne_zero _), acc4_succ]
  rw [show (dat4 V c).leavesExact 0 t = owns (c : Thread nD τ) (st4_0 t) fullShare ((dat4 V c).after 0 t) from by
    unfold Dat.leavesExact; rw [liveAt4_0 t], after4_0]
  have hN : t.val < 10 := lt_of_lt_of_eq t.isLt (show cfg4.N = 10 from N_4)
  by_cases h1 : t.val % 10 = 9
  · have h0 : ¬t.val % 10 = 0 := by omega
    have hz : t.val ≠ 0 := by omega
    rw [show (dat4 V c).leavesExact 1 t = owns (c : Thread nD τ) (st4_1 t) fullShare ((dat4 V c).after 1 t) from by
      unfold Dat.leavesExact; rw [liveAt4_1 t ((hcond4_1 t).mpr h1)], after4_1, acc4_succ]
    rw [Phi4_pos V c _ hz]
    iintro ⟨⟨Hg, HS, Hr⟩, Ho, ⟨%d0, H0⟩, ⟨%d1, H1⟩⟩
    iapply (sound_kernel4_C c Set.univ (grid4.coords t) _ _ _ _ _ _ (fun h => h0 ((hcond4_0 t).mp h)) ((hcond4_1 t).mpr h1) (iblk4 V c 0 t) (acc4 V c t.val) _)
    isplitl [H0]; · iexact H0
    isplitl [H1]; · iexists _; iexact H1
    isplitl [HS]; · iexact HS
    iintro ⟨H0, H1, HS⟩
    isplitl [Hg HS Hr]
    · isplitl [Hg]; · iexact Hg
      isplitl [HS]; · iexact HS
      iexact Hr
    isplitl [Ho]; · iexact Ho
    isplitl [H0]; · iexact H0
    iexact H1
  · rw [Dat.leavesExact_idle (dat4 V c) 1 t (idleAt4_1 t (fun h => h1 ((hcond4_1 t).mp h))) (noFlush4_1 t (fun h => h1 ((hcond4_1 t).mp h)))]
    by_cases h0 : t.val % 10 = 0
    · have hz : t.val = 0 := by omega
      rw [Phi4_zero V c _ hz, show acc4 V c t.val = k4_pay1 from by rw [hz]; rfl]
      iintro ⟨⟨Hg, HS, Hr⟩, Ho, ⟨%d0, H0⟩, ⟨%d1, H1⟩⟩
      iapply (sound_kernel4_A c Set.univ (grid4.coords t) _ _ _ _ _ _ ((hcond4_0 t).mpr h0) (fun h => h1 ((hcond4_1 t).mp h)) (iblk4 V c 0 t) _ _)
      isplitl [H0]; · iexact H0
      isplitl [H1]; · iexact H1
      isplitl [HS]; · iexact HS
      iintro ⟨H0, H1, HS⟩
      isplitl [Hg HS Hr]
      · isplitl [Hg]; · iexact Hg
        isplitl [HS]; · iexact HS
        iexact Hr
      isplitl [Ho]; · iexact Ho
      isplitl [H0]; · iexact H0
      iexists _; iexact H1
    · have hz : t.val ≠ 0 := by omega
      rw [Phi4_pos V c _ hz]
      iintro ⟨⟨Hg, HS, Hr⟩, Ho, ⟨%d0, H0⟩, ⟨%d1, H1⟩⟩
      iapply (sound_kernel4_B c Set.univ (grid4.coords t) _ _ _ _ _ _ (fun h => h0 ((hcond4_0 t).mp h)) (fun h => h1 ((hcond4_1 t).mp h)) (iblk4 V c 0 t) _ (acc4 V c t.val) _)
      isplitl [H0]; · iexact H0
      isplitl [H1]; · iexact H1
      isplitl [HS]; · iexact HS
      iintro ⟨H0, H1, HS⟩
      isplitl [Hg HS Hr]
      · isplitl [Hg]; · iexact Hg
        isplitl [HS]; · iexact HS
        iexact Hr
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the launch hands the region — the generator register and the scoped buffers no window stages — is the
    invariant before the first point: the scratch is one of those buffers, at some contents. -/
theorem hin4 (c : Dev nD) : iprop((∃ r, prngReg c r) ∗ Pipeline.scopedRest (Ix := Unit) (Name := ℕ) (U := UR sig nD τ) (Lvl := ℕ) (Val := Elt F) spec4 c) ⊢ ((dat4 V c).Φ 0 : sProp 𝕄) := by
  rw [show (dat4 V c).Φ 0 = Phi4 V c 0 from rfl, Phi4_zero V c 0 rfl, scopedRest4_split]
  simp only [scM4, owns_whole]
  iintro ⟨Hg, Hf, Hr⟩
  isplitl [Hg]; · iexact Hg
  isplitl [Hf]; · iexact Hf
  iexact Hr

/-- After the last point the invariant gives them back: the scratch's named contents are forgotten. -/
theorem hout4 (c : Dev nD) : ((dat4 V c).Φ (Fin.last cfg4.N) : sProp 𝕄) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl,
    Phi4_pos V c _ (by rw [Fin.val_last]; have : cfg4.N = 10 := N_4; omega), scopedRest4_split]
  simp only [scM4, owns_whole]
  iintro ⟨Hg, HS, Hr⟩
  isplitl [Hg]; · iexact Hg
  isplitl [HS]; · iexists _; iexact HS
  iexact Hr

/-- Every array is held at the full share, and the core owes nothing. -/
theorem share4 (c : Dev nD) : ∀ w, (dat4 V c).q w = fullShare := fun _ => rfl
theorem share_full4 (c : Dev nD) : ∀ w, (dat4 V c).share w = fullShare := (dat4 V c).share_full fun _ => rfl
theorem owed4 (c : Dev nD) (t : Fin (cfg4.N + 1)) : (dat4 V c).owed t = 0 := rfl

/-! ## The arrays after the region -/

/-- The result: `k4_pay3` of the scratch after all ten points, as contents of the result array (its one block is
    the array). -/
abbrev result4 (c : Dev nD) : Buf (Elt F) ((c : Thread nD τ).loc main_v63) := k4_pay3 (acc4 V c 10)

/-- The one write-back, at the last point, writes it: block (0, 0) of the [1,128] array read through zero offsets is
    the array. -/
theorem flushed4_1 (c : Dev nD) (t : Fin cfg4.N) (hf : (cfg4.win 1).flush t = true) :
    (dat4 V c).flushed 1 t = ((cfg4.win 1).blk t).view.read (Elt F) (result4 V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  have hz' : (fun a => win4_1.index t4_9 a * main_v63.ty.shape.size a) = fun _ => 0 := funext fun a => by fin_cases a <;> decide
  exact (Memref.read_access_unit_zero (Elt F) main_v63 hz' (fun a => by rw [congrFun hz' a]; simp) (result4 V c)).symm

/-- So the result array ends holding it: the last point's block covers the array. -/
theorem final4 (c : Dev nD) : (dat4 V c).arrAt 1 cfg4.N = result4 V c :=
  (dat4 V c).arrAt_eq_of_cover 1 (result4 V c) (flushed4_1 V c) fun i =>
    ⟨t4_9, (flush4_1 t4_9).mpr rfl, by
      show i ∈ ((View.whole main_v63).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 128 from by decide +kernel]; omega⟩

/-- The input array is as the region found it. -/
theorem final4_in (c : Dev nD) : (dat4 V c).arrAt 0 cfg4.N = V c main_v62 :=
  ((dat4 V c).arrAt_in 0 rfl _).trans (A_eq4 V c 0)

end Cert.Kernel.Hand

end
-- ==== Proof.K_Pdats.lean ====
/-
  The proof data of the ten pipelines as ONE family, each region's at the contents its region is entered from: the
  launch contents pushed through the host stretches, with each earlier region's output array at what that region
  left (the unknowns `outs`, pinned later). Beside it: what rides along between the items (the generator register at
  some state, nothing owed) and the trivial level assignment.
-/
import proofs.«145243_j28355374088213_1_alg».proof.Proof.K_Reg0
import proofs.«145243_j28355374088213_1_alg».proof.Proof.K_Reg1
import proofs.«145243_j28355374088213_1_alg».proof.Proof.K_Reg2
import proofs.«145243_j28355374088213_1_alg».proof.Proof.K_Reg3
import proofs.«145243_j28355374088213_1_alg».proof.Proof.K_Reg5
import proofs.«145243_j28355374088213_1_alg».proof.Proof.K_Reg6
import proofs.«145243_j28355374088213_1_alg».proof.Proof.K_Reg7
import proofs.«145243_j28355374088213_1_alg».proof.Proof.K_Reg8
import proofs.«145243_j28355374088213_1_alg».proof.Proof.K_Reg9
import proofs.«145243_j28355374088213_1_alg».proof.Proof.K_Reg4
import proofs.«145243_j28355374088213_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Every pipeline's proof data, each at its region's entry contents. -/
def pdats : (p : Fin 10) → (c : Dev nD) → Dat τ (Elt F) Unit ℕ (UR sig nD τ) ℕ (cfgs p) c
  | ⟨0, _⟩ => fun c => dat0 (fun c b => V3 m c b) c
  | ⟨1, _⟩ => fun c => dat1 (fun c b => V5 m outs c b) c
  | ⟨2, _⟩ => fun c => dat2 (fun c b => V6 m outs c b) c
  | ⟨3, _⟩ => fun c => dat3 (fun c b => V8 m outs c b) c
  | ⟨4, _⟩ => fun c => dat4 (fun c b => V9 m outs c b) c
  | ⟨5, _⟩ => fun c => dat5 (fun c b => V11 m outs c b) c
  | ⟨6, _⟩ => fun c => dat6 (fun c b => V12 m outs c b) c
  | ⟨7, _⟩ => fun c => dat7 (fun c b => V14 m outs c b) c
  | ⟨8, _⟩ => fun c => dat8 (fun c b => V15 m outs c b) c
  | ⟨9, _⟩ => fun c => dat9 (fun c b => V17 m outs c b) c

/-- No core owes another anything: no level is assigned. -/
abbrev L : GSem nD τ sig → Finset Unit := fun _ => ∅
abbrev lv : GSem nD τ sig → Unit → ℕ := fun _ _ => 0

/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.Kernel.Hand

end
-- ==== Proof.K_Outs.lean ====
/-
  The contents the regions leave, constructed: a chain of valuations from the launch memory — a host stretch applied,
  or a region's output array replaced by what that region's pipeline leaves — and the unknowns `outs` read off the
  chain's last stage. Each region's output array is written once and never again, so the last stage still holds it;
  hence the conditional frame's valuations at these `outs` ARE the chain's stages, and every region's unknown is
  what its pipeline leaves from the contents it was entered at.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The chain's stages (named after the item they follow) and what each region leaves in its output array. -/
def U3 (c : Dev nD) : Valuation τ sig (Elt F) := V3 m c
def O4 (c : Dev nD) : Buf (Elt F) ((c : Thread nD τ).loc main_v31) := (dat0 (fun c b => U3 m c b) c).arrAt 2 cfg0.N
def U4 (c : Dev nD) : Valuation τ sig (Elt F) := Function.update (U3 m c) main_v31 (O4 m c)
def U5 (c : Dev nD) : Valuation τ sig (Elt F) := StableHlo.after hostOps1 (U4 m c)
def O6 (c : Dev nD) : Buf (Elt F) ((c : Thread nD τ).loc main_v46) := (dat1 (fun c b => U5 m c b) c).arrAt 2 cfg1.N
def U6 (c : Dev nD) : Valuation τ sig (Elt F) := Function.update (U5 m c) main_v46 (O6 m c)
def O7 (c : Dev nD) : Buf (Elt F) ((c : Thread nD τ).loc main_v47) := (dat2 (fun c b => U6 m c b) c).arrAt 2 cfg2.N
def U7 (c : Dev nD) : Valuation τ sig (Elt F) := Function.update (U6 m c) main_v47 (O7 m c)
def U8 (c : Dev nD) : Valuation τ sig (Elt F) := StableHlo.after hostOps3 (U7 m c)
def O9 (c : Dev nD) : Buf (Elt F) ((c : Thread nD τ).loc main_v62) := (dat3 (fun c b => U8 m c b) c).arrAt 2 cfg3.N
def U9 (c : Dev nD) : Valuation τ sig (Elt F) := Function.update (U8 m c) main_v62 (O9 m c)
def O10 (c : Dev nD) : Buf (Elt F) ((c : Thread nD τ).loc main_v63) := (dat4 (fun c b => U9 m c b) c).arrAt 1 cfg4.N
def U10 (c : Dev nD) : Valuation τ sig (Elt F) := Function.update (U9 m c) main_v63 (O10 m c)
def U11 (c : Dev nD) : Valuation τ sig (Elt F) := StableHlo.after hostOps5 (U10 m c)
def O12 (c : Dev nD) : Buf (Elt F) ((c : Thread nD τ).loc main_v90) := (dat5 (fun c b => U11 m c b) c).arrAt 2 cfg5.N
def U12 (c : Dev nD) : Valuation τ sig (Elt F) := Function.update (U11 m c) main_v90 (O12 m c)
def O13 (c : Dev nD) : Buf (Elt F) ((c : Thread nD τ).loc main_v91) := (dat6 (fun c b => U12 m c b) c).arrAt 2 cfg6.N
def U13 (c : Dev nD) : Valuation τ sig (Elt F) := Function.update (U12 m c) main_v91 (O13 m c)
def U14 (c : Dev nD) : Valuation τ sig (Elt F) := StableHlo.after hostOps7 (U13 m c)
def O15 (c : Dev nD) : Buf (Elt F) ((c : Thread nD τ).loc main_v106) := (dat7 (fun c b => U14 m c b) c).arrAt 2 cfg7.N
def U15 (c : Dev nD) : Valuation τ sig (Elt F) := Function.update (U14 m c) main_v106 (O15 m c)
def O16 (c : Dev nD) : Buf (Elt F) ((c : Thread nD τ).loc main_v107) := (dat8 (fun c b => U15 m c b) c).arrAt 2 cfg8.N
def U16 (c : Dev nD) : Valuation τ sig (Elt F) := Function.update (U15 m c) main_v107 (O16 m c)
def U17 (c : Dev nD) : Valuation τ sig (Elt F) := StableHlo.after hostOps9 (U16 m c)
def O18 (c : Dev nD) : Buf (Elt F) ((c : Thread nD τ).loc main_v122) := (dat9 (fun c b => U17 m c b) c).arrAt 2 cfg9.N
def U18 (c : Dev nD) : Valuation τ sig (Elt F) := Function.update (U17 m c) main_v122 (O18 m c)

/-- Every region's output array at what the region leaves, over the launch memory elsewhere. -/
def B (c : Dev nD) : Valuation τ sig (Elt F) :=
  (Function.update (Function.update (Function.update (Function.update (Function.update (Function.update (Function.update (Function.update (Function.update (Function.update (V0 m c) main_v31 (O4 m c)) main_v46 (O6 m c)) main_v47 (O7 m c)) main_v62 (O9 m c)) main_v63 (O10 m c)) main_v90 (O12 m c)) main_v91 (O13 m c)) main_v106 (O15 m c)) main_v107 (O16 m c)) main_v122 (O18 m c))

/-- The unknowns: whatever the item, a buffer's contents in `B`. -/
def outs : Outs (F := F) := fun _ r c => B m c r

theorem outs_4 (J : ℕ) (c : Dev nD) : outs m J main_v31 c = O4 m c := by
  show B m c main_v31 = _
  unfold B
  rw [Function.update_of_ne (StableHlo.devRef_ne_of_ne (by decide) : (Proc.devRef .tc main_v31 : DevRef τ sig) ≠ Proc.devRef .tc main_v122),
    Function.update_of_ne (StableHlo.devRef_ne_of_ne (by decide) : (Proc.devRef .tc main_v31 : DevRef τ sig) ≠ Proc.devRef .tc main_v107),
    Function.update_of_ne (StableHlo.devRef_ne_of_ne (by decide) : (Proc.devRef .tc main_v31 : DevRef τ sig) ≠ Proc.devRef .tc main_v106),
    Function.update_of_ne (StableHlo.devRef_ne_of_ne (by decide) : (Proc.devRef .tc main_v31 : DevRef τ sig) ≠ Proc.devRef .tc main_v91),
    Function.update_of_ne (StableHlo.devRef_ne_of_ne (by decide) : (Proc.devRef .tc main_v31 : DevRef τ sig) ≠ Proc.devRef .tc main_v90),
    Function.update_of_ne (StableHlo.devRef_ne_of_ne (by decide) : (Proc.devRef .tc main_v31 : DevRef τ sig) ≠ Proc.devRef .tc main_v63),
    Function.update_of_ne (StableHlo.devRef_ne_of_ne (by decide) : (Proc.devRef .tc main_v31 : DevRef τ sig) ≠ Proc.devRef .tc main_v62),
    Function.update_of_ne (StableHlo.devRef_ne_of_ne (by decide) : (Proc.devRef .tc main_v31 : DevRef τ sig) ≠ Proc.devRef .tc main_v47),
    Function.update_of_ne (StableHlo.devRef_ne_of_ne (by decide) : (Proc.devRef .tc main_v31 : DevRef τ sig) ≠ Proc.devRef .tc main_v46),
    Function.update_self]
theorem outs_6 (J : ℕ) (c : Dev nD) : outs m J main_v46 c = O6 m c := by
  show B m c main_v46 = _
  unfold B
  rw [Function.update_of_ne (StableHlo.devRef_ne_of_ne (by decide) : (Proc.devRef .tc main_v46 : DevRef τ sig) ≠ Proc.devRef .tc main_v122),
    Function.update_of_ne (StableHlo.devRef_ne_of_ne (by decide) : (Proc.devRef .tc main_v46 : DevRef τ sig) ≠ Proc.devRef .tc main_v107),
    Function.update_of_ne (StableHlo.devRef_ne_of_ne (by decide) : (Proc.devRef .tc main_v46 : DevRef τ sig) ≠ Proc.devRef .tc main_v106),
    Function.update_of_ne (StableHlo.devRef_ne_of_ne (by decide) : (Proc.devRef .tc main_v46 : DevRef τ sig) ≠ Proc.devRef .tc main_v91),
    Function.update_of_ne (StableHlo.devRef_ne_of_ne (by decide) : (Proc.devRef .tc main_v46 : DevRef τ sig) ≠ Proc.devRef .tc main_v90),
    Function.update_of_ne (StableHlo.devRef_ne_of_ne (by decide) : (Proc.devRef .tc main_v46 : DevRef τ sig) ≠ Proc.devRef .tc main_v63),
    Function.update_of_ne (StableHlo.devRef_ne_of_ne (by decide) : (Proc.devRef .tc main_v46 : DevRef τ sig) ≠ Proc.devRef .tc main_v62),
    Function.update_of_ne (StableHlo.devRef_ne_of_ne (by decide) : (Proc.devRef .tc main_v46 : DevRef τ sig) ≠ Proc.devRef .tc main_v47),
    Function.update_self]
theorem outs_7 (J : ℕ) (c : Dev nD) : outs m J main_v47 c = O7 m c := by
  show B m c main_v47 = _
  unfold B
  rw [Function.update_of_ne (StableHlo.devRef_ne_of_ne (by decide) : (Proc.devRef .tc main_v47 : DevRef τ sig) ≠ Proc.devRef .tc main_v122),
    Function.update_of_ne (StableHlo.devRef_ne_of_ne (by decide) : (Proc.devRef .tc main_v47 : DevRef τ sig) ≠ Proc.devRef .tc main_v107),
    Function.update_of_ne (StableHlo.devRef_ne_of_ne (by decide) : (Proc.devRef .tc main_v47 : DevRef τ sig) ≠ Proc.devRef .tc main_v106),
    Function.update_of_ne (StableHlo.devRef_ne_of_ne (by decide) : (Proc.devRef .tc main_v47 : DevRef τ sig) ≠ Proc.devRef .tc main_v91),
    Function.update_of_ne (StableHlo.devRef_ne_of_ne (by decide) : (Proc.devRef .tc main_v47 : DevRef τ sig) ≠ Proc.devRef .tc main_v90),
    Function.update_of_ne (StableHlo.devRef_ne_of_ne (by decide) : (Proc.devRef .tc main_v47 : DevRef τ sig) ≠ Proc.devRef .tc main_v63),
    Function.update_of_ne (StableHlo.devRef_ne_of_ne (by decide) : (Proc.devRef .tc main_v47 : DevRef τ sig) ≠ Proc.devRef .tc main_v62),
    Function.update_self]
theorem outs_9 (J : ℕ) (c : Dev nD) : outs m J main_v62 c = O9 m c := by
  show B m c main_v62 = _
  unfold B
  rw [Function.update_of_ne (StableHlo.devRef_ne_of_ne (by decide) : (Proc.devRef .tc main_v62 : DevRef τ sig) ≠ Proc.devRef .tc main_v122),
    Function.update_of_ne (StableHlo.devRef_ne_of_ne (by decide) : (Proc.devRef .tc main_v62 : DevRef τ sig) ≠ Proc.devRef .tc main_v107),
    Function.update_of_ne (StableHlo.devRef_ne_of_ne (by decide) : (Proc.devRef .tc main_v62 : DevRef τ sig) ≠ Proc.devRef .tc main_v106),
    Function.update_of_ne (StableHlo.devRef_ne_of_ne (by decide) : (Proc.devRef .tc main_v62 : DevRef τ sig) ≠ Proc.devRef .tc main_v91),
    Function.update_of_ne (StableHlo.devRef_ne_of_ne (by decide) : (Proc.devRef .tc main_v62 : DevRef τ sig) ≠ Proc.devRef .tc main_v90),
    Function.update_of_ne (StableHlo.devRef_ne_of_ne (by decide) : (Proc.devRef .tc main_v62 : DevRef τ sig) ≠ Proc.devRef .tc main_v63),
    Function.update_self]
theorem outs_10 (J : ℕ) (c : Dev nD) : outs m J main_v63 c = O10 m c := by
  show B m c main_v63 = _
  unfold B
  rw [Function.update_of_ne (StableHlo.devRef_ne_of_ne (by decide) : (Proc.devRef .tc main_v63 : DevRef τ sig) ≠ Proc.devRef .tc main_v122),
    Function.update_of_ne (StableHlo.devRef_ne_of_ne (by decide) : (Proc.devRef .tc main_v63 : DevRef τ sig) ≠ Proc.devRef .tc main_v107),
    Function.update_of_ne (StableHlo.devRef_ne_of_ne (by decide) : (Proc.devRef .tc main_v63 : DevRef τ sig) ≠ Proc.devRef .tc main_v106),
    Function.update_of_ne (StableHlo.devRef_ne_of_ne (by decide) : (Proc.devRef .tc main_v63 : DevRef τ sig) ≠ Proc.devRef .tc main_v91),
    Function.update_of_ne (StableHlo.devRef_ne_of_ne (by decide) : (Proc.devRef .tc main_v63 : DevRef τ sig) ≠ Proc.devRef .tc main_v90),
    Function.update_self]
theorem outs_12 (J : ℕ) (c : Dev nD) : outs m J main_v90 c = O12 m c := by
  show B m c main_v90 = _
  unfold B
  rw [Function.update_of_ne (StableHlo.devRef_ne_of_ne (by decide) : (Proc.devRef .tc main_v90 : DevRef τ sig) ≠ Proc.devRef .tc main_v122),
    Function.update_of_ne (StableHlo.devRef_ne_of_ne (by decide) : (Proc.devRef .tc main_v90 : DevRef τ sig) ≠ Proc.devRef .tc main_v107),
    Function.update_of_ne (StableHlo.devRef_ne_of_ne (by decide) : (Proc.devRef .tc main_v90 : DevRef τ sig) ≠ Proc.devRef .tc main_v106),
    Function.update_of_ne (StableHlo.devRef_ne_of_ne (by decide) : (Proc.devRef .tc main_v90 : DevRef τ sig) ≠ Proc.devRef .tc main_v91),
    Function.update_self]
theorem outs_13 (J : ℕ) (c : Dev nD) : outs m J main_v91 c = O13 m c := by
  show B m c main_v91 = _
  unfold B
  rw [Function.update_of_ne (StableHlo.devRef_ne_of_ne (by decide) : (Proc.devRef .tc main_v91 : DevRef τ sig) ≠ Proc.devRef .tc main_v122),
    Function.update_of_ne (StableHlo.devRef_ne_of_ne (by decide) : (Proc.devRef .tc main_v91 : DevRef τ sig) ≠ Proc.devRef .tc main_v107),
    Function.update_of_ne (StableHlo.devRef_ne_of_ne (by decide) : (Proc.devRef .tc main_v91 : DevRef τ sig) ≠ Proc.devRef .tc main_v106),
    Function.update_self]
theorem outs_15 (J : ℕ) (c : Dev nD) : outs m J main_v106 c = O15 m c := by
  show B m c main_v106 = _
  unfold B
  rw [Function.update_of_ne (StableHlo.devRef_ne_of_ne (by decide) : (Proc.devRef .tc main_v106 : DevRef τ sig) ≠ Proc.devRef .tc main_v122),
    Function.update_of_ne (StableHlo.devRef_ne_of_ne (by decide) : (Proc.devRef .tc main_v106 : DevRef τ sig) ≠ Proc.devRef .tc main_v107),
    Function.update_self]
theorem outs_16 (J : ℕ) (c : Dev nD) : outs m J main_v107 c = O16 m c := by
  show B m c main_v107 = _
  unfold B
  rw [Function.update_of_ne (StableHlo.devRef_ne_of_ne (by decide) : (Proc.devRef .tc main_v107 : DevRef τ sig) ≠ Proc.devRef .tc main_v122),
    Function.update_self]
theorem outs_18 (J : ℕ) (c : Dev nD) : outs m J main_v122 c = O18 m c := by
  show B m c main_v122 = _
  unfold B
  rw [Function.update_self]

/-- The conditional frame's valuations at these unknowns are the chain's stages. -/
theorem V4_eq (c : Dev nD) : V4 m (outs m) c = U4 m c := by
  show Function.update (V3 m c) main_v31 (outs m 4 main_v31 c) = Function.update (U3 m c) main_v31 (O4 m c)
  rw [outs_4]; rfl
theorem V5_eq (c : Dev nD) : V5 m (outs m) c = U5 m c := by
  show StableHlo.after hostOps1 (V4 m (outs m) c) = StableHlo.after hostOps1 (U4 m c)
  rw [V4_eq]
theorem V6_eq (c : Dev nD) : V6 m (outs m) c = U6 m c := by
  show Function.update (V5 m (outs m) c) main_v46 (outs m 6 main_v46 c) = Function.update (U5 m c) main_v46 (O6 m c)
  rw [outs_6, V5_eq]
theorem V7_eq (c : Dev nD) : V7 m (outs m) c = U7 m c := by
  show Function.update (V6 m (outs m) c) main_v47 (outs m 7 main_v47 c) = Function.update (U6 m c) main_v47 (O7 m c)
  rw [outs_7, V6_eq]
theorem V8_eq (c : Dev nD) : V8 m (outs m) c = U8 m c := by
  show StableHlo.after hostOps3 (V7 m (outs m) c) = StableHlo.after hostOps3 (U7 m c)
  rw [V7_eq]
theorem V9_eq (c : Dev nD) : V9 m (outs m) c = U9 m c := by
  show Function.update (V8 m (outs m) c) main_v62 (outs m 9 main_v62 c) = Function.update (U8 m c) main_v62 (O9 m c)
  rw [outs_9, V8_eq]
theorem V10_eq (c : Dev nD) : V10 m (outs m) c = U10 m c := by
  show Function.update (V9 m (outs m) c) main_v63 (outs m 10 main_v63 c) = Function.update (U9 m c) main_v63 (O10 m c)
  rw [outs_10, V9_eq]
theorem V11_eq (c : Dev nD) : V11 m (outs m) c = U11 m c := by
  show StableHlo.after hostOps5 (V10 m (outs m) c) = StableHlo.after hostOps5 (U10 m c)
  rw [V10_eq]
theorem V12_eq (c : Dev nD) : V12 m (outs m) c = U12 m c := by
  show Function.update (V11 m (outs m) c) main_v90 (outs m 12 main_v90 c) = Function.update (U11 m c) main_v90 (O12 m c)
  rw [outs_12, V11_eq]
theorem V13_eq (c : Dev nD) : V13 m (outs m) c = U13 m c := by
  show Function.update (V12 m (outs m) c) main_v91 (outs m 13 main_v91 c) = Function.update (U12 m c) main_v91 (O13 m c)
  rw [outs_13, V12_eq]
theorem V14_eq (c : Dev nD) : V14 m (outs m) c = U14 m c := by
  show StableHlo.after hostOps7 (V13 m (outs m) c) = StableHlo.after hostOps7 (U13 m c)
  rw [V13_eq]
theorem V15_eq (c : Dev nD) : V15 m (outs m) c = U15 m c := by
  show Function.update (V14 m (outs m) c) main_v106 (outs m 15 main_v106 c) = Function.update (U14 m c) main_v106 (O15 m c)
  rw [outs_15, V14_eq]
theorem V16_eq (c : Dev nD) : V16 m (outs m) c = U16 m c := by
  show Function.update (V15 m (outs m) c) main_v107 (outs m 16 main_v107 c) = Function.update (U15 m c) main_v107 (O16 m c)
  rw [outs_16, V15_eq]
theorem V17_eq (c : Dev nD) : V17 m (outs m) c = U17 m c := by
  show StableHlo.after hostOps9 (V16 m (outs m) c) = StableHlo.after hostOps9 (U16 m c)
  rw [V16_eq]
theorem V18_eq (c : Dev nD) : V18 m (outs m) c = U18 m c := by
  show Function.update (V17 m (outs m) c) main_v122 (outs m 18 main_v122 c) = Function.update (U17 m c) main_v122 (O18 m c)
  rw [outs_18, V17_eq]

/-- Each unknown is what its region's pipeline leaves from the contents the region is entered at. -/
theorem ok0 (c : Dev nD) : outs m 4 main_v31 c = (pdats m (outs m) 0 c).arrAt 2 cfg0.N := by
  rw [outs_4]
  show (dat0 (fun c b => U3 m c b) c).arrAt 2 cfg0.N = (dat0 (fun c b => V3 m c b) c).arrAt 2 cfg0.N
  rfl
theorem ok1 (c : Dev nD) : outs m 6 main_v46 c = (pdats m (outs m) 1 c).arrAt 2 cfg1.N := by
  rw [outs_6]
  have e : (fun (c : Dev nD) (b : Ref sig .tc) => V5 m (outs m) c b) = (fun (c : Dev nD) (b : Ref sig .tc) => U5 m c b) := by
    funext c b; rw [V5_eq]
  show (dat1 (fun c b => U5 m c b) c).arrAt 2 cfg1.N = (dat1 (fun c b => V5 m (outs m) c b) c).arrAt 2 cfg1.N
  rw [e]
theorem ok2 (c : Dev nD) : outs m 7 main_v47 c = (pdats m (outs m) 2 c).arrAt 2 cfg2.N := by
  rw [outs_7]
  have e : (fun (c : Dev nD) (b : Ref sig .tc) => V6 m (outs m) c b) = (fun (c : Dev nD) (b : Ref sig .tc) => U6 m c b) := by
    funext c b; rw [V6_eq]
  show (dat2 (fun c b => U6 m c b) c).arrAt 2 cfg2.N = (dat2 (fun c b => V6 m (outs m) c b) c).arrAt 2 cfg2.N
  rw [e]
theorem ok3 (c : Dev nD) : outs m 9 main_v62 c = (pdats m (outs m) 3 c).arrAt 2 cfg3.N := by
  rw [outs_9]
  have e : (fun (c : Dev nD) (b : Ref sig .tc) => V8 m (outs m) c b) = (fun (c : Dev nD) (b : Ref sig .tc) => U8 m c b) := by
    funext c b; rw [V8_eq]
  show (dat3 (fun c b => U8 m c b) c).arrAt 2 cfg3.N = (dat3 (fun c b => V8 m (outs m) c b) c).arrAt 2 cfg3.N
  rw [e]
theorem ok4 (c : Dev nD) : outs m 10 main_v63 c = (pdats m (outs m) 4 c).arrAt 1 cfg4.N := by
  rw [outs_10]
  have e : (fun (c : Dev nD) (b : Ref sig .tc) => V9 m (outs m) c b) = (fun (c : Dev nD) (b : Ref sig .tc) => U9 m c b) := by
    funext c b; rw [V9_eq]
  show (dat4 (fun c b => U9 m c b) c).arrAt 1 cfg4.N = (dat4 (fun c b => V9 m (outs m) c b) c).arrAt 1 cfg4.N
  rw [e]
theorem ok5 (c : Dev nD) : outs m 12 main_v90 c = (pdats m (outs m) 5 c).arrAt 2 cfg5.N := by
  rw [outs_12]
  have e : (fun (c : Dev nD) (b : Ref sig .tc) => V11 m (outs m) c b) = (fun (c : Dev nD) (b : Ref sig .tc) => U11 m c b) := by
    funext c b; rw [V11_eq]
  show (dat5 (fun c b => U11 m c b) c).arrAt 2 cfg5.N = (dat5 (fun c b => V11 m (outs m) c b) c).arrAt 2 cfg5.N
  rw [e]
theorem ok6 (c : Dev nD) : outs m 13 main_v91 c = (pdats m (outs m) 6 c).arrAt 2 cfg6.N := by
  rw [outs_13]
  have e : (fun (c : Dev nD) (b : Ref sig .tc) => V12 m (outs m) c b) = (fun (c : Dev nD) (b : Ref sig .tc) => U12 m c b) := by
    funext c b; rw [V12_eq]
  show (dat6 (fun c b => U12 m c b) c).arrAt 2 cfg6.N = (dat6 (fun c b => V12 m (outs m) c b) c).arrAt 2 cfg6.N
  rw [e]
theorem ok7 (c : Dev nD) : outs m 15 main_v106 c = (pdats m (outs m) 7 c).arrAt 2 cfg7.N := by
  rw [outs_15]
  have e : (fun (c : Dev nD) (b : Ref sig .tc) => V14 m (outs m) c b) = (fun (c : Dev nD) (b : Ref sig .tc) => U14 m c b) := by
    funext c b; rw [V14_eq]
  show (dat7 (fun c b => U14 m c b) c).arrAt 2 cfg7.N = (dat7 (fun c b => V14 m (outs m) c b) c).arrAt 2 cfg7.N
  rw [e]
theorem ok8 (c : Dev nD) : outs m 16 main_v107 c = (pdats m (outs m) 8 c).arrAt 2 cfg8.N := by
  rw [outs_16]
  have e : (fun (c : Dev nD) (b : Ref sig .tc) => V15 m (outs m) c b) = (fun (c : Dev nD) (b : Ref sig .tc) => U15 m c b) := by
    funext c b; rw [V15_eq]
  show (dat8 (fun c b => U15 m c b) c).arrAt 2 cfg8.N = (dat8 (fun c b => V15 m (outs m) c b) c).arrAt 2 cfg8.N
  rw [e]
theorem ok9 (c : Dev nD) : outs m 18 main_v122 c = (pdats m (outs m) 9 c).arrAt 2 cfg9.N := by
  rw [outs_18]
  have e : (fun (c : Dev nD) (b : Ref sig .tc) => V17 m (outs m) c b) = (fun (c : Dev nD) (b : Ref sig .tc) => U17 m c b) := by
    funext c b; rw [V17_eq]
  show (dat9 (fun c b => U17 m c b) c).arrAt 2 cfg9.N = (dat9 (fun c b => V17 m (outs m) c b) c).arrAt 2 cfg9.N
  rw [e]

end Cert.Kernel.Hand

end
-- ==== Proof.K_Seg0.lean ====
/-
  Region 0 of @main as a segment over the thread state "every unscoped buffer at the contents the item is entered
  from, the generator register at some state, nothing owed". It is entered by splitting the windows' arrays out of the
  unscoped buffers and left by putting them back, the output's array now at what the pipeline's write-backs leave
  (the unknown `outs 4 main_v31`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 0's exit each of its arrays holds what the pipeline leaves: an input is as entered, the output is the
    pinned unknown. -/
theorem hF0 (h : ∀ c, outs 4 main_v31 c = (pdats m outs 0 c).arrAt 2 cfg0.N) (c : Dev nD) :
    ∀ w : Fin cfg0.W, (pdats m outs 0 c).arrAt w cfg0.N = (fun b : Ref sig .tc => V4 m outs c b) (Pipeline.arrRef spec0 w)
    | ⟨0, _⟩ => ((pdats m outs 0 c).arrAt_in 0 rfl _).trans ((A_eq0 (fun c b => V3 m c b) c 0).trans (V4_of m outs c main_arg0 (by decide)).symm)
    | ⟨1, _⟩ => ((pdats m outs 0 c).arrAt_in 1 rfl _).trans ((A_eq0 (fun c b => V3 m c b) c 1).trans (V4_of m outs c main_arg2 (by decide)).symm)
    | ⟨2, _⟩ => (h c).symm.trans (Function.update_self (β := fun b : DevRef τ sig => b.ty.Contents (Elt F)) _ _ _).symm

/-- Every buffer that is no array of the region is as entered. -/
theorem hrest0 (c : Dev nD) : ∀ b : Ref sig .tc, b ∉ Finset.univ.image (Pipeline.arrRef spec0) → V4 m outs c b = V3 m c b :=
  fun b hb => V4_of m outs c b (fun hm => hb (by rw [List.mem_singleton.mp hm]; exact Finset.mem_image.mpr ⟨2, Finset.mem_univ _, rfl⟩))

set_option backward.isDefEq.respectTransparency.types false in
def reg0 (h : ∀ c, outs 4 main_v31 c = (pdats m outs 0 c).arrAt 2 cfg0.N) :
    Pipeline.RegionSeg (pcfgs (F := F)) adm (pdats m outs) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (fun b => V3 m c b) (fun b => V4 m outs c b) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg1.lean ====
/-
  Region 1 of @main as a segment over the thread state "every unscoped buffer at the contents the item is entered
  from, the generator register at some state, nothing owed". It is entered by splitting the windows' arrays out of the
  unscoped buffers and left by putting them back, the output's array now at what the pipeline's write-backs leave
  (the unknown `outs 6 main_v46`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 1's exit each of its arrays holds what the pipeline leaves: an input is as entered, the output is the
    pinned unknown. -/
theorem hF1 (h : ∀ c, outs 6 main_v46 c = (pdats m outs 1 c).arrAt 2 cfg1.N) (c : Dev nD) :
    ∀ w : Fin cfg1.W, (pdats m outs 1 c).arrAt w cfg1.N = (fun b : Ref sig .tc => V6 m outs c b) (Pipeline.arrRef spec1 w)
    | ⟨0, _⟩ => ((pdats m outs 1 c).arrAt_in 0 rfl _).trans ((A_eq1 (fun c b => V5 m outs c b) c 0).trans (V6_of m outs c main_v44 (by decide)).symm)
    | ⟨1, _⟩ => ((pdats m outs 1 c).arrAt_in 1 rfl _).trans ((A_eq1 (fun c b => V5 m outs c b) c 1).trans (V6_of m outs c main_v45 (by decide)).symm)
    | ⟨2, _⟩ => (h c).symm.trans (Function.update_self (β := fun b : DevRef τ sig => b.ty.Contents (Elt F)) _ _ _).symm

/-- Every buffer that is no array of the region is as entered. -/
theorem hrest1 (c : Dev nD) : ∀ b : Ref sig .tc, b ∉ Finset.univ.image (Pipeline.arrRef spec1) → V6 m outs c b = V5 m outs c b :=
  fun b hb => V6_of m outs c b (fun hm => hb (by rw [List.mem_singleton.mp hm]; exact Finset.mem_image.mpr ⟨2, Finset.mem_univ _, rfl⟩))

set_option backward.isDefEq.respectTransparency.types false in
def reg1 (h : ∀ c, outs 6 main_v46 c = (pdats m outs 1 c).arrAt 2 cfg1.N) :
    Pipeline.RegionSeg (pcfgs (F := F)) adm (pdats m outs) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V5 m outs c b) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m outs c b)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (fun b => V5 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (fun b => V5 m outs c b) (fun b => V6 m outs c b) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg2.lean ====
/-
  Region 2 of @main as a segment over the thread state "every unscoped buffer at the contents the item is entered
  from, the generator register at some state, nothing owed". It is entered by splitting the windows' arrays out of the
  unscoped buffers and left by putting them back, the output's array now at what the pipeline's write-backs leave
  (the unknown `outs 7 main_v47`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 2's exit each of its arrays holds what the pipeline leaves: an input is as entered, the output is the
    pinned unknown. -/
theorem hF2 (h : ∀ c, outs 7 main_v47 c = (pdats m outs 2 c).arrAt 2 cfg2.N) (c : Dev nD) :
    ∀ w : Fin cfg2.W, (pdats m outs 2 c).arrAt w cfg2.N = (fun b : Ref sig .tc => V7 m outs c b) (Pipeline.arrRef spec2 w)
    | ⟨0, _⟩ => ((pdats m outs 2 c).arrAt_in 0 rfl _).trans ((A_eq2 (fun c b => V6 m outs c b) c 0).trans (V7_of m outs c main_v46 (by decide)).symm)
    | ⟨1, _⟩ => ((pdats m outs 2 c).arrAt_in 1 rfl _).trans ((A_eq2 (fun c b => V6 m outs c b) c 1).trans (V7_of m outs c main_arg4 (by decide)).symm)
    | ⟨2, _⟩ => (h c).symm.trans (Function.update_self (β := fun b : DevRef τ sig => b.ty.Contents (Elt F)) _ _ _).symm

/-- Every buffer that is no array of the region is as entered. -/
theorem hrest2 (c : Dev nD) : ∀ b : Ref sig .tc, b ∉ Finset.univ.image (Pipeline.arrRef spec2) → V7 m outs c b = V6 m outs c b :=
  fun b hb => V7_of m outs c b (fun hm => hb (by rw [List.mem_singleton.mp hm]; exact Finset.mem_image.mpr ⟨2, Finset.mem_univ _, rfl⟩))

set_option backward.isDefEq.respectTransparency.types false in
def reg2 (h : ∀ c, outs 7 main_v47 c = (pdats m outs 2 c).arrAt 2 cfg2.N) :
    Pipeline.RegionSeg (pcfgs (F := F)) adm (pdats m outs) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V6 m outs c b) c).loose
  hwaits := Pipeline.hwaits_of_owed_zero _ _ _ _ L lv 2 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec2 c (fun b => V6 m outs c b)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (fun b => V6 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (fun b => V6 m outs c b) (fun b => V7 m outs c b) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg3.lean ====
/-
  Region 3 of @main as a segment over the thread state "every unscoped buffer at the contents the item is entered
  from, the generator register at some state, nothing owed". It is entered by splitting the windows' arrays out of the
  unscoped buffers and left by putting them back, the output's array now at what the pipeline's write-backs leave
  (the unknown `outs 9 main_v62`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 3's exit each of its arrays holds what the pipeline leaves: an input is as entered, the output is the
    pinned unknown. -/
theorem hF3 (h : ∀ c, outs 9 main_v62 c = (pdats m outs 3 c).arrAt 2 cfg3.N) (c : Dev nD) :
    ∀ w : Fin cfg3.W, (pdats m outs 3 c).arrAt w cfg3.N = (fun b : Ref sig .tc => V9 m outs c b) (Pipeline.arrRef spec3 w)
    | ⟨0, _⟩ => ((pdats m outs 3 c).arrAt_in 0 rfl _).trans ((A_eq3 (fun c b => V8 m outs c b) c 0).trans (V9_of m outs c main_v60 (by decide)).symm)
    | ⟨1, _⟩ => ((pdats m outs 3 c).arrAt_in 1 rfl _).trans ((A_eq3 (fun c b => V8 m outs c b) c 1).trans (V9_of m outs c main_v61 (by decide)).symm)
    | ⟨2, _⟩ => (h c).symm.trans (Function.update_self (β := fun b : DevRef τ sig => b.ty.Contents (Elt F)) _ _ _).symm

/-- Every buffer that is no array of the region is as entered. -/
theorem hrest3 (c : Dev nD) : ∀ b : Ref sig .tc, b ∉ Finset.univ.image (Pipeline.arrRef spec3) → V9 m outs c b = V8 m outs c b :=
  fun b hb => V9_of m outs c b (fun hm => hb (by rw [List.mem_singleton.mp hm]; exact Finset.mem_image.mpr ⟨2, Finset.mem_univ _, rfl⟩))

set_option backward.isDefEq.respectTransparency.types false in
def reg3 (h : ∀ c, outs 9 main_v62 c = (pdats m outs 3 c).arrAt 2 cfg3.N) :
    Pipeline.RegionSeg (pcfgs (F := F)) adm (pdats m outs) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V8 m outs c b) c).loose
  hwaits := Pipeline.hwaits_of_owed_zero _ _ _ _ L lv 3 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec3 c (fun b => V8 m outs c b)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (fun b => V8 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (fun b => V8 m outs c b) (fun b => V9 m outs c b) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg4.lean ====
/-
  Region 4 of @main as a segment over the thread state "every unscoped buffer at the contents the item is entered
  from, the generator register at some state, nothing owed". It is entered by splitting the windows' arrays out of the
  unscoped buffers and left by putting them back, the output's array now at what the pipeline's write-backs leave
  (the unknown `outs 10 main_v63`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 4's exit each of its arrays holds what the pipeline leaves: an input is as entered, the output is the
    pinned unknown. -/
theorem hF4 (h : ∀ c, outs 10 main_v63 c = (pdats m outs 4 c).arrAt 1 cfg4.N) (c : Dev nD) :
    ∀ w : Fin cfg4.W, (pdats m outs 4 c).arrAt w cfg4.N = (fun b : Ref sig .tc => V10 m outs c b) (Pipeline.arrRef spec4 w)
    | ⟨0, _⟩ => ((pdats m outs 4 c).arrAt_in 0 rfl _).trans ((A_eq4 (fun c b => V9 m outs c b) c 0).trans (V10_of m outs c main_v62 (by decide)).symm)
    | ⟨1, _⟩ => (h c).symm.trans (Function.update_self (β := fun b : DevRef τ sig => b.ty.Contents (Elt F)) _ _ _).symm

/-- Every buffer that is no array of the region is as entered. -/
theorem hrest4 (c : Dev nD) : ∀ b : Ref sig .tc, b ∉ Finset.univ.image (Pipeline.arrRef spec4) → V10 m outs c b = V9 m outs c b :=
  fun b hb => V10_of m outs c b (fun hm => hb (by rw [List.mem_singleton.mp hm]; exact Finset.mem_image.mpr ⟨1, Finset.mem_univ _, rfl⟩))

set_option backward.isDefEq.respectTransparency.types false in
def reg4 (h : ∀ c, outs 10 main_v63 c = (pdats m outs 4 c).arrAt 1 cfg4.N) :
    Pipeline.RegionSeg (pcfgs (F := F)) adm (pdats m outs) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => V9 m outs c b) c).loose
  hwaits := Pipeline.hwaits_of_owed_zero _ _ _ _ L lv 4 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec4 c (fun b => V9 m outs c b)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (fun b => V9 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = (dat4 (fun c b => V9 m outs c b) c).Φ 0 from rfl]
    iintro ⟨Hp, -, Hr⟩
    iapply (hin4 (fun c b => V9 m outs c b) c)
    isplitl [Hp]; · iexact Hp
    iexact Hr
  hout c := by
    rw [Pipeline.ownSems0_none, show (pdats m outs 4 c).Φ (Fin.last _) = (dat4 (fun c b => V9 m outs c b) c).Φ (Fin.last cfg4.N) from rfl]
    iintro H
    ihave H' := (hout4 (fun c b => V9 m outs c b) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (fun b => V9 m outs c b) (fun b => V10 m outs c b) ((pdats m outs 4 c).arrAt · cfg4.N) (hF4 m outs h c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg5.lean ====
/-
  Region 5 of @main as a segment over the thread state "every unscoped buffer at the contents the item is entered
  from, the generator register at some state, nothing owed". It is entered by splitting the windows' arrays out of the
  unscoped buffers and left by putting them back, the output's array now at what the pipeline's write-backs leave
  (the unknown `outs 12 main_v90`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 5's exit each of its arrays holds what the pipeline leaves: an input is as entered, the output is the
    pinned unknown. -/
theorem hF5 (h : ∀ c, outs 12 main_v90 c = (pdats m outs 5 c).arrAt 2 cfg5.N) (c : Dev nD) :
    ∀ w : Fin cfg5.W, (pdats m outs 5 c).arrAt w cfg5.N = (fun b : Ref sig .tc => V12 m outs c b) (Pipeline.arrRef spec5 w)
    | ⟨0, _⟩ => ((pdats m outs 5 c).arrAt_in 0 rfl _).trans ((A_eq5 (fun c b => V11 m outs c b) c 0).trans (V12_of m outs c main_v62 (by decide)).symm)
    | ⟨1, _⟩ => ((pdats m outs 5 c).arrAt_in 1 rfl _).trans ((A_eq5 (fun c b => V11 m outs c b) c 1).trans (V12_of m outs c main_v89 (by decide)).symm)
    | ⟨2, _⟩ => (h c).symm.trans (Function.update_self (β := fun b : DevRef τ sig => b.ty.Contents (Elt F)) _ _ _).symm

/-- Every buffer that is no array of the region is as entered. -/
theorem hrest5 (c : Dev nD) : ∀ b : Ref sig .tc, b ∉ Finset.univ.image (Pipeline.arrRef spec5) → V12 m outs c b = V11 m outs c b :=
  fun b hb => V12_of m outs c b (fun hm => hb (by rw [List.mem_singleton.mp hm]; exact Finset.mem_image.mpr ⟨2, Finset.mem_univ _, rfl⟩))

set_option backward.isDefEq.respectTransparency.types false in
def reg5 (h : ∀ c, outs 12 main_v90 c = (pdats m outs 5 c).arrAt 2 cfg5.N) :
    Pipeline.RegionSeg (pcfgs (F := F)) adm (pdats m outs) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => V11 m outs c b) c).loose
  hwaits := Pipeline.hwaits_of_owed_zero _ _ _ _ L lv 5 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (fun b => V11 m outs c b)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (fun b => V11 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (fun b => V11 m outs c b) (fun b => V12 m outs c b) ((pdats m outs 5 c).arrAt · cfg5.N) (hF5 m outs h c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg6.lean ====
/-
  Region 6 of @main as a segment over the thread state "every unscoped buffer at the contents the item is entered
  from, the generator register at some state, nothing owed". It is entered by splitting the windows' arrays out of the
  unscoped buffers and left by putting them back, the output's array now at what the pipeline's write-backs leave
  (the unknown `outs 13 main_v91`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 6's exit each of its arrays holds what the pipeline leaves: an input is as entered, the output is the
    pinned unknown. -/
theorem hF6 (h : ∀ c, outs 13 main_v91 c = (pdats m outs 6 c).arrAt 2 cfg6.N) (c : Dev nD) :
    ∀ w : Fin cfg6.W, (pdats m outs 6 c).arrAt w cfg6.N = (fun b : Ref sig .tc => V13 m outs c b) (Pipeline.arrRef spec6 w)
    | ⟨0, _⟩ => ((pdats m outs 6 c).arrAt_in 0 rfl _).trans ((A_eq6 (fun c b => V12 m outs c b) c 0).trans (V13_of m outs c main_v90 (by decide)).symm)
    | ⟨1, _⟩ => ((pdats m outs 6 c).arrAt_in 1 rfl _).trans ((A_eq6 (fun c b => V12 m outs c b) c 1).trans (V13_of m outs c main_arg10 (by decide)).symm)
    | ⟨2, _⟩ => (h c).symm.trans (Function.update_self (β := fun b : DevRef τ sig => b.ty.Contents (Elt F)) _ _ _).symm

/-- Every buffer that is no array of the region is as entered. -/
theorem hrest6 (c : Dev nD) : ∀ b : Ref sig .tc, b ∉ Finset.univ.image (Pipeline.arrRef spec6) → V13 m outs c b = V12 m outs c b :=
  fun b hb => V13_of m outs c b (fun hm => hb (by rw [List.mem_singleton.mp hm]; exact Finset.mem_image.mpr ⟨2, Finset.mem_univ _, rfl⟩))

set_option backward.isDefEq.respectTransparency.types false in
def reg6 (h : ∀ c, outs 13 main_v91 c = (pdats m outs 6 c).arrAt 2 cfg6.N) :
    Pipeline.RegionSeg (pcfgs (F := F)) adm (pdats m outs) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => V12 m outs c b) c).loose
  hwaits := Pipeline.hwaits_of_owed_zero _ _ _ _ L lv 6 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec6 c (fun b => V12 m outs c b)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (fun b => V12 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (fun b => V12 m outs c b) (fun b => V13 m outs c b) ((pdats m outs 6 c).arrAt · cfg6.N) (hF6 m outs h c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg7.lean ====
/-
  Region 7 of @main as a segment over the thread state "every unscoped buffer at the contents the item is entered
  from, the generator register at some state, nothing owed". It is entered by splitting the windows' arrays out of the
  unscoped buffers and left by putting them back, the output's array now at what the pipeline's write-backs leave
  (the unknown `outs 15 main_v106`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 7's exit each of its arrays holds what the pipeline leaves: an input is as entered, the output is the
    pinned unknown. -/
theorem hF7 (h : ∀ c, outs 15 main_v106 c = (pdats m outs 7 c).arrAt 2 cfg7.N) (c : Dev nD) :
    ∀ w : Fin cfg7.W, (pdats m outs 7 c).arrAt w cfg7.N = (fun b : Ref sig .tc => V15 m outs c b) (Pipeline.arrRef spec7 w)
    | ⟨0, _⟩ => ((pdats m outs 7 c).arrAt_in 0 rfl _).trans ((A_eq7 (fun c b => V14 m outs c b) c 0).trans (V15_of m outs c main_v104 (by decide)).symm)
    | ⟨1, _⟩ => ((pdats m outs 7 c).arrAt_in 1 rfl _).trans ((A_eq7 (fun c b => V14 m outs c b) c 1).trans (V15_of m outs c main_v105 (by decide)).symm)
    | ⟨2, _⟩ => (h c).symm.trans (Function.update_self (β := fun b : DevRef τ sig => b.ty.Contents (Elt F)) _ _ _).symm

/-- Every buffer that is no array of the region is as entered. -/
theorem hrest7 (c : Dev nD) : ∀ b : Ref sig .tc, b ∉ Finset.univ.image (Pipeline.arrRef spec7) → V15 m outs c b = V14 m outs c b :=
  fun b hb => V15_of m outs c b (fun hm => hb (by rw [List.mem_singleton.mp hm]; exact Finset.mem_image.mpr ⟨2, Finset.mem_univ _, rfl⟩))

set_option backward.isDefEq.respectTransparency.types false in
def reg7 (h : ∀ c, outs 15 main_v106 c = (pdats m outs 7 c).arrAt 2 cfg7.N) :
    Pipeline.RegionSeg (pcfgs (F := F)) adm (pdats m outs) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => V14 m outs c b) c).loose
  hwaits := Pipeline.hwaits_of_owed_zero _ _ _ _ L lv 7 fun _ _ => rfl
  pre c := iprop(StableHlo.held (c : Thread nD τ) (Pipeline.ucRefs τ sig) (V14 m outs c) ∗ R c)
  post c := iprop(StableHlo.held (c : Thread nD τ) (Pipeline.ucRefs τ sig) (V15 m outs c) ∗ R c)
  X c := iprop(∃ r, prngReg c r)
  Y c := iprop(∃ r, prngReg c r)
  Z c := Pipeline.unscopedRest (Ix := Unit) (Name := ℕ) (U := UR sig nD τ) (Lvl := ℕ) spec7 c (fun b => V14 m outs c b)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (fun b => V14 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (fun b => V14 m outs c b) (fun b => V15 m outs c b) ((pdats m outs 7 c).arrAt · cfg7.N) (hF7 m outs h c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg8.lean ====
/-
  Region 8 of @main as a segment over the thread state "every unscoped buffer at the contents the item is entered
  from, the generator register at some state, nothing owed". It is entered by splitting the windows' arrays out of the
  unscoped buffers and left by putting them back, the output's array now at what the pipeline's write-backs leave
  (the unknown `outs 16 main_v107`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 8's exit each of its arrays holds what the pipeline leaves: an input is as entered, the output is the
    pinned unknown. -/
theorem hF8 (h : ∀ c, outs 16 main_v107 c = (pdats m outs 8 c).arrAt 2 cfg8.N) (c : Dev nD) :
    ∀ w : Fin cfg8.W, (pdats m outs 8 c).arrAt w cfg8.N = (fun b : Ref sig .tc => V16 m outs c b) (Pipeline.arrRef spec8 w)
    | ⟨0, _⟩ => ((pdats m outs 8 c).arrAt_in 0 rfl _).trans ((A_eq8 (fun c b => V15 m outs c b) c 0).trans (V16_of m outs c main_v90 (by decide)).symm)
    | ⟨1, _⟩ => ((pdats m outs 8 c).arrAt_in 1 rfl _).trans ((A_eq8 (fun c b => V15 m outs c b) c 1).trans (V16_of m outs c main_arg12 (by decide)).symm)
    | ⟨2, _⟩ => (h c).symm.trans (Function.update_self (β := fun b : DevRef τ sig => b.ty.Contents (Elt F)) _ _ _).symm

/-- Every buffer that is no array of the region is as entered. -/
theorem hrest8 (c : Dev nD) : ∀ b : Ref sig .tc, b ∉ Finset.univ.image (Pipeline.arrRef spec8) → V16 m outs c b = V15 m outs c b :=
  fun b hb => V16_of m outs c b (fun hm => hb (by rw [List.mem_singleton.mp hm]; exact Finset.mem_image.mpr ⟨2, Finset.mem_univ _, rfl⟩))

set_option backward.isDefEq.respectTransparency.types false in
def reg8 (h : ∀ c, outs 16 main_v107 c = (pdats m outs 8 c).arrAt 2 cfg8.N) :
    Pipeline.RegionSeg (pcfgs (F := F)) adm (pdats m outs) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => V15 m outs c b) c).loose
  hwaits := Pipeline.hwaits_of_owed_zero _ _ _ _ L lv 8 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec8 c (fun b => V15 m outs c b)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (fun b => V15 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (fun b => V15 m outs c b) (fun b => V16 m outs c b) ((pdats m outs 8 c).arrAt · cfg8.N) (hF8 m outs h c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Seg9.lean ====
/-
  Region 9 of @main as a segment over the thread state "every unscoped buffer at the contents the item is entered
  from, the generator register at some state, nothing owed". It is entered by splitting the windows' arrays out of the
  unscoped buffers and left by putting them back, the output's array now at what the pipeline's write-backs leave
  (the unknown `outs 18 main_v122`, which the hypothesis pins to exactly that); every other buffer is as entered.
-/
import proofs.«145243_j28355374088213_1_alg».proof.Proof.K_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 2000000 in
/-- At region 9's exit each of its arrays holds what the pipeline leaves: an input is as entered, the output is the
    pinned unknown. -/
theorem hF9 (h : ∀ c, outs 18 main_v122 c = (pdats m outs 9 c).arrAt 2 cfg9.N) (c : Dev nD) :
    ∀ w : Fin cfg9.W, (pdats m outs 9 c).arrAt w cfg9.N = (fun b : Ref sig .tc => V18 m outs c b) (Pipeline.arrRef spec9 w)
    | ⟨0, _⟩ => ((pdats m outs 9 c).arrAt_in 0 rfl _).trans ((A_eq9 (fun c b => V17 m outs c b) c 0).trans (V18_of m outs c main_v120 (by decide)).symm)
    | ⟨1, _⟩ => ((pdats m outs 9 c).arrAt_in 1 rfl _).trans ((A_eq9 (fun c b => V17 m outs c b) c 1).trans (V18_of m outs c main_v121 (by decide)).symm)
    | ⟨2, _⟩ => (h c).symm.trans (Function.update_self (β := fun b : DevRef τ sig => b.ty.Contents (Elt F)) _ _ _).symm

/-- Every buffer that is no array of the region is as entered. -/
theorem hrest9 (c : Dev nD) : ∀ b : Ref sig .tc, b ∉ Finset.univ.image (Pipeline.arrRef spec9) → V18 m outs c b = V17 m outs c b :=
  fun b hb => V18_of m outs c b (fun hm => hb (by rw [List.mem_singleton.mp hm]; exact Finset.mem_image.mpr ⟨2, Finset.mem_univ _, rfl⟩))

set_option backward.isDefEq.respectTransparency.types false in
def reg9 (h : ∀ c, outs 18 main_v122 c = (pdats m outs 9 c).arrAt 2 cfg9.N) :
    Pipeline.RegionSeg (pcfgs (F := F)) adm (pdats m outs) () defs₀ Variants.none L lv 9 where
  win := launch9.win.to₀
  block_pos := launch9.block_pos
  stage_whole := launch9.stage_whole
  K := PEmpty
  osem k := k.elim
  ho := Pipeline.OwnSemFacts.none _
  hbody c := (body_obligation9 (fun c b => V17 m outs c b) c).loose
  hwaits := Pipeline.hwaits_of_owed_zero _ _ _ _ L lv 9 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec9 c (fun b => V17 m outs c b)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (fun b => V17 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (fun b => V17 m outs c b) (fun b => V18 m outs c b) ((pdats m outs 9 c).arrAt · cfg9.N) (hF9 m outs h c) (hrest9 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Frame.lean ====
/-
  THE FRAME of the program: from any memory with zero counters every weakly fair execution of @main terminates,
  nothing faulting, and every argument array ends as launched. The host side — the segment list, every host stretch,
  the chaining, the launch's first state and the read-back of the arguments — is the generated conditional frame; given
  to it here are the ten regions' segment records at the constructed contents, and what rides along between the items.
-/
import proofs.«145243_j28355374088213_1_alg».proof.Proof.K_Outs
import proofs.«145243_j28355374088213_1_alg».proof.Proof.K_Seg0
import proofs.«145243_j28355374088213_1_alg».proof.Proof.K_Seg1
import proofs.«145243_j28355374088213_1_alg».proof.Proof.K_Seg2
import proofs.«145243_j28355374088213_1_alg».proof.Proof.K_Seg3
import proofs.«145243_j28355374088213_1_alg».proof.Proof.K_Seg4
import proofs.«145243_j28355374088213_1_alg».proof.Proof.K_Seg5
import proofs.«145243_j28355374088213_1_alg».proof.Proof.K_Seg6
import proofs.«145243_j28355374088213_1_alg».proof.Proof.K_Seg7
import proofs.«145243_j28355374088213_1_alg».proof.Proof.K_Seg8
import proofs.«145243_j28355374088213_1_alg».proof.Proof.K_Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m (Ix := Unit) (U := UR sig nD τ) (Lvl := ℕ) emb₁ () Variants.none L lv (fun _ _ => rfl) ρ (outs m) (pdats m (outs m))
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m (outs m) (ok0 m)) (fun _ => .rfl) (fun _ => .rfl)
    (reg1 m (outs m) (ok1 m)) (fun _ => .rfl) (fun _ => .rfl)
    (reg2 m (outs m) (ok2 m)) (fun _ => .rfl) (fun _ => .rfl)
    (reg3 m (outs m) (ok3 m)) (fun _ => .rfl) (fun _ => .rfl)
    (reg4 m (outs m) (ok4 m)) (fun _ => .rfl) (fun _ => .rfl)
    (reg5 m (outs m) (ok5 m)) (fun _ => .rfl) (fun _ => .rfl)
    (reg6 m (outs m) (ok6 m)) (fun _ => .rfl) (fun _ => .rfl)
    (reg7 m (outs m) (ok7 m)) (fun _ => .rfl) (fun _ => .rfl)
    (reg8 m (outs m) (ok8 m)) (fun _ => .rfl) (fun _ => .rfl)
    (reg9 m (outs m) (ok9 m)) (fun _ => .rfl) (fun _ => .rfl)

end Cert.Kernel.Hand

end
-- ==== Proof.KI_Reg0.lean ====
/-
  Region 0 of @main (`cc0__matmul_kernel`, pipeline 0), entered from ANY contents `V` of the TensorCore's buffers.
  The kernel is gridded over ten row blocks. At a point it loads its two staged input blocks whole, computes one
  value from them (the skeleton's payload `k0_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched at that point
    or earlier (the second input's block index never moves, so it is fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev ra0 : Rect S10000x128 := Rect.unit (s := S10000x128) ![0, 0] S10000x128.size inb_S10000x128_S10000x128_0_0
abbrev rb0 : Rect S128x128 := Rect.unit (s := S128x128) ![0, 0] S128x128.size inb_S128x128_S128x128_0_0
abbrev ro0 : Rect S10000x128 := Rect.unit (s := S10000x128) ![0, 0] S10000x128.size inb_S10000x128_S10000x128_0_0

/-- What the body leaves in the output's staging buffer, from the two input blocks: its one store. -/
def out0 (x0 : Vec F S10000x128 .f32) (x1 : Vec F S128x128 .f32) : Vec F S10000x128 .f32 :=
  View.canon [⟨ro0, k0_pay1 (View.ld x0 ra0) (View.ld x1 rb0)⟩]

/-- The one store is over the whole block, so it covers it. -/
theorem cover0 (p0 : Vec F S10000x128 .f32) (y : S10000x128.Idx) :
    ∃ pc ∈ ([⟨ro0, p0⟩] : List (View.Piece (Elt F) S10000x128 .f32)), y ∈ pc.1.set :=
  View.cover_of_tiled [⟨ro0, p0⟩] S10000x128.size (by rfl) y

set_option maxHeartbeats 1000000 in
/-- The body on whole staging memrefs, the inputs' at `x0`, `x1` and the output's at anything, runs to the
    continuation with the inputs' as they were and the output's at `out0 x0 x1`. -/
theorem sound_kernel0 (c : Dev nD) (E : Set ℕ) (i : grid0.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of pipeline 0 on core `c`: the arrays as the region finds them; after the body at point `t`
    each input's buffer at its block and the output's at `out0` of the two input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Reg1.lean ====
/-
  Region 1 of @main (`cc1_kernel`, pipeline 1), entered from ANY contents `V` of the TensorCore's buffers.
  The kernel is gridded over ten row blocks. At a point it loads its two staged input blocks whole, computes one
  value from them (the skeleton's payload `k1_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched at that point
    or earlier (the second input's block index never moves, so it is fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev ra1 : Rect S10000x128 := Rect.unit (s := S10000x128) ![0, 0] S10000x128.size inb_S10000x128_S10000x128_0_0
abbrev rb1 : Rect S1x128 := Rect.unit (s := S1x128) ![0, 0] S1x128.size inb_S1x128_S1x128_0_0
abbrev ro1 : Rect S10000x128 := Rect.unit (s := S10000x128) ![0, 0] S10000x128.size inb_S10000x128_S10000x128_0_0

/-- What the body leaves in the output's staging buffer, from the two input blocks: its one store. -/
def out1 (x0 : Vec F S10000x128 .f32) (x1 : Vec F S1x128 .f32) : Vec F S10000x128 .f32 :=
  View.canon [⟨ro1, k1_pay1 (View.ld x0 ra1) (View.ld x1 rb1)⟩]

/-- The one store is over the whole block, so it covers it. -/
theorem cover1 (p0 : Vec F S10000x128 .f32) (y : S10000x128.Idx) :
    ∃ pc ∈ ([⟨ro1, p0⟩] : List (View.Piece (Elt F) S10000x128 .f32)), y ∈ pc.1.set :=
  View.cover_of_tiled [⟨ro1, p0⟩] S10000x128.size (by rfl) y

set_option maxHeartbeats 1000000 in
/-- The body on whole staging memrefs, the inputs' at `x0`, `x1` and the output's at anything, runs to the
    continuation with the inputs' as they were and the output's at `out1 x0 x1`. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of pipeline 1 on core `c`: the arrays as the region finds them; after the body at point `t`
    each input's buffer at its block and the output's at `out1` of the two input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Reg2.lean ====
/-
  Region 2 of @main (`cc2__matmul_kernel`, pipeline 2), entered from ANY contents `V` of the TensorCore's buffers.
  The kernel is gridded over ten row blocks. At a point it loads its two staged input blocks whole, computes one
  value from them (the skeleton's payload `k2_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched at that point
    or earlier (the second input's block index never moves, so it is fetched once). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev ra2 : Rect S10000x128 := Rect.unit (s := S10000x128) ![0, 0] S10000x128.size inb_S10000x128_S10000x128_0_0
abbrev rb2 : Rect S128x128 := Rect.unit (s := S128x128) ![0, 0] S128x128.size inb_S128x128_S128x128_0_0
abbrev ro2 : Rect S10000x128 := Rect.unit (s := S10000x128) ![0, 0] S10000x128.size inb_S10000x128_S10000x128_0_0

/-- What the body leaves in the output's staging buffer, from the two input blocks: its one store. -/
def out2 (x0 : Vec F S10000x128 .f32) (x1 : Vec F S128x128 .f32) : Vec F S10000x128 .f32 :=
  View.canon [⟨ro2, k2_pay1 (View.ld x0 ra2) (View.ld x1 rb2)⟩]

/-- The one store is over the whole block, so it covers it. -/
theorem cover2 (p0 : Vec F S10000x128 .f32) (y : S10000x128.Idx) :
    ∃ pc ∈ ([⟨ro2, p0⟩] : List (View.Piece (Elt F) S10000x128 .f32)), y ∈ pc.1.set :=
  View.cover_of_tiled [⟨ro2, p0⟩] S10000x128.size (by rfl) y

set_option maxHeartbeats 1000000 in
/-- The body on whole staging memrefs, the inputs' at `x0`, `x1` and the output's at anything, runs to the
    continuation with the inputs' as they were and the output's at `out2 x0 x1`. -/
theorem sound_kernel2 (c : Dev nD) (E : Set ℕ) (i : grid2.Coords) (arg1 : Memref sig .tc .vmem S10000x128 .f32) (harg1 : arg1.IsWhole) (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of pipeline 2 on core `c`: the arrays as the region finds them; after the body at point `t`
    each input's buffer at its block and the output's at `out2` of the two input blocks; the invariant is the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Reg3.lean ====
/-
  Region 3 of @main (`cc3_kernel`, pipeline 3), entered from ANY contents `V` of the TensorCore's buffers.
  The kernel is gridded over ten row blocks. At a point it loads its two staged input blocks whole, computes one
  value from them (the skeleton's payload `k3_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether it was fetched at that point
    or earlier (the second input's block index never moves, so it is fetched once). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The three whole-block rectangles the body reads and writes through. -/
abbrev ra3 : Rect S10000x128 := Rect.unit (s := S10000x128) ![0, 0] S10000x128.size inb_S10000x128_S10000x128_0_0
abbrev rb3 : Rect S1x128 := Rect.unit (s := S1x128) ![0, 0] S1x128.size inb_S1x128_S1x128_0_0
abbrev ro3 : Rect S10000x128 := Rect.unit (s := S10000x128) ![0, 0] S10000x128.size inb_S10000x128_S10000x128_0_0

/-- What the body leaves in the output's staging buffer, from the two input blocks: its one store. -/
def out3 (x0 : Vec F S10000x128 .f32) (x1 : Vec F S1x128 .f32) : Vec F S10000x128 .f32 :=
  View.canon [⟨ro3, k3_pay1 (View.ld x0 ra3) (View.ld x1 rb3)⟩]

/-- The one store is over the whole block, so it covers it. -/
theorem cover3 (p0 : Vec F S10000x128 .f32) (y : S10000x128.Idx) :
    ∃ pc ∈ ([⟨ro3, p0⟩] : List (View.Piece (Elt F) S10000x128 .f32)), y ∈ pc.1.set :=
  View.cover_of_tiled [⟨ro3, p0⟩] S10000x128.size (by rfl) y

set_option maxHeartbeats 1000000 in
/-- The body on whole staging memrefs, the inputs' at `x0`, `x1` and the output's at anything, runs to the
    continuation with the inputs' as they were and the output's at `out3 x0 x1`. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of pipeline 3 on core `c`: the arrays as the region finds them; after the body at point `t`
    each input's buffer at its block and the output's at `out3` of the two input blocks; the invariant is the
    scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI_Reg5.lean ====
/-
  Region 5 of @main (`cc5__broadcast_add_kernel`, pipeline 5), entered from ANY contents `V` of the TensorCore's buffers.
  The kernel is gridded over ten row blocks. At a point it loads its two staged input blocks whole, computes one
  value from them (the skeleton's payload `k5_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether it was fetched at that point
    or earlier (the second input's block index never moves, so it is fetched once). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The three whole-block rectangles the body reads and writes through. -/
abbrev ra5 : Rect S10000x128 := Rect.unit (s := S10000x128) ![0, 0] S10000x128.size inb_S10000x128_S10000x128_0_0
abbrev rb5 : Rect S1x128 := Rect.unit (s := S1x128) ![0, 0] S1x128.size inb_S1x128_S1x128_0_0
abbrev ro5 : Rect S10000x128 := Rect.unit (s := S10000x128) ![0, 0] S10000x128.size inb_S10000x128_S10000x128_0_0

/-- What the body leaves in the output's staging buffer, from the two input blocks: its one store. -/
def out5 (x0 : Vec F S10000x128 .f32) (x1 : Vec F S1x128 .f32) : Vec F S10000x128 .f32 :=
  View.canon [⟨ro5, k5_pay1 (View.ld x0 ra5) (View.ld x1 rb5)⟩]

/-- The one store is over the whole block, so it covers it. -/
theorem cover5 (p0 : Vec F S10000x128 .f32) (y : S10000x128.Idx) :
    ∃ pc ∈ ([⟨ro5, p0⟩] : List (View.Piece (Elt F) S10000x128 .f32)), y ∈ pc.1.set :=
  View.cover_of_tiled [⟨ro5, p0⟩] S10000x128.size (by rfl) y

set_option maxHeartbeats 1000000 in
/-- The body on whole staging memrefs, the inputs' at `x0`, `x1` and the output's at anything, runs to the
    continuation with the inputs' as they were and the output's at `out5 x0 x1`. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5 x0 x1)) -∗ K ⟨⟩))
      ⊢ wp frame (wpE (defs₀ (F := F)) Variants.none c none) E (cc5__broadcast_add_kernel i arg1 harg1 arg2 harg2 arg3 harg3) K := by
  simp only [cc5__broadcast_add_kernel_eq_skeleton]; unfold cc5__broadcast_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of pipeline 5 on core `c`: the arrays as the region finds them; after the body at point `t`
    each input's buffer at its block and the output's at `out5` of the two input blocks; the invariant is the
    scoped buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI_Reg6.lean ====
/-
  Region 6 of @main (`cc6__matmul_kernel`, pipeline 6), entered from ANY contents `V` of the TensorCore's buffers.
  The kernel is gridded over ten row blocks. At a point it loads its two staged input blocks whole, computes one
  value from them (the skeleton's payload `k6_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether it was fetched at that point
    or earlier (the second input's block index never moves, so it is fetched once). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The three whole-block rectangles the body reads and writes through. -/
abbrev ra6 : Rect S10000x128 := Rect.unit (s := S10000x128) ![0, 0] S10000x128.size inb_S10000x128_S10000x128_0_0
abbrev rb6 : Rect S128x64 := Rect.unit (s := S128x64) ![0, 0] S128x64.size inb_S128x64_S128x64_0_0
abbrev ro6 : Rect S10000x64 := Rect.unit (s := S10000x64) ![0, 0] S10000x64.size inb_S10000x64_S10000x64_0_0

/-- What the body leaves in the output's staging buffer, from the two input blocks: its one store. -/
def out6 (x0 : Vec F S10000x128 .f32) (x1 : Vec F S128x64 .f32) : Vec F S10000x64 .f32 :=
  View.canon [⟨ro6, k6_pay1 (View.ld x0 ra6) (View.ld x1 rb6)⟩]

/-- The one store is over the whole block, so it covers it. -/
theorem cover6 (p0 : Vec F S10000x64 .f32) (y : S10000x64.Idx) :
    ∃ pc ∈ ([⟨ro6, p0⟩] : List (View.Piece (Elt F) S10000x64 .f32)), y ∈ pc.1.set :=
  View.cover_of_tiled [⟨ro6, p0⟩] S10000x64.size (by rfl) y

set_option maxHeartbeats 1000000 in
/-- The body on whole staging memrefs, the inputs' at `x0`, `x1` and the output's at anything, runs to the
    continuation with the inputs' as they were and the output's at `out6 x0 x1`. -/
theorem sound_kernel6 (c : Dev nD) (E : Set ℕ) (i : grid6.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-- The proof data of pipeline 6 on core `c`: the arrays as the region finds them; after the body at point `t`
    each input's buffer at its block and the output's at `out6` of the two input blocks; the invariant is the
    scoped buffers no window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI_Reg7.lean ====
/-
  Region 7 of @main (`cc7_kernel`, pipeline 7), entered from ANY contents `V` of the TensorCore's buffers.
  The kernel is gridded over ten row blocks. At a point it loads its two staged input blocks whole, computes one
  value from them (the skeleton's payload `k7_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether it was fetched at that point
    or earlier (the second input's block index never moves, so it is fetched once). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The three whole-block rectangles the body reads and writes through. -/
abbrev ra7 : Rect S10000x64 := Rect.unit (s := S10000x64) ![0, 0] S10000x64.size inb_S10000x64_S10000x64_0_0
abbrev rb7 : Rect S1x64 := Rect.unit (s := S1x64) ![0, 0] S1x64.size inb_S1x64_S1x64_0_0
abbrev ro7 : Rect S10000x64 := Rect.unit (s := S10000x64) ![0, 0] S10000x64.size inb_S10000x64_S10000x64_0_0

/-- What the body leaves in the output's staging buffer, from the two input blocks: its one store. -/
def out7 (x0 : Vec F S10000x64 .f32) (x1 : Vec F S1x64 .f32) : Vec F S10000x64 .f32 :=
  View.canon [⟨ro7, k7_pay1 (View.ld x0 ra7) (View.ld x1 rb7)⟩]

/-- The one store is over the whole block, so it covers it. -/
theorem cover7 (p0 : Vec F S10000x64 .f32) (y : S10000x64.Idx) :
    ∃ pc ∈ ([⟨ro7, p0⟩] : List (View.Piece (Elt F) S10000x64 .f32)), y ∈ pc.1.set :=
  View.cover_of_tiled [⟨ro7, p0⟩] S10000x64.size (by rfl) y

set_option maxHeartbeats 1000000 in
/-- The body on whole staging memrefs, the inputs' at `x0`, `x1` and the output's at anything, runs to the
    continuation with the inputs' as they were and the output's at `out7 x0 x1`. -/
theorem sound_kernel7 (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7 x0 x1)) -∗ K ⟨⟩))
      ⊢ wp frame (wpE (defs₀ (F := F)) Variants.none c none) E (cc7_kernel i arg1 harg1 arg2 harg2 arg3 harg3) K := by
  simp only [cc7_kernel_eq_skeleton]; unfold cc7_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7 _)

/-- The proof data of pipeline 7 on core `c`: the arrays as the region finds them; after the body at point `t`
    each input's buffer at its block and the output's at `out7` of the two input blocks; the invariant is the
    scoped buffers no window stages and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so `sound_kernel7` applies; the invariant and
    the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI_Reg8.lean ====
/-
  Region 8 of @main (`cc8__matmul_kernel`, pipeline 8), entered from ANY contents `V` of the TensorCore's buffers.
  The kernel is gridded over ten row blocks. At a point it loads its two staged input blocks whole, computes one
  value from them (the skeleton's payload `k8_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether it was fetched at that point
    or earlier (the second input's block index never moves, so it is fetched once). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The three whole-block rectangles the body reads and writes through. -/
abbrev ra8 : Rect S10000x128 := Rect.unit (s := S10000x128) ![0, 0] S10000x128.size inb_S10000x128_S10000x128_0_0
abbrev rb8 : Rect S128x64 := Rect.unit (s := S128x64) ![0, 0] S128x64.size inb_S128x64_S128x64_0_0
abbrev ro8 : Rect S10000x64 := Rect.unit (s := S10000x64) ![0, 0] S10000x64.size inb_S10000x64_S10000x64_0_0

/-- What the body leaves in the output's staging buffer, from the two input blocks: its one store. -/
def out8 (x0 : Vec F S10000x128 .f32) (x1 : Vec F S128x64 .f32) : Vec F S10000x64 .f32 :=
  View.canon [⟨ro8, k8_pay1 (View.ld x0 ra8) (View.ld x1 rb8)⟩]

/-- The one store is over the whole block, so it covers it. -/
theorem cover8 (p0 : Vec F S10000x64 .f32) (y : S10000x64.Idx) :
    ∃ pc ∈ ([⟨ro8, p0⟩] : List (View.Piece (Elt F) S10000x64 .f32)), y ∈ pc.1.set :=
  View.cover_of_tiled [⟨ro8, p0⟩] S10000x64.size (by rfl) y

set_option maxHeartbeats 1000000 in
/-- The body on whole staging memrefs, the inputs' at `x0`, `x1` and the output's at anything, runs to the
    continuation with the inputs' as they were and the output's at `out8 x0 x1`. -/
theorem sound_kernel8 (c : Dev nD) (E : Set ℕ) (i : grid8.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8 _)

/-- The proof data of pipeline 8 on core `c`: the arrays as the region finds them; after the body at point `t`
    each input's buffer at its block and the output's at `out8` of the two input blocks; the invariant is the
    scoped buffers no window stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI_Reg9.lean ====
/-
  Region 9 of @main (`cc9_kernel`, pipeline 9), entered from ANY contents `V` of the TensorCore's buffers.
  The kernel is gridded over ten row blocks. At a point it loads its two staged input blocks whole, computes one
  value from them (the skeleton's payload `k9_pay1`) and stores it over the whole staged output block. So after the
  body the output's staging buffer holds that payload of the two input blocks, and the inputs' buffers are as
  fetched: this is the proof data of the pipeline, and the body obligation follows from one symbolic run of the body.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, whether it was fetched at that point
    or earlier (the second input's block index never moves, so it is fetched once). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The three whole-block rectangles the body reads and writes through. -/
abbrev ra9 : Rect S10000x64 := Rect.unit (s := S10000x64) ![0, 0] S10000x64.size inb_S10000x64_S10000x64_0_0
abbrev rb9 : Rect S1x64 := Rect.unit (s := S1x64) ![0, 0] S1x64.size inb_S1x64_S1x64_0_0
abbrev ro9 : Rect S10000x64 := Rect.unit (s := S10000x64) ![0, 0] S10000x64.size inb_S10000x64_S10000x64_0_0

/-- What the body leaves in the output's staging buffer, from the two input blocks: its one store. -/
def out9 (x0 : Vec F S10000x64 .f32) (x1 : Vec F S1x64 .f32) : Vec F S10000x64 .f32 :=
  View.canon [⟨ro9, k9_pay1 (View.ld x0 ra9) (View.ld x1 rb9)⟩]

/-- The one store is over the whole block, so it covers it. -/
theorem cover9 (p0 : Vec F S10000x64 .f32) (y : S10000x64.Idx) :
    ∃ pc ∈ ([⟨ro9, p0⟩] : List (View.Piece (Elt F) S10000x64 .f32)), y ∈ pc.1.set :=
  View.cover_of_tiled [⟨ro9, p0⟩] S10000x64.size (by rfl) y

set_option maxHeartbeats 1000000 in
/-- The body on whole staging memrefs, the inputs' at `x0`, `x1` and the output's at anything, runs to the
    continuation with the inputs' as they were and the output's at `out9 x0 x1`. -/
theorem sound_kernel9 (c : Dev nD) (E : Set ℕ) (i : grid9.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9 x0 x1)) -∗ K ⟨⟩))
      ⊢ wp frame (wpE (defs₀ (F := F)) Variants.none c none) E (cc9_kernel i arg1 harg1 arg2 harg2 arg3 harg3) K := by
  simp only [cc9_kernel_eq_skeleton]; unfold cc9_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9 _)

/-- The proof data of pipeline 9 on core `c`: the arrays as the region finds them; after the body at point `t`
    each input's buffer at its block and the output's at `out9` of the two input blocks; the invariant is the
    scoped buffers no window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and
    the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI_Reg4Body.lean ====
/-
  The mean-pool kernel of region 4 (`cc4__mean_kernel`, pipeline 4), run once symbolically in each of its three
  control cases. The kernel is gridded over ten row blocks and keeps a running column sum in a scratch buffer: at the
  first point it zeroes the scratch; at every point it adds the column sums of the staged input block to the scratch;
  at the last point it stores the scratch times a named constant over the whole staged output block. So the body
  leaves the scratch at `k4_pay2 s x` of what the scratch held (`s`, the zero block `k4_pay1` at the first point)
  and the input block `x`, and at the last point the output buffer at `k4_pay3` of that.
-/
import proofs.«145243_j28355374088213_1_alg».proof.Proof.Gen.KernelIdeal.Launch
import proofs.«145243_j28355374088213_1_alg».proof.Proof.Gen.KernelIdeal.Skeleton
import proofs.«145243_j28355374088213_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first conditional, from the grid coordinates: the point is the first. -/
abbrev cond4_0 (i : grid4.Coords) : Prop := (Scalar.cmpi .ne (Scalar.extui (Scalar.cmpi .eq (BitVec.ofNat 32 (i 0).val) 0#32)) 0#32) = 1#1
/-- The condition of its second conditional: the point is the last. -/
abbrev cond4_1 (i : grid4.Coords) : Prop := k4_cond2 i = 1#1

/-- The zero offsets of a rank-two rectangle. -/
theorem hz4 : (![0, 0] : Fin 2 → Nat) = fun _ => 0 := funext fun a => by fin_cases a <;> rfl

/-- The whole-block rectangle of the row-vector buffers (the output's staging buffer and the scratch). -/
abbrev rs4 : Rect S1x128 := Rect.unit (s := S1x128) ![0, 0] S1x128.size inb_S1x128_S1x128_0_0

/-- A list of stores into a row-vector buffer whose newest is over the whole buffer covers it. -/
theorem cover4 (p0 : Vec F S1x128 .f32) (L : List (View.Piece (Elt F) S1x128 .f32)) (y : S1x128.Idx) :
    ∃ pc ∈ ((⟨rs4, p0⟩ : View.Piece (Elt F) S1x128 .f32) :: L), y ∈ pc.1.set :=
  ⟨_, List.mem_cons_self, View.mem_set_unit_zero (S := S1x128) hz4 inb_S1x128_S1x128_0_0 y⟩

set_option maxHeartbeats 1000000 in
/-- THE FIRST POINT. On whole memrefs, the input's at `x0`, the output's at `xi1` and the scratch at anything, the
    body runs to the continuation with the input's and the output's as they were and the scratch at
    `k4_pay2 k4_pay1 x0`: it zeroes the scratch, reads the zero block back and adds the block's column sums. -/
theorem sound_kernel4_A (c : Dev nD) (E : Set ℕ) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole)
    (hc0 : cond4_0 i) (hc1 : ¬cond4_1 i)
    (x0 : Vec F S10000x128 .f32) (xi1 : Vec F S1x128 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k4_pay2 (k4_pay1 (F := F)) x0)) -∗ K ⟨⟩))
      ⊢ wp frame (wpE (defs₀ (F := F)) Variants.none c none) E (cc4__mean_kernel i arg1 harg1 arg2 harg2 arg3 harg3) K := by
  simp only [cc4__mean_kernel_eq_skeleton]; unfold cc4__mean_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover4 _ _), View.canon_cons_unit_zero (S := S1x128) hz4]
  sl_unfold_run_names
  rw [View.readCov_unit_zero (S := S1x128) _ hz4]
  simp only [View.readAt_eq_ld, View.ld_unit_zero (S := S10000x128) hz4]

set_option maxHeartbeats 1000000 in
/-- A MIDDLE POINT. The same with the scratch at `xs`: it ends at `k4_pay2 xs x0`; the output's buffer is not touched. -/
theorem sound_kernel4_B (c : Dev nD) (E : Set ℕ) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole)
    (hc0 : ¬cond4_0 i) (hc1 : ¬cond4_1 i)
    (x0 : Vec F S10000x128 .f32) (xi1 : Vec F S1x128 .f32) (xs : Vec F S1x128 .f32) (K : PUnit → sProp 𝕄) :
    iprop(owns (c : Thread nD τ) arg1 fullShare x0 ∗ owns (c : Thread nD τ) arg2 fullShare xi1 ∗ owns (c : Thread nD τ) arg3 fullShare xs
        ∗ (iprop(owns (c : Thread nD τ) arg1 fullShare x0 ∗ owns (c : Thread nD τ) arg2 fullShare xi1 ∗ owns (c : Thread nD τ) arg3 fullShare (k4_pay2 xs x0)) -∗ K ⟨⟩))
      ⊢ wp frame (wpE (defs₀ (F := F)) Variants.none c none) E (cc4__mean_kernel i arg1 harg1 arg2 harg2 arg3 harg3) K := by
  simp only [cc4__mean_kernel_eq_skeleton]; unfold cc4__mean_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover4 _ _), View.canon_cons_unit_zero (S := S1x128) hz4]
  simp only [View.readAt_eq_ld, View.ld_unit_zero (S := S1x128) hz4, View.ld_unit_zero (S := S10000x128) hz4]

set_option maxHeartbeats 1000000 in
/-- THE LAST POINT. The scratch at `xs` ends at `k4_pay2 xs x0` as at a middle point, and the output's buffer, at
    anything, ends at `k4_pay3` of that: the one store over the whole output block. -/
theorem sound_kernel4_C (c : Dev nD) (E : Set ℕ) (i : grid4.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole)
    (hc0 : ¬cond4_0 i) (hc1 : cond4_1 i)
    (x0 : Vec F S10000x128 .f32) (xs : Vec F S1x128 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k4_pay3 (k4_pay2 xs x0)) ∗ owns (c : Thread nD τ) arg3 fullShare (k4_pay2 xs x0)) -∗ K ⟨⟩))
      ⊢ wp frame (wpE (defs₀ (F := F)) Variants.none c none) E (cc4__mean_kernel i arg1 harg1 arg2 harg2 arg3 harg3) K := by
  simp only [cc4__mean_kernel_eq_skeleton]; unfold cc4__mean_kernel_skel
  unfold owns
  iintro ⟨⟨%f0, %hf0, H0⟩, ⟨%d1, %f1, -, H1⟩, ⟨%fs, %hfs, HS⟩, Hk⟩
  subst hf0 hfs
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [View.read_writes_eq_canon _ _ _ (cover4 _ _), View.canon_cons_unit_zero (S := S1x128) hz4]
    sl_unfold_run_names
    rw [View.readCov_unit_zero (S := S1x128) _ hz4]
    simp only [View.readAt_eq_ld, View.ld_unit_zero (S := S1x128) hz4, View.ld_unit_zero (S := S10000x128) hz4]
  iexists _; isplitr
  swap; · iexact HS
  ipureintro
  sl_unfold_run_names
  rw [View.read_writes_eq_canon _ _ _ (cover4 _ _), View.canon_cons_unit_zero (S := S1x128) hz4]
  simp only [View.readAt_eq_ld, View.ld_unit_zero (S := S1x128) hz4, View.ld_unit_zero (S := S10000x128) hz4]

end Cert.KernelIdeal.Hand

end
-- ==== Proof.KI_Reg4.lean ====
/-
  Region 4 of @main (`cc4__mean_kernel`, pipeline 4), entered from ANY contents `V` of the TensorCore's buffers.
  The kernel is gridded over ten row blocks of its input and keeps the running column sum in a scratch buffer of its
  own: zeroed at the first point, the block's column sums added at every point, and at the last point the sum times a
  named constant stored over the whole output block, which the pipeline writes back there and nowhere else. So the
  proof data carries the scratch's contents from point to point in the invariant — after `n` points the scratch holds
  `acc4 n`, the fold of `k4_pay2` over the first `n` blocks from the zero block —, the output window is idle at every
  point but the last, and the body obligation follows from one symbolic run of the body per control case.
-/
import proofs.«145243_j28355374088213_1_alg».proof.Proof.KI_Reg4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## Where the conditions hold and where the output window is idle -/

/-- The first conditional is taken at the first point only. -/
theorem hcond4_0 : ∀ t : Fin cfg4.N, cond4_0 (grid4.coords t) ↔ t.val % 10 = 0 :=
  (by decide +kernel : ∀ t : Fin grid4.N, cond4_0 (grid4.coords t) ↔ t.val % 10 = 0)
/-- The second at the last point only. -/
theorem hcond4_1 : ∀ t : Fin cfg4.N, cond4_1 (grid4.coords t) ↔ t.val % 10 = 9 :=
  (by decide +kernel : ∀ t : Fin grid4.N, cond4_1 (grid4.coords t) ↔ t.val % 10 = 9)

/-- The input window is never idle. -/
theorem liveAt4_0 : ∀ t : Fin cfg4.N, cfg4.idle 0 (grid4.coords t) = false := by decide +kernel
/-- Before the last point the output window is idle, -/
theorem idleAt4_1 : ∀ t : Fin cfg4.N, ¬cond4_1 (grid4.coords t) → cfg4.idle 1 (grid4.coords t) = true := by decide +kernel
/-- and not written back; -/
theorem noFlush4_1 : ∀ t : Fin cfg4.N, ¬cond4_1 (grid4.coords t) → (cfg4.win 1).flush t = false := by decide +kernel
/-- at the last point it is live. -/
theorem liveAt4_1 : ∀ t : Fin cfg4.N, cond4_1 (grid4.coords t) → cfg4.idle 1 (grid4.coords t) = false := by decide +kernel

/-! ## The scratch from point to point -/

/-- The kernel's scratch operand, a whole scoped buffer of its own. -/
abbrev scM4 : Memref sig .tc .vmem S1x128 .f32 := Memref.whole cc4_scratch0

/-- THE ACCUMULATION. What the scratch holds after `n` points: the zero block, then the column sums of each of the
    first `n` input blocks added in point order (past the grid's end nothing more). A function of the input array
    as the region finds it alone. -/
def acc4 (c : Dev nD) : ℕ → Vec F S1x128 .f32
  | 0 => k4_pay1
  | n + 1 => if h : n < cfg4.N then k4_pay2 (acc4 c n) (iblk4 V c 0 ⟨n, h⟩) else acc4 c n

theorem acc4_zero (c : Dev nD) : acc4 V c 0 = k4_pay1 := rfl

/-- One more point adds its block. -/
theorem acc4_succ (c : Dev nD) (t : Fin cfg4.N) : acc4 V c (t.val + 1) = k4_pay2 (acc4 V c t.val) (iblk4 V c 0 t) := by
  rw [acc4]; exact dif_pos t.isLt

/-- The region's invariant before position `n`: the generator register at some state; the scratch at anything
    before the first point, afterwards at what the points so far left in it; every other scoped buffer that is no
    staging buffer of this pipeline at some contents, untouched. -/
def Phi4 (c : Dev nD) : ℕ → sProp 𝕄
  | 0 => iprop((∃ r, prngReg c r) ∗ (∃ d, owns (c : Thread nD τ) scM4 fullShare d)
      ∗ Pipeline.scopedRestBut (Ix := Unit) (Name := ℕ) (U := UR sig nD τ) (Lvl := ℕ) (Val := Elt F) spec4 c [cc4_scratch0])
  | n + 1 => iprop((∃ r, prngReg c r) ∗ owns (c : Thread nD τ) scM4 fullShare (acc4 V c (n + 1))
      ∗ Pipeline.scopedRestBut (Ix := Unit) (Name := ℕ) (U := UR sig nD τ) (Lvl := ℕ) (Val := Elt F) spec4 c [cc4_scratch0])

theorem Phi4_zero (c : Dev nD) (n : ℕ) (hz : n = 0) :
    Phi4 V c n = iprop((∃ r, prngReg c r) ∗ (∃ d, owns (c : Thread nD τ) scM4 fullShare d)
      ∗ Pipeline.scopedRestBut (Ix := Unit) (Name := ℕ) (U := UR sig nD τ) (Lvl := ℕ) (Val := Elt F) spec4 c [cc4_scratch0]) := by
  subst hz; rfl

theorem Phi4_pos (c : Dev nD) (n : ℕ) (hz : n ≠ 0) :
    Phi4 V c n = iprop((∃ r, prngReg c r) ∗ owns (c : Thread nD τ) scM4 fullShare (acc4 V c n)
      ∗ Pipeline.scopedRestBut (Ix := Unit) (Name := ℕ) (U := UR sig nD τ) (Lvl := ℕ) (Val := Elt F) spec4 c [cc4_scratch0]) := by
  cases n with
  | zero => exact absurd rfl hz
  | succ n => rfl

/-! ## The pipeline's proof data -/

/-- The proof data of pipeline 4 on core `c`: the arrays as the region finds them; after the body at point `t` the
    input's buffer at its block and the output's at `k4_pay3` of the scratch's contents then (consulted at the last
    point only: before it the window is idle and its buffer is handed back as found); the invariant `Phi4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay3 (acc4 V c (t.val + 1))
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = k4_pay3 (acc4 V c (t.val + 1)) := by dsimp only [dat4]

theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := rfl

theorem before4_0 (c : Dev nD) (t : Fin cfg4.N) (d) : (dat4 V c).before 0 t d = iblk4 V c 0 t :=
  before4_0_of V (dat4 V c) (A_eq4 V c 0) (after4_0 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 1000000 in
/-- The body at any point: the input's memref holds its block; the point is the first, a middle one or the last, and
    that case's run applies, the invariant handing it the scratch at what the points before left (at anything at the
    first) and taking it back with this point's block added; before the last point the output's buffer goes back as
    it was found, at the last it holds `k4_pay3` of the scratch. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [Phi4_succ, Phi4_castSucc, Phi4_pos V c (t.val + 1) (Nat.succ_ne_zero _), acc4_succ]
  rw [show (dat4 V c).leavesExact 0 t = owns (c : Thread nD τ) (st4_0 t) fullShare ((dat4 V c).after 0 t) from by
    unfold Dat.leavesExact; rw [liveAt4_0 t], after4_0]
  have hN : t.val < 10 := lt_of_lt_of_eq t.isLt (show cfg4.N = 10 from N_4)
  by_cases h1 : t.val % 10 = 9
  · have h0 : ¬t.val % 10 = 0 := by omega
    have hz : t.val ≠ 0 := by omega
    rw [show (dat4 V c).leavesExact 1 t = owns (c : Thread nD τ) (st4_1 t) fullShare ((dat4 V c).after 1 t) from by
      unfold Dat.leavesExact; rw [liveAt4_1 t ((hcond4_1 t).mpr h1)], after4_1, acc4_succ]
    rw [Phi4_pos V c _ hz]
    iintro ⟨⟨Hg, HS, Hr⟩, Ho, ⟨%d0, H0⟩, ⟨%d1, H1⟩⟩
    iapply (sound_kernel4_C c Set.univ (grid4.coords t) _ _ _ _ _ _ (fun h => h0 ((hcond4_0 t).mp h)) ((hcond4_1 t).mpr h1) (iblk4 V c 0 t) (acc4 V c t.val) _)
    isplitl [H0]; · iexact H0
    isplitl [H1]; · iexists _; iexact H1
    isplitl [HS]; · iexact HS
    iintro ⟨H0, H1, HS⟩
    isplitl [Hg HS Hr]
    · isplitl [Hg]; · iexact Hg
      isplitl [HS]; · iexact HS
      iexact Hr
    isplitl [Ho]; · iexact Ho
    isplitl [H0]; · iexact H0
    iexact H1
  · rw [Dat.leavesExact_idle (dat4 V c) 1 t (idleAt4_1 t (fun h => h1 ((hcond4_1 t).mp h))) (noFlush4_1 t (fun h => h1 ((hcond4_1 t).mp h)))]
    by_cases h0 : t.val % 10 = 0
    · have hz : t.val = 0 := by omega
      rw [Phi4_zero V c _ hz, show acc4 V c t.val = k4_pay1 from by rw [hz]; rfl]
      iintro ⟨⟨Hg, HS, Hr⟩, Ho, ⟨%d0, H0⟩, ⟨%d1, H1⟩⟩
      iapply (sound_kernel4_A c Set.univ (grid4.coords t) _ _ _ _ _ _ ((hcond4_0 t).mpr h0) (fun h => h1 ((hcond4_1 t).mp h)) (iblk4 V c 0 t) _ _)
      isplitl [H0]; · iexact H0
      isplitl [H1]; · iexact H1
      isplitl [HS]; · iexact HS
      iintro ⟨H0, H1, HS⟩
      isplitl [Hg HS Hr]
      · isplitl [Hg]; · iexact Hg
        isplitl [HS]; · iexact HS
        iexact Hr
      isplitl [Ho]; · iexact Ho
      isplitl [H0]; · iexact H0
      iexists _; iexact H1
    · have hz : t.val ≠ 0 := by omega
      rw [Phi4_pos V c _ hz]
      iintro ⟨⟨Hg, HS, Hr⟩, Ho, ⟨%d0, H0⟩, ⟨%d1, H1⟩⟩
      iapply (sound_kernel4_B c Set.univ (grid4.coords t) _ _ _ _ _ _ (fun h => h0 ((hcond4_0 t).mp h)) (fun h => h1 ((hcond4_1 t).mp h)) (iblk4 V c 0 t) _ (acc4 V c t.val) _)
      isplitl [H0]; · iexact H0
      isplitl [H1]; · iexact H1
      isplitl [HS]; · iexact HS
      iintro ⟨H0, H1, HS⟩
      isplitl [Hg HS Hr]
      · isplitl [Hg]; · iexact Hg
        isplitl [HS]; · iexact HS
        iexact Hr
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the launch hands the region — the generator register and the scoped buffers no window stages — is the
    invariant before the first point: the scratch is one of those buffers, at some contents. -/
theorem hin4 (c : Dev nD) : iprop((∃ r, prngReg c r) ∗ Pipeline.scopedRest (Ix := Unit) (Name := ℕ) (U := UR sig nD τ) (Lvl := ℕ) (Val := Elt F) spec4 c) ⊢ ((dat4 V c).Φ 0 : sProp 𝕄) := by
  rw [show (dat4 V c).Φ 0 = Phi4 V c 0 from rfl, Phi4_zero V c 0 rfl, scopedRest4_split]
  simp only [scM4, owns_whole]
  iintro ⟨Hg, Hf, Hr⟩
  isplitl [Hg]; · iexact Hg
  isplitl [Hf]; · iexact Hf
  iexact Hr

/-- After the last point the invariant gives them back: the scratch's named contents are forgotten. -/
theorem hout4 (c : Dev nD) : ((dat4 V c).Φ (Fin.last cfg4.N) : sProp 𝕄) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl,
    Phi4_pos V c _ (by rw [Fin.val_last]; have : cfg4.N = 10 := N_4; omega), scopedRest4_split]
  simp only [scM4, owns_whole]
  iintro ⟨Hg, HS, Hr⟩
  isplitl [Hg]; · iexact Hg
  isplitl [HS]; · iexists _; iexact HS
  iexact Hr

/-- Every array is held at the full share, and the core owes nothing. -/
theorem share4 (c : Dev nD) : ∀ w, (dat4 V c).q w = fullShare := fun _ => rfl
theorem share_full4 (c : Dev nD) : ∀ w, (dat4 V c).share w = fullShare := (dat4 V c).share_full fun _ => rfl
theorem owed4 (c : Dev nD) (t : Fin (cfg4.N + 1)) : (dat4 V c).owed t = 0 := rfl

/-! ## The arrays after the region -/

/-- The result: `k4_pay3` of the scratch after all ten points, as contents of the result array (its one block is
    the array). -/
abbrev result4 (c : Dev nD) : Buf (Elt F) ((c : Thread nD τ).loc main_v63) := k4_pay3 (acc4 V c 10)

/-- The one write-back, at the last point, writes it: block (0, 0) of the [1,128] array read through zero offsets is
    the array. -/
theorem flushed4_1 (c : Dev nD) (t : Fin cfg4.N) (hf : (cfg4.win 1).flush t = true) :
    (dat4 V c).flushed 1 t = ((cfg4.win 1).blk t).view.read (Elt F) (result4 V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  have hz' : (fun a => win4_1.index t4_9 a * main_v63.ty.shape.size a) = fun _ => 0 := funext fun a => by fin_cases a <;> decide
  exact (Memref.read_access_unit_zero (Elt F) main_v63 hz' (fun a => by rw [congrFun hz' a]; simp) (result4 V c)).symm

/-- So the result array ends holding it: the last point's block covers the array. -/
theorem final4 (c : Dev nD) : (dat4 V c).arrAt 1 cfg4.N = result4 V c :=
  (dat4 V c).arrAt_eq_of_cover 1 (result4 V c) (flushed4_1 V c) fun i =>
    ⟨t4_9, (flush4_1 t4_9).mpr rfl, by
      show i ∈ ((View.whole main_v63).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 128 from by decide +kernel]; omega⟩

/-- The input array is as the region found it. -/
theorem final4_in (c : Dev nD) : (dat4 V c).arrAt 0 cfg4.N = V c main_v62 :=
  ((dat4 V c).arrAt_in 0 rfl _).trans (A_eq4 V c 0)

end Cert.KernelIdeal.Hand

end
-- ==== Proof.KI_Pdats.lean ====
/-
  The proof data of the ten pipelines as ONE family, each region's at the contents its region is entered from: the
  launch contents pushed through the host stretches, with each earlier region's output array at what that region
  left (the unknowns `outs`, pinned later). Beside it: what rides along between the items (the generator register at
  some state, nothing owed) and the trivial level assignment.
-/
import proofs.«145243_j28355374088213_1_alg».proof.Proof.KI_Reg0
import proofs.«145243_j28355374088213_1_alg».proof.Proof.KI_Reg1
import proofs.«145243_j28355374088213_1_alg».proof.Proof.KI_Reg2
import proofs.«145243_j28355374088213_1_alg».proof.Proof.KI_Reg3
import proofs.«145243_j28355374088213_1_alg».proof.Proof.KI_Reg5
import proofs.«145243_j28355374088213_1_alg».proof.Proof.KI_Reg6
import proofs.«145243_j28355374088213_1_alg».proof.Proof.KI_Reg7
import proofs.«145243_j28355374088213_1_alg».proof.Proof.KI_Reg8
import proofs.«145243_j28355374088213_1_alg».proof.Proof.KI_Reg9
import proofs.«145243_j28355374088213_1_alg».proof.Proof.KI_Reg4
import proofs.«145243_j28355374088213_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-- Every pipeline's proof data, each at its region's entry contents. -/
def pdats : (p : Fin 10) → (c : Dev nD) → Dat τ (Elt F) Unit ℕ (UR sig nD τ) ℕ (cfgs p) c
  | ⟨0, _⟩ => fun c => dat0 (fun c b => V3 m c b) c
  | ⟨1, _⟩ => fun c => dat1 (fun c b => V5 m outs c b) c
  | ⟨2, _⟩ => fun c => dat2 (fun c b => V6 m outs c b) c
  | ⟨3, _⟩ => fun c => dat3 (fun c b => V8 m outs c b) c
  | ⟨4, _⟩ => fun c => dat4 (fun c b => V9 m outs c b) c
  | ⟨5, _⟩ => fun c => dat5 (fun c b => V11 m outs c b) c
  | ⟨6, _⟩ => fun c => dat6 (fun c b => V12 m outs c b) c
  | ⟨7, _⟩ => fun c => dat7 (fun c b => V14 m outs c b) c
  | ⟨8, _⟩ => fun c => dat8 (fun c b => V15 m outs c b) c
  | ⟨9, _⟩ => fun c => dat9 (fun c b => V17 m outs c b) c

/-- No core owes another anything: no level is assigned. -/
abbrev L : GSem nD τ sig → Finset Unit := fun _ => ∅
abbrev lv : GSem nD τ sig → Unit → ℕ := fun _ _ => 0

/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.KernelIdeal.Hand

end
-- ==== Proof.KI_Outs.lean ====
/-
  The contents the regions leave, constructed: a chain of valuations from the launch memory — a host stretch applied,
  or a region's output array replaced by what that region's pipeline leaves — and the unknowns `outs` read off the
  chain's last stage. Each region's output array is written once and never again, so the last stage still holds it;
  hence the conditional frame's valuations at these `outs` ARE the chain's stages, and every region's unknown is
  what its pipeline leaves from the contents it was entered at.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The chain's stages (named after the item they follow) and what each region leaves in its output array. -/
def U3 (c : Dev nD) : Valuation τ sig (Elt F) := V3 m c
def O4 (c : Dev nD) : Buf (Elt F) ((c : Thread nD τ).loc main_v31) := (dat0 (fun c b => U3 m c b) c).arrAt 2 cfg0.N
def U4 (c : Dev nD) : Valuation τ sig (Elt F) := Function.update (U3 m c) main_v31 (O4 m c)
def U5 (c : Dev nD) : Valuation τ sig (Elt F) := StableHlo.after hostOps1 (U4 m c)
def O6 (c : Dev nD) : Buf (Elt F) ((c : Thread nD τ).loc main_v46) := (dat1 (fun c b => U5 m c b) c).arrAt 2 cfg1.N
def U6 (c : Dev nD) : Valuation τ sig (Elt F) := Function.update (U5 m c) main_v46 (O6 m c)
def O7 (c : Dev nD) : Buf (Elt F) ((c : Thread nD τ).loc main_v47) := (dat2 (fun c b => U6 m c b) c).arrAt 2 cfg2.N
def U7 (c : Dev nD) : Valuation τ sig (Elt F) := Function.update (U6 m c) main_v47 (O7 m c)
def U8 (c : Dev nD) : Valuation τ sig (Elt F) := StableHlo.after hostOps3 (U7 m c)
def O9 (c : Dev nD) : Buf (Elt F) ((c : Thread nD τ).loc main_v62) := (dat3 (fun c b => U8 m c b) c).arrAt 2 cfg3.N
def U9 (c : Dev nD) : Valuation τ sig (Elt F) := Function.update (U8 m c) main_v62 (O9 m c)
def O10 (c : Dev nD) : Buf (Elt F) ((c : Thread nD τ).loc main_v63) := (dat4 (fun c b => U9 m c b) c).arrAt 1 cfg4.N
def U10 (c : Dev nD) : Valuation τ sig (Elt F) := Function.update (U9 m c) main_v63 (O10 m c)
def U11 (c : Dev nD) : Valuation τ sig (Elt F) := StableHlo.after hostOps5 (U10 m c)
def O12 (c : Dev nD) : Buf (Elt F) ((c : Thread nD τ).loc main_v90) := (dat5 (fun c b => U11 m c b) c).arrAt 2 cfg5.N
def U12 (c : Dev nD) : Valuation τ sig (Elt F) := Function.update (U11 m c) main_v90 (O12 m c)
def O13 (c : Dev nD) : Buf (Elt F) ((c : Thread nD τ).loc main_v91) := (dat6 (fun c b => U12 m c b) c).arrAt 2 cfg6.N
def U13 (c : Dev nD) : Valuation τ sig (Elt F) := Function.update (U12 m c) main_v91 (O13 m c)
def U14 (c : Dev nD) : Valuation τ sig (Elt F) := StableHlo.after hostOps7 (U13 m c)
def O15 (c : Dev nD) : Buf (Elt F) ((c : Thread nD τ).loc main_v106) := (dat7 (fun c b => U14 m c b) c).arrAt 2 cfg7.N
def U15 (c : Dev nD) : Valuation τ sig (Elt F) := Function.update (U14 m c) main_v106 (O15 m c)
def O16 (c : Dev nD) : Buf (Elt F) ((c : Thread nD τ).loc main_v107) := (dat8 (fun c b => U15 m c b) c).arrAt 2 cfg8.N
def U16 (c : Dev nD) : Valuation τ sig (Elt F) := Function.update (U15 m c) main_v107 (O16 m c)
def U17 (c : Dev nD) : Valuation τ sig (Elt F) := StableHlo.after hostOps9 (U16 m c)
def O18 (c : Dev nD) : Buf (Elt F) ((c : Thread nD τ).loc main_v122) := (dat9 (fun c b => U17 m c b) c).arrAt 2 cfg9.N
def U18 (c : Dev nD) : Valuation τ sig (Elt F) := Function.update (U17 m c) main_v122 (O18 m c)

/-- Every region's output array at what the region leaves, over the launch memory elsewhere. -/
def B (c : Dev nD) : Valuation τ sig (Elt F) :=
  (Function.update (Function.update (Function.update (Function.update (Function.update (Function.update (Function.update (Function.update (Function.update (Function.update (V0 m c) main_v31 (O4 m c)) main_v46 (O6 m c)) main_v47 (O7 m c)) main_v62 (O9 m c)) main_v63 (O10 m c)) main_v90 (O12 m c)) main_v91 (O13 m c)) main_v106 (O15 m c)) main_v107 (O16 m c)) main_v122 (O18 m c))

/-- The unknowns: whatever the item, a buffer's contents in `B`. -/
def outs : Outs (F := F) := fun _ r c => B m c r

theorem outs_4 (J : ℕ) (c : Dev nD) : outs m J main_v31 c = O4 m c := by
  show B m c main_v31 = _
  unfold B
  rw [Function.update_of_ne (StableHlo.devRef_ne_of_ne (by decide) : (Proc.devRef .tc main_v31 : DevRef τ sig) ≠ Proc.devRef .tc main_v122),
    Function.update_of_ne (StableHlo.devRef_ne_of_ne (by decide) : (Proc.devRef .tc main_v31 : DevRef τ sig) ≠ Proc.devRef .tc main_v107),
    Function.update_of_ne (StableHlo.devRef_ne_of_ne (by decide) : (Proc.devRef .tc main_v31 : DevRef τ sig) ≠ Proc.devRef .tc main_v106),
    Function.update_of_ne (StableHlo.devRef_ne_of_ne (by decide) : (Proc.devRef .tc main_v31 : DevRef τ sig) ≠ Proc.devRef .tc main_v91),
    Function.update_of_ne (StableHlo.devRef_ne_of_ne (by decide) : (Proc.devRef .tc main_v31 : DevRef τ sig) ≠ Proc.devRef .tc main_v90),
    Function.update_of_ne (StableHlo.devRef_ne_of_ne (by decide) : (Proc.devRef .tc main_v31 : DevRef τ sig) ≠ Proc.devRef .tc main_v63),
    Function.update_of_ne (StableHlo.devRef_ne_of_ne (by decide) : (Proc.devRef .tc main_v31 : DevRef τ sig) ≠ Proc.devRef .tc main_v62),
    Function.update_of_ne (StableHlo.devRef_ne_of_ne (by decide) : (Proc.devRef .tc main_v31 : DevRef τ sig) ≠ Proc.devRef .tc main_v47),
    Function.update_of_ne (StableHlo.devRef_ne_of_ne (by decide) : (Proc.devRef .tc main_v31 : DevRef τ sig) ≠ Proc.devRef .tc main_v46),
    Function.update_self]
theorem outs_6 (J : ℕ) (c : Dev nD) : outs m J main_v46 c = O6 m c := by
  show B m c main_v46 = _
  unfold B
  rw [Function.update_of_ne (StableHlo.devRef_ne_of_ne (by decide) : (Proc.devRef .tc main_v46 : DevRef τ sig) ≠ Proc.devRef .tc main_v122),
    Function.update_of_ne (StableHlo.devRef_ne_of_ne (by decide) : (Proc.devRef .tc main_v46 : DevRef τ sig) ≠ Proc.devRef .tc main_v107),
    Function.update_of_ne (StableHlo.devRef_ne_of_ne (by decide) : (Proc.devRef .tc main_v46 : DevRef τ sig) ≠ Proc.devRef .tc main_v106),
    Function.update_of_ne (StableHlo.devRef_ne_of_ne (by decide) : (Proc.devRef .tc main_v46 : DevRef τ sig) ≠ Proc.devRef .tc main_v91),
    Function.update_of_ne (StableHlo.devRef_ne_of_ne (by decide) : (Proc.devRef .tc main_v46 : DevRef τ sig) ≠ Proc.devRef .tc main_v90),
    Function.update_of_ne (StableHlo.devRef_ne_of_ne (by decide) : (Proc.devRef .tc main_v46 : DevRef τ sig) ≠ Proc.devRef .tc main_v63),
    Function.update_of_ne (StableHlo.devRef_ne_of_ne (by decide) : (Proc.devRef .tc main_v46 : DevRef τ sig) ≠ Proc.devRef .tc main_v62),
    Function.update_of_ne (StableHlo.devRef_ne_of_ne (by decide) : (Proc.devRef .tc main_v46 : DevRef τ sig) ≠ Proc.devRef .tc main_v47),
    Function.update_self]
theorem outs_7 (J : ℕ) (c : Dev nD) : outs m J main_v47 c = O7 m c := by
  show B m c main_v47 = _
  unfold B
  rw [Function.update_of_ne (StableHlo.devRef_ne_of_ne (by decide) : (Proc.devRef .tc main_v47 : DevRef τ sig) ≠ Proc.devRef .tc main_v122),
    Function.update_of_ne (StableHlo.devRef_ne_of_ne (by decide) : (Proc.devRef .tc main_v47 : DevRef τ sig) ≠ Proc.devRef .tc main_v107),
    Function.update_of_ne (StableHlo.devRef_ne_of_ne (by decide) : (Proc.devRef .tc main_v47 : DevRef τ sig) ≠ Proc.devRef .tc main_v106),
    Function.update_of_ne (StableHlo.devRef_ne_of_ne (by decide) : (Proc.devRef .tc main_v47 : DevRef τ sig) ≠ Proc.devRef .tc main_v91),
    Function.update_of_ne (StableHlo.devRef_ne_of_ne (by decide) : (Proc.devRef .tc main_v47 : DevRef τ sig) ≠ Proc.devRef .tc main_v90),
    Function.update_of_ne (StableHlo.devRef_ne_of_ne (by decide) : (Proc.devRef .tc main_v47 : DevRef τ sig) ≠ Proc.devRef .tc main_v63),
    Function.update_of_ne (StableHlo.devRef_ne_of_ne (by decide) : (Proc.devRef .tc main_v47 : DevRef τ sig) ≠ Proc.devRef .tc main_v62),
    Function.update_self]
theorem outs_9 (J : ℕ) (c : Dev nD) : outs m J main_v62 c = O9 m c := by
  show B m c main_v62 = _
  unfold B
  rw [Function.update_of_ne (StableHlo.devRef_ne_of_ne (by decide) : (Proc.devRef .tc main_v62 : DevRef τ sig) ≠ Proc.devRef .tc main_v122),
    Function.update_of_ne (StableHlo.devRef_ne_of_ne (by decide) : (Proc.devRef .tc main_v62 : DevRef τ sig) ≠ Proc.devRef .tc main_v107),
    Function.update_of_ne (StableHlo.devRef_ne_of_ne (by decide) : (Proc.devRef .tc main_v62 : DevRef τ sig) ≠ Proc.devRef .tc main_v106),
    Function.update_of_ne (StableHlo.devRef_ne_of_ne (by decide) : (Proc.devRef .tc main_v62 : DevRef τ sig) ≠ Proc.devRef .tc main_v91),
    Function.update_of_ne (StableHlo.devRef_ne_of_ne (by decide) : (Proc.devRef .tc main_v62 : DevRef τ sig) ≠ Proc.devRef .tc main_v90),
    Function.update_of_ne (StableHlo.devRef_ne_of_ne (by decide) : (Proc.devRef .tc main_v62 : DevRef τ sig) ≠ Proc.devRef .tc main_v63),
    Function.update_self]
theorem outs_10 (J : ℕ) (c : Dev nD) : outs m J main_v63 c = O10 m c := by
  show B m c main_v63 = _
  unfold B
  rw [Function.update_of_ne (StableHlo.devRef_ne_of_ne (by decide) : (Proc.devRef .tc main_v63 : DevRef τ sig) ≠ Proc.devRef .tc main_v122),
    Function.update_of_ne (StableHlo.devRef_ne_of_ne (by decide) : (Proc.devRef .tc main_v63 : DevRef τ sig) ≠ Proc.devRef .tc main_v107),
    Function.update_of_ne (StableHlo.devRef_ne_of_ne (by decide) : (Proc.devRef .tc main_v63 : DevRef τ sig) ≠ Proc.devRef .tc main_v106),
    Function.update_of_ne (StableHlo.devRef_ne_of_ne (by decide) : (Proc.devRef .tc main_v63 : DevRef τ sig) ≠ Proc.devRef .tc main_v91),
    Function.update_of_ne (StableHlo.devRef_ne_of_ne (by decide) : (Proc.devRef .tc main_v63 : DevRef τ sig) ≠ Proc.devRef .tc main_v90),
    Function.update_self]
theorem outs_12 (J : ℕ) (c : Dev nD) : outs m J main_v90 c = O12 m c := by
  show B m c main_v90 = _
  unfold B
  rw [Function.update_of_ne (StableHlo.devRef_ne_of_ne (by decide) : (Proc.devRef .tc main_v90 : DevRef τ sig) ≠ Proc.devRef .tc main_v122),
    Function.update_of_ne (StableHlo.devRef_ne_of_ne (by decide) : (Proc.devRef .tc main_v90 : DevRef τ sig) ≠ Proc.devRef .tc main_v107),
    Function.update_of_ne (StableHlo.devRef_ne_of_ne (by decide) : (Proc.devRef .tc main_v90 : DevRef τ sig) ≠ Proc.devRef .tc main_v106),
    Function.update_of_ne (StableHlo.devRef_ne_of_ne (by decide) : (Proc.devRef .tc main_v90 : DevRef τ sig) ≠ Proc.devRef .tc main_v91),
    Function.update_self]
theorem outs_13 (J : ℕ) (c : Dev nD) : outs m J main_v91 c = O13 m c := by
  show B m c main_v91 = _
  unfold B
  rw [Function.update_of_ne (StableHlo.devRef_ne_of_ne (by decide) : (Proc.devRef .tc main_v91 : DevRef τ sig) ≠ Proc.devRef .tc main_v122),
    Function.update_of_ne (StableHlo.devRef_ne_of_ne (by decide) : (Proc.devRef .tc main_v91 : DevRef τ sig) ≠ Proc.devRef .tc main_v107),
    Function.update_of_ne (StableHlo.devRef_ne_of_ne (by decide) : (Proc.devRef .tc main_v91 : DevRef τ sig) ≠ Proc.devRef .tc main_v106),
    Function.update_self]
theorem outs_15 (J : ℕ) (c : Dev nD) : outs m J main_v106 c = O15 m c := by
  show B m c main_v106 = _
  unfold B
  rw [Function.update_of_ne (StableHlo.devRef_ne_of_ne (by decide) : (Proc.devRef .tc main_v106 : DevRef τ sig) ≠ Proc.devRef .tc main_v122),
    Function.update_of_ne (StableHlo.devRef_ne_of_ne (by decide) : (Proc.devRef .tc main_v106 : DevRef τ sig) ≠ Proc.devRef .tc main_v107),
    Function.update_self]
theorem outs_16 (J : ℕ) (c : Dev nD) : outs m J main_v107 c = O16 m c := by
  show B m c main_v107 = _
  unfold B
  rw [Function.update_of_ne (StableHlo.devRef_ne_of_ne (by decide) : (Proc.devRef .tc main_v107 : DevRef τ sig) ≠ Proc.devRef .tc main_v122),
    Function.update_self]
theorem outs_18 (J : ℕ) (c : Dev nD) : outs m J main_v122 c = O18 m c := by
  show B m c main_v122 = _
  unfold B
  rw [Function.update_self]

/-- The conditional frame's valuations at these unknowns are the chain's stages. -/
theorem V4_eq (c : Dev nD) : V4 m (outs m) c = U4 m c := by
  show Function.update (V3 m c) main_v31 (outs m 4 main_v31 c) = Function.update (U3 m c) main_v31 (O4 m c)
  rw [outs_4]; rfl
theorem V5_eq (c : Dev nD) : V5 m (outs m) c = U5 m c := by
  show StableHlo.after hostOps1 (V4 m (outs m) c) = StableHlo.after hostOps1 (U4 m c)
  rw [V4_eq]
theorem V6_eq (c : Dev nD) : V6 m (outs m) c = U6 m c := by
  show Function.update (V5 m (outs m) c) main_v46 (outs m 6 main_v46 c) = Function.update (U5 m c) main_v46 (O6 m c)
  rw [outs_6, V5_eq]
theorem V7_eq (c : Dev nD) : V7 m (outs m) c = U7 m c := by
  show Function.update (V6 m (outs m) c) main_v47 (outs m 7 main_v47 c) = Function.update (U6 m c) main_v47 (O7 m c)
  rw [outs_7, V6_eq]
theorem V8_eq (c : Dev nD) : V8 m (outs m) c = U8 m c := by
  show StableHlo.after hostOps3 (V7 m (outs m) c) = StableHlo.after hostOps3 (U7 m c)
  rw [V7_eq]
theorem V9_eq (c : Dev nD) : V9 m (outs m) c = U9 m c := by
  show Function.update (V8 m (outs m) c) main_v62 (outs m 9 main_v62 c) = Function.update (U8 m c) main_v62 (O9 m c)
  rw [outs_9, V8_eq]
theorem V10_eq (c : Dev nD) : V10 m (outs m) c = U10 m c := by
  show Function.update (V9 m (outs m) c) main_v63 (outs m 10 main_v63 c) = Function.update (U9 m c) main_v63 (O10 m c)
  rw [outs_10, V9_eq]
theorem V11_eq (c : Dev nD) : V11 m (outs m) c = U11 m c := by
  show StableHlo.after hostOps5 (V10 m (outs m) c) = StableHlo.after hostOps5 (U10 m c)
  rw [V10_eq]
theorem V12_eq (c : Dev nD) : V12 m (outs m) c = U12 m c := by
  show Function.update (V11 m (outs m) c) main_v90 (outs m 12 main_v90 c) = Function.update (U11 m c) main_v90 (O12 m c)
  rw [outs_12, V11_eq]
theorem V13_eq (c : Dev nD) : V13 m (outs m) c = U13 m c := by
  show Function.update (V12 m (outs m) c) main_v91 (outs m 13 main_v91 c) = Function.update (U12 m c) main_v91 (O13 m c)
  rw [outs_13, V12_eq]
theorem V14_eq (c : Dev nD) : V14 m (outs m) c = U14 m c := by
  show StableHlo.after hostOps7 (V13 m (outs m) c) = StableHlo.after hostOps7 (U13 m c)
  rw [V13_eq]
theorem V15_eq (c : Dev nD) : V15 m (outs m) c = U15 m c := by
  show Function.update (V14 m (outs m) c) main_v106 (outs m 15 main_v106 c) = Function.update (U14 m c) main_v106 (O15 m c)
  rw [outs_15, V14_eq]
theorem V16_eq (c : Dev nD) : V16 m (outs m) c = U16 m c := by
  show Function.update (V15 m (outs m) c) main_v107 (outs m 16 main_v107 c) = Function.update (U15 m c) main_v107 (O16 m c)
  rw [outs_16, V15_eq]
theorem V17_eq (c : Dev nD) : V17 m (outs m) c = U17 m c := by
  show StableHlo.after hostOps9 (V16 m (outs m) c) = StableHlo.after hostOps9 (U16 m c)
  rw [V16_eq]
theorem V18_eq (c : Dev nD) : V18 m (outs m) c = U18 m c := by
  show Function.update (V17 m (outs m) c) main_v122 (outs m 18 main_v122 c) = Function.update (U17 m c) main_v122 (O18 m c)
  rw [outs_18, V17_eq]

/-- Each unknown is what its region's pipeline leaves from the contents the region is entered at. -/
theorem ok0 (c : Dev nD) : outs m 4 main_v31 c = (pdats m (outs m) 0 c).arrAt 2 cfg0.N := by
  rw [outs_4]
  show (dat0 (fun c b => U3 m c b) c).arrAt 2 cfg0.N = (dat0 (fun c b => V3 m c b) c).arrAt 2 cfg0.N
  rfl
theorem ok1 (c : Dev nD) : outs m 6 main_v46 c = (pdats m (outs m) 1 c).arrAt 2 cfg1.N := by
  rw [outs_6]
  have e : (fun (c : Dev nD) (b : Ref sig .tc) => V5 m (outs m) c b) = (fun (c : Dev nD) (b : Ref sig .tc) => U5 m c b) := by
    funext c b; rw [V5_eq]
  show (dat1 (fun c b => U5 m c b) c).arrAt 2 cfg1.N = (dat1 (fun c b => V5 m (outs m) c b) c).arrAt 2 cfg1.N
  rw [e]
theorem ok2 (c : Dev nD) : outs m 7 main_v47 c = (pdats m (outs m) 2 c).arrAt 2 cfg2.N := by
  rw [outs_7]
  have e : (fun (c : Dev nD) (b : Ref sig .tc) => V6 m (outs m) c b) = (fun (c : Dev nD) (b : Ref sig .tc) => U6 m c b) := by
    funext c b; rw [V6_eq]
  show (dat2 (fun c b => U6 m c b) c).arrAt 2 cfg2.N = (dat2 (fun c b => V6 m (outs m) c b) c).arrAt 2 cfg2.N
  rw [e]
theorem ok3 (c : Dev nD) : outs m 9 main_v62 c = (pdats m (outs m) 3 c).arrAt 2 cfg3.N := by
  rw [outs_9]
  have e : (fun (c : Dev nD) (b : Ref sig .tc) => V8 m (outs m) c b) = (fun (c : Dev nD) (b : Ref sig .tc) => U8 m c b) := by
    funext c b; rw [V8_eq]
  show (dat3 (fun c b => U8 m c b) c).arrAt 2 cfg3.N = (dat3 (fun c b => V8 m (outs m) c b) c).arrAt 2 cfg3.N
  rw [e]
theorem ok4 (c : Dev nD) : outs m 10 main_v63 c = (pdats m (outs m) 4 c).arrAt 1 cfg4.N := by
  rw [outs_10]
  have e : (fun (c : Dev nD) (b : Ref sig .tc) => V9 m (outs m) c b) = (fun (c : Dev nD) (b : Ref sig .tc) => U9 m c b) := by
    funext c b; rw [V9_eq]
  show (dat4 (fun c b => U9 m c b) c).arrAt 1 cfg4.N = (dat4 (fun c b => V9 m (outs m) c b) c).arrAt 1 cfg4.N
  rw [e]
theorem ok5 (c : Dev nD) : outs m 12 main_v90 c = (pdats m (outs m) 5 c).arrAt 2 cfg5.N := by
  rw [outs_12]
  have e : (fun (c : Dev nD) (b : Ref sig .tc) => V11 m (outs m) c b) = (fun (c : Dev nD) (b : Ref sig .tc) => U11 m c b) := by
    funext c b; rw [V11_eq]
  show (dat5 (fun c b => U11 m c b) c).arrAt 2 cfg5.N = (dat5 (fun c b => V11 m (outs m) c b) c).arrAt 2 cfg5.N
  rw [e]
theorem ok6 (c : Dev nD) : outs m 13 main_v91 c = (pdats m (outs m) 6 c).arrAt 2 cfg6.N := by
  rw [outs_13]
  have e : (fun (c : Dev nD) (b : Ref sig .tc) => V12 m (outs m) c b) = (fun (c : Dev nD) (b : Ref sig .tc) => U12 m c b) := by
    funext c b; rw [V12_eq]
  show (dat6 (fun c b => U12 m c b) c).arrAt 2 cfg6.N = (dat6 (fun c b => V12 m (outs m) c b) c).arrAt 2 cfg6.N
  rw [e]
theorem ok7 (c : Dev nD) : outs m 15 main_v106 c = (pdats m (outs m) 7 c).arrAt 2 cfg7.N := by
  rw [outs_15]
  have e : (fun (c : Dev nD) (b : Ref sig .tc) => V14 m (outs m) c b) = (fun (c : Dev nD) (b : Ref sig .tc) => U14 m c b) := by
    funext c b; rw [V14_eq]
  show (dat7 (fun c b => U14 m c b) c).arrAt 2 cfg7.N = (dat7 (fun c b => V14 m (outs m) c b) c).arrAt 2 cfg7.N
  rw [e]
theorem ok8 (c : Dev nD) : outs m 16 main_v107 c = (pdats m (outs m) 8 c).arrAt 2 cfg8.N := by
  rw [outs_16]
  have e : (fun (c : Dev nD) (b : Ref sig .tc) => V15 m (outs m) c b) = (fun (c : Dev nD) (b : Ref sig .tc) => U15 m c b) := by
    funext c b; rw [V15_eq]
  show (dat8 (fun c b => U15 m c b) c).arrAt 2 cfg8.N = (dat8 (fun c b => V15 m (outs m) c b) c).arrAt 2 cfg8.N
  rw [e]
theorem ok9 (c : Dev nD) : outs m 18 main_v122 c = (pdats m (outs m) 9 c).arrAt 2 cfg9.N := by
  rw [outs_18]
  have e : (fun (c : Dev nD) (b : Ref sig .tc) => V17 m (outs m) c b) = (fun (c : Dev nD) (b : Ref sig .tc) => U17 m c b) := by
    funext c b; rw [V17_eq]
  show (dat9 (fun c b => U17 m c b) c).arrAt 2 cfg9.N = (dat9 (fun c b => V17 m (outs m) c b) c).arrAt 2 cfg9.N
  rw [e]

end Cert.KernelIdeal.Hand

end
-- ==== Proof.KI_Seg0.lean ====
/-
  Region 0 of @main as a segment over the thread state "every unscoped buffer at the contents the item is entered
  from, the generator register at some state, nothing owed". It is entered by splitting the windows' arrays out of the
  unscoped buffers and left by putting them back, the output's array now at what the pipeline's write-backs leave
  (the unknown `outs 4 main_v31`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 0's exit each of its arrays holds what the pipeline leaves: an input is as entered, the output is the
    pinned unknown. -/
theorem hF0 (h : ∀ c, outs 4 main_v31 c = (pdats m outs 0 c).arrAt 2 cfg0.N) (c : Dev nD) :
    ∀ w : Fin cfg0.W, (pdats m outs 0 c).arrAt w cfg0.N = (fun b : Ref sig .tc => V4 m outs c b) (Pipeline.arrRef spec0 w)
    | ⟨0, _⟩ => ((pdats m outs 0 c).arrAt_in 0 rfl _).trans ((A_eq0 (fun c b => V3 m c b) c 0).trans (V4_of m outs c main_arg0 (by decide)).symm)
    | ⟨1, _⟩ => ((pdats m outs 0 c).arrAt_in 1 rfl _).trans ((A_eq0 (fun c b => V3 m c b) c 1).trans (V4_of m outs c main_arg2 (by decide)).symm)
    | ⟨2, _⟩ => (h c).symm.trans (Function.update_self (β := fun b : DevRef τ sig => b.ty.Contents (Elt F)) _ _ _).symm

/-- Every buffer that is no array of the region is as entered. -/
theorem hrest0 (c : Dev nD) : ∀ b : Ref sig .tc, b ∉ Finset.univ.image (Pipeline.arrRef spec0) → V4 m outs c b = V3 m c b :=
  fun b hb => V4_of m outs c b (fun hm => hb (by rw [List.mem_singleton.mp hm]; exact Finset.mem_image.mpr ⟨2, Finset.mem_univ _, rfl⟩))

set_option backward.isDefEq.respectTransparency.types false in
def reg0 (h : ∀ c, outs 4 main_v31 c = (pdats m outs 0 c).arrAt 2 cfg0.N) :
    Pipeline.RegionSeg (pcfgs (F := F)) adm (pdats m outs) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (fun b => V3 m c b) (fun b => V4 m outs c b) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg1.lean ====
/-
  Region 1 of @main as a segment over the thread state "every unscoped buffer at the contents the item is entered
  from, the generator register at some state, nothing owed". It is entered by splitting the windows' arrays out of the
  unscoped buffers and left by putting them back, the output's array now at what the pipeline's write-backs leave
  (the unknown `outs 6 main_v46`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 1's exit each of its arrays holds what the pipeline leaves: an input is as entered, the output is the
    pinned unknown. -/
theorem hF1 (h : ∀ c, outs 6 main_v46 c = (pdats m outs 1 c).arrAt 2 cfg1.N) (c : Dev nD) :
    ∀ w : Fin cfg1.W, (pdats m outs 1 c).arrAt w cfg1.N = (fun b : Ref sig .tc => V6 m outs c b) (Pipeline.arrRef spec1 w)
    | ⟨0, _⟩ => ((pdats m outs 1 c).arrAt_in 0 rfl _).trans ((A_eq1 (fun c b => V5 m outs c b) c 0).trans (V6_of m outs c main_v44 (by decide)).symm)
    | ⟨1, _⟩ => ((pdats m outs 1 c).arrAt_in 1 rfl _).trans ((A_eq1 (fun c b => V5 m outs c b) c 1).trans (V6_of m outs c main_v45 (by decide)).symm)
    | ⟨2, _⟩ => (h c).symm.trans (Function.update_self (β := fun b : DevRef τ sig => b.ty.Contents (Elt F)) _ _ _).symm

/-- Every buffer that is no array of the region is as entered. -/
theorem hrest1 (c : Dev nD) : ∀ b : Ref sig .tc, b ∉ Finset.univ.image (Pipeline.arrRef spec1) → V6 m outs c b = V5 m outs c b :=
  fun b hb => V6_of m outs c b (fun hm => hb (by rw [List.mem_singleton.mp hm]; exact Finset.mem_image.mpr ⟨2, Finset.mem_univ _, rfl⟩))

set_option backward.isDefEq.respectTransparency.types false in
def reg1 (h : ∀ c, outs 6 main_v46 c = (pdats m outs 1 c).arrAt 2 cfg1.N) :
    Pipeline.RegionSeg (pcfgs (F := F)) adm (pdats m outs) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V5 m outs c b) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m outs c b)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (fun b => V5 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (fun b => V5 m outs c b) (fun b => V6 m outs c b) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg2.lean ====
/-
  Region 2 of @main as a segment over the thread state "every unscoped buffer at the contents the item is entered
  from, the generator register at some state, nothing owed". It is entered by splitting the windows' arrays out of the
  unscoped buffers and left by putting them back, the output's array now at what the pipeline's write-backs leave
  (the unknown `outs 7 main_v47`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 2's exit each of its arrays holds what the pipeline leaves: an input is as entered, the output is the
    pinned unknown. -/
theorem hF2 (h : ∀ c, outs 7 main_v47 c = (pdats m outs 2 c).arrAt 2 cfg2.N) (c : Dev nD) :
    ∀ w : Fin cfg2.W, (pdats m outs 2 c).arrAt w cfg2.N = (fun b : Ref sig .tc => V7 m outs c b) (Pipeline.arrRef spec2 w)
    | ⟨0, _⟩ => ((pdats m outs 2 c).arrAt_in 0 rfl _).trans ((A_eq2 (fun c b => V6 m outs c b) c 0).trans (V7_of m outs c main_v46 (by decide)).symm)
    | ⟨1, _⟩ => ((pdats m outs 2 c).arrAt_in 1 rfl _).trans ((A_eq2 (fun c b => V6 m outs c b) c 1).trans (V7_of m outs c main_arg4 (by decide)).symm)
    | ⟨2, _⟩ => (h c).symm.trans (Function.update_self (β := fun b : DevRef τ sig => b.ty.Contents (Elt F)) _ _ _).symm

/-- Every buffer that is no array of the region is as entered. -/
theorem hrest2 (c : Dev nD) : ∀ b : Ref sig .tc, b ∉ Finset.univ.image (Pipeline.arrRef spec2) → V7 m outs c b = V6 m outs c b :=
  fun b hb => V7_of m outs c b (fun hm => hb (by rw [List.mem_singleton.mp hm]; exact Finset.mem_image.mpr ⟨2, Finset.mem_univ _, rfl⟩))

set_option backward.isDefEq.respectTransparency.types false in
def reg2 (h : ∀ c, outs 7 main_v47 c = (pdats m outs 2 c).arrAt 2 cfg2.N) :
    Pipeline.RegionSeg (pcfgs (F := F)) adm (pdats m outs) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V6 m outs c b) c).loose
  hwaits := Pipeline.hwaits_of_owed_zero _ _ _ _ L lv 2 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec2 c (fun b => V6 m outs c b)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (fun b => V6 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (fun b => V6 m outs c b) (fun b => V7 m outs c b) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg3.lean ====
/-
  Region 3 of @main as a segment over the thread state "every unscoped buffer at the contents the item is entered
  from, the generator register at some state, nothing owed". It is entered by splitting the windows' arrays out of the
  unscoped buffers and left by putting them back, the output's array now at what the pipeline's write-backs leave
  (the unknown `outs 9 main_v62`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 3's exit each of its arrays holds what the pipeline leaves: an input is as entered, the output is the
    pinned unknown. -/
theorem hF3 (h : ∀ c, outs 9 main_v62 c = (pdats m outs 3 c).arrAt 2 cfg3.N) (c : Dev nD) :
    ∀ w : Fin cfg3.W, (pdats m outs 3 c).arrAt w cfg3.N = (fun b : Ref sig .tc => V9 m outs c b) (Pipeline.arrRef spec3 w)
    | ⟨0, _⟩ => ((pdats m outs 3 c).arrAt_in 0 rfl _).trans ((A_eq3 (fun c b => V8 m outs c b) c 0).trans (V9_of m outs c main_v60 (by decide)).symm)
    | ⟨1, _⟩ => ((pdats m outs 3 c).arrAt_in 1 rfl _).trans ((A_eq3 (fun c b => V8 m outs c b) c 1).trans (V9_of m outs c main_v61 (by decide)).symm)
    | ⟨2, _⟩ => (h c).symm.trans (Function.update_self (β := fun b : DevRef τ sig => b.ty.Contents (Elt F)) _ _ _).symm

/-- Every buffer that is no array of the region is as entered. -/
theorem hrest3 (c : Dev nD) : ∀ b : Ref sig .tc, b ∉ Finset.univ.image (Pipeline.arrRef spec3) → V9 m outs c b = V8 m outs c b :=
  fun b hb => V9_of m outs c b (fun hm => hb (by rw [List.mem_singleton.mp hm]; exact Finset.mem_image.mpr ⟨2, Finset.mem_univ _, rfl⟩))

set_option backward.isDefEq.respectTransparency.types false in
def reg3 (h : ∀ c, outs 9 main_v62 c = (pdats m outs 3 c).arrAt 2 cfg3.N) :
    Pipeline.RegionSeg (pcfgs (F := F)) adm (pdats m outs) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V8 m outs c b) c).loose
  hwaits := Pipeline.hwaits_of_owed_zero _ _ _ _ L lv 3 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec3 c (fun b => V8 m outs c b)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (fun b => V8 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (fun b => V8 m outs c b) (fun b => V9 m outs c b) ((pdats m outs 3 c).arrAt · cfg3.N) (hF3 m outs h c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg4.lean ====
/-
  Region 4 of @main as a segment over the thread state "every unscoped buffer at the contents the item is entered
  from, the generator register at some state, nothing owed". It is entered by splitting the windows' arrays out of the
  unscoped buffers and left by putting them back, the output's array now at what the pipeline's write-backs leave
  (the unknown `outs 10 main_v63`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 4's exit each of its arrays holds what the pipeline leaves: an input is as entered, the output is the
    pinned unknown. -/
theorem hF4 (h : ∀ c, outs 10 main_v63 c = (pdats m outs 4 c).arrAt 1 cfg4.N) (c : Dev nD) :
    ∀ w : Fin cfg4.W, (pdats m outs 4 c).arrAt w cfg4.N = (fun b : Ref sig .tc => V10 m outs c b) (Pipeline.arrRef spec4 w)
    | ⟨0, _⟩ => ((pdats m outs 4 c).arrAt_in 0 rfl _).trans ((A_eq4 (fun c b => V9 m outs c b) c 0).trans (V10_of m outs c main_v62 (by decide)).symm)
    | ⟨1, _⟩ => (h c).symm.trans (Function.update_self (β := fun b : DevRef τ sig => b.ty.Contents (Elt F)) _ _ _).symm

/-- Every buffer that is no array of the region is as entered. -/
theorem hrest4 (c : Dev nD) : ∀ b : Ref sig .tc, b ∉ Finset.univ.image (Pipeline.arrRef spec4) → V10 m outs c b = V9 m outs c b :=
  fun b hb => V10_of m outs c b (fun hm => hb (by rw [List.mem_singleton.mp hm]; exact Finset.mem_image.mpr ⟨1, Finset.mem_univ _, rfl⟩))

set_option backward.isDefEq.respectTransparency.types false in
def reg4 (h : ∀ c, outs 10 main_v63 c = (pdats m outs 4 c).arrAt 1 cfg4.N) :
    Pipeline.RegionSeg (pcfgs (F := F)) adm (pdats m outs) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => V9 m outs c b) c).loose
  hwaits := Pipeline.hwaits_of_owed_zero _ _ _ _ L lv 4 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec4 c (fun b => V9 m outs c b)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (fun b => V9 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = (dat4 (fun c b => V9 m outs c b) c).Φ 0 from rfl]
    iintro ⟨Hp, -, Hr⟩
    iapply (hin4 (fun c b => V9 m outs c b) c)
    isplitl [Hp]; · iexact Hp
    iexact Hr
  hout c := by
    rw [Pipeline.ownSems0_none, show (pdats m outs 4 c).Φ (Fin.last _) = (dat4 (fun c b => V9 m outs c b) c).Φ (Fin.last cfg4.N) from rfl]
    iintro H
    ihave H' := (hout4 (fun c b => V9 m outs c b) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (fun b => V9 m outs c b) (fun b => V10 m outs c b) ((pdats m outs 4 c).arrAt · cfg4.N) (hF4 m outs h c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg5.lean ====
/-
  Region 5 of @main as a segment over the thread state "every unscoped buffer at the contents the item is entered
  from, the generator register at some state, nothing owed". It is entered by splitting the windows' arrays out of the
  unscoped buffers and left by putting them back, the output's array now at what the pipeline's write-backs leave
  (the unknown `outs 12 main_v90`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 5's exit each of its arrays holds what the pipeline leaves: an input is as entered, the output is the
    pinned unknown. -/
theorem hF5 (h : ∀ c, outs 12 main_v90 c = (pdats m outs 5 c).arrAt 2 cfg5.N) (c : Dev nD) :
    ∀ w : Fin cfg5.W, (pdats m outs 5 c).arrAt w cfg5.N = (fun b : Ref sig .tc => V12 m outs c b) (Pipeline.arrRef spec5 w)
    | ⟨0, _⟩ => ((pdats m outs 5 c).arrAt_in 0 rfl _).trans ((A_eq5 (fun c b => V11 m outs c b) c 0).trans (V12_of m outs c main_v62 (by decide)).symm)
    | ⟨1, _⟩ => ((pdats m outs 5 c).arrAt_in 1 rfl _).trans ((A_eq5 (fun c b => V11 m outs c b) c 1).trans (V12_of m outs c main_v89 (by decide)).symm)
    | ⟨2, _⟩ => (h c).symm.trans (Function.update_self (β := fun b : DevRef τ sig => b.ty.Contents (Elt F)) _ _ _).symm

/-- Every buffer that is no array of the region is as entered. -/
theorem hrest5 (c : Dev nD) : ∀ b : Ref sig .tc, b ∉ Finset.univ.image (Pipeline.arrRef spec5) → V12 m outs c b = V11 m outs c b :=
  fun b hb => V12_of m outs c b (fun hm => hb (by rw [List.mem_singleton.mp hm]; exact Finset.mem_image.mpr ⟨2, Finset.mem_univ _, rfl⟩))

set_option backward.isDefEq.respectTransparency.types false in
def reg5 (h : ∀ c, outs 12 main_v90 c = (pdats m outs 5 c).arrAt 2 cfg5.N) :
    Pipeline.RegionSeg (pcfgs (F := F)) adm (pdats m outs) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => V11 m outs c b) c).loose
  hwaits := Pipeline.hwaits_of_owed_zero _ _ _ _ L lv 5 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (fun b => V11 m outs c b)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (fun b => V11 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (fun b => V11 m outs c b) (fun b => V12 m outs c b) ((pdats m outs 5 c).arrAt · cfg5.N) (hF5 m outs h c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg6.lean ====
/-
  Region 6 of @main as a segment over the thread state "every unscoped buffer at the contents the item is entered
  from, the generator register at some state, nothing owed". It is entered by splitting the windows' arrays out of the
  unscoped buffers and left by putting them back, the output's array now at what the pipeline's write-backs leave
  (the unknown `outs 13 main_v91`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 6's exit each of its arrays holds what the pipeline leaves: an input is as entered, the output is the
    pinned unknown. -/
theorem hF6 (h : ∀ c, outs 13 main_v91 c = (pdats m outs 6 c).arrAt 2 cfg6.N) (c : Dev nD) :
    ∀ w : Fin cfg6.W, (pdats m outs 6 c).arrAt w cfg6.N = (fun b : Ref sig .tc => V13 m outs c b) (Pipeline.arrRef spec6 w)
    | ⟨0, _⟩ => ((pdats m outs 6 c).arrAt_in 0 rfl _).trans ((A_eq6 (fun c b => V12 m outs c b) c 0).trans (V13_of m outs c main_v90 (by decide)).symm)
    | ⟨1, _⟩ => ((pdats m outs 6 c).arrAt_in 1 rfl _).trans ((A_eq6 (fun c b => V12 m outs c b) c 1).trans (V13_of m outs c main_arg10 (by decide)).symm)
    | ⟨2, _⟩ => (h c).symm.trans (Function.update_self (β := fun b : DevRef τ sig => b.ty.Contents (Elt F)) _ _ _).symm

/-- Every buffer that is no array of the region is as entered. -/
theorem hrest6 (c : Dev nD) : ∀ b : Ref sig .tc, b ∉ Finset.univ.image (Pipeline.arrRef spec6) → V13 m outs c b = V12 m outs c b :=
  fun b hb => V13_of m outs c b (fun hm => hb (by rw [List.mem_singleton.mp hm]; exact Finset.mem_image.mpr ⟨2, Finset.mem_univ _, rfl⟩))

set_option backward.isDefEq.respectTransparency.types false in
def reg6 (h : ∀ c, outs 13 main_v91 c = (pdats m outs 6 c).arrAt 2 cfg6.N) :
    Pipeline.RegionSeg (pcfgs (F := F)) adm (pdats m outs) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => V12 m outs c b) c).loose
  hwaits := Pipeline.hwaits_of_owed_zero _ _ _ _ L lv 6 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec6 c (fun b => V12 m outs c b)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (fun b => V12 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (fun b => V12 m outs c b) (fun b => V13 m outs c b) ((pdats m outs 6 c).arrAt · cfg6.N) (hF6 m outs h c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg7.lean ====
/-
  Region 7 of @main as a segment over the thread state "every unscoped buffer at the contents the item is entered
  from, the generator register at some state, nothing owed". It is entered by splitting the windows' arrays out of the
  unscoped buffers and left by putting them back, the output's array now at what the pipeline's write-backs leave
  (the unknown `outs 15 main_v106`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 7's exit each of its arrays holds what the pipeline leaves: an input is as entered, the output is the
    pinned unknown. -/
theorem hF7 (h : ∀ c, outs 15 main_v106 c = (pdats m outs 7 c).arrAt 2 cfg7.N) (c : Dev nD) :
    ∀ w : Fin cfg7.W, (pdats m outs 7 c).arrAt w cfg7.N = (fun b : Ref sig .tc => V15 m outs c b) (Pipeline.arrRef spec7 w)
    | ⟨0, _⟩ => ((pdats m outs 7 c).arrAt_in 0 rfl _).trans ((A_eq7 (fun c b => V14 m outs c b) c 0).trans (V15_of m outs c main_v104 (by decide)).symm)
    | ⟨1, _⟩ => ((pdats m outs 7 c).arrAt_in 1 rfl _).trans ((A_eq7 (fun c b => V14 m outs c b) c 1).trans (V15_of m outs c main_v105 (by decide)).symm)
    | ⟨2, _⟩ => (h c).symm.trans (Function.update_self (β := fun b : DevRef τ sig => b.ty.Contents (Elt F)) _ _ _).symm

/-- Every buffer that is no array of the region is as entered. -/
theorem hrest7 (c : Dev nD) : ∀ b : Ref sig .tc, b ∉ Finset.univ.image (Pipeline.arrRef spec7) → V15 m outs c b = V14 m outs c b :=
  fun b hb => V15_of m outs c b (fun hm => hb (by rw [List.mem_singleton.mp hm]; exact Finset.mem_image.mpr ⟨2, Finset.mem_univ _, rfl⟩))

set_option backward.isDefEq.respectTransparency.types false in
def reg7 (h : ∀ c, outs 15 main_v106 c = (pdats m outs 7 c).arrAt 2 cfg7.N) :
    Pipeline.RegionSeg (pcfgs (F := F)) adm (pdats m outs) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => V14 m outs c b) c).loose
  hwaits := Pipeline.hwaits_of_owed_zero _ _ _ _ L lv 7 fun _ _ => rfl
  pre c := iprop(StableHlo.held (c : Thread nD τ) (Pipeline.ucRefs τ sig) (V14 m outs c) ∗ R c)
  post c := iprop(StableHlo.held (c : Thread nD τ) (Pipeline.ucRefs τ sig) (V15 m outs c) ∗ R c)
  X c := iprop(∃ r, prngReg c r)
  Y c := iprop(∃ r, prngReg c r)
  Z c := Pipeline.unscopedRest (Ix := Unit) (Name := ℕ) (U := UR sig nD τ) (Lvl := ℕ) spec7 c (fun b => V14 m outs c b)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (fun b => V14 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (fun b => V14 m outs c b) (fun b => V15 m outs c b) ((pdats m outs 7 c).arrAt · cfg7.N) (hF7 m outs h c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg8.lean ====
/-
  Region 8 of @main as a segment over the thread state "every unscoped buffer at the contents the item is entered
  from, the generator register at some state, nothing owed". It is entered by splitting the windows' arrays out of the
  unscoped buffers and left by putting them back, the output's array now at what the pipeline's write-backs leave
  (the unknown `outs 16 main_v107`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 8's exit each of its arrays holds what the pipeline leaves: an input is as entered, the output is the
    pinned unknown. -/
theorem hF8 (h : ∀ c, outs 16 main_v107 c = (pdats m outs 8 c).arrAt 2 cfg8.N) (c : Dev nD) :
    ∀ w : Fin cfg8.W, (pdats m outs 8 c).arrAt w cfg8.N = (fun b : Ref sig .tc => V16 m outs c b) (Pipeline.arrRef spec8 w)
    | ⟨0, _⟩ => ((pdats m outs 8 c).arrAt_in 0 rfl _).trans ((A_eq8 (fun c b => V15 m outs c b) c 0).trans (V16_of m outs c main_v90 (by decide)).symm)
    | ⟨1, _⟩ => ((pdats m outs 8 c).arrAt_in 1 rfl _).trans ((A_eq8 (fun c b => V15 m outs c b) c 1).trans (V16_of m outs c main_arg12 (by decide)).symm)
    | ⟨2, _⟩ => (h c).symm.trans (Function.update_self (β := fun b : DevRef τ sig => b.ty.Contents (Elt F)) _ _ _).symm

/-- Every buffer that is no array of the region is as entered. -/
theorem hrest8 (c : Dev nD) : ∀ b : Ref sig .tc, b ∉ Finset.univ.image (Pipeline.arrRef spec8) → V16 m outs c b = V15 m outs c b :=
  fun b hb => V16_of m outs c b (fun hm => hb (by rw [List.mem_singleton.mp hm]; exact Finset.mem_image.mpr ⟨2, Finset.mem_univ _, rfl⟩))

set_option backward.isDefEq.respectTransparency.types false in
def reg8 (h : ∀ c, outs 16 main_v107 c = (pdats m outs 8 c).arrAt 2 cfg8.N) :
    Pipeline.RegionSeg (pcfgs (F := F)) adm (pdats m outs) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => V15 m outs c b) c).loose
  hwaits := Pipeline.hwaits_of_owed_zero _ _ _ _ L lv 8 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec8 c (fun b => V15 m outs c b)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (fun b => V15 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (fun b => V15 m outs c b) (fun b => V16 m outs c b) ((pdats m outs 8 c).arrAt · cfg8.N) (hF8 m outs h c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Seg9.lean ====
/-
  Region 9 of @main as a segment over the thread state "every unscoped buffer at the contents the item is entered
  from, the generator register at some state, nothing owed". It is entered by splitting the windows' arrays out of the
  unscoped buffers and left by putting them back, the output's array now at what the pipeline's write-backs leave
  (the unknown `outs 18 main_v122`, which the hypothesis pins to exactly that); every other buffer is as entered.
-/
import proofs.«145243_j28355374088213_1_alg».proof.Proof.KI_Pdats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 2000000 in
/-- At region 9's exit each of its arrays holds what the pipeline leaves: an input is as entered, the output is the
    pinned unknown. -/
theorem hF9 (h : ∀ c, outs 18 main_v122 c = (pdats m outs 9 c).arrAt 2 cfg9.N) (c : Dev nD) :
    ∀ w : Fin cfg9.W, (pdats m outs 9 c).arrAt w cfg9.N = (fun b : Ref sig .tc => V18 m outs c b) (Pipeline.arrRef spec9 w)
    | ⟨0, _⟩ => ((pdats m outs 9 c).arrAt_in 0 rfl _).trans ((A_eq9 (fun c b => V17 m outs c b) c 0).trans (V18_of m outs c main_v120 (by decide)).symm)
    | ⟨1, _⟩ => ((pdats m outs 9 c).arrAt_in 1 rfl _).trans ((A_eq9 (fun c b => V17 m outs c b) c 1).trans (V18_of m outs c main_v121 (by decide)).symm)
    | ⟨2, _⟩ => (h c).symm.trans (Function.update_self (β := fun b : DevRef τ sig => b.ty.Contents (Elt F)) _ _ _).symm

/-- Every buffer that is no array of the region is as entered. -/
theorem hrest9 (c : Dev nD) : ∀ b : Ref sig .tc, b ∉ Finset.univ.image (Pipeline.arrRef spec9) → V18 m outs c b = V17 m outs c b :=
  fun b hb => V18_of m outs c b (fun hm => hb (by rw [List.mem_singleton.mp hm]; exact Finset.mem_image.mpr ⟨2, Finset.mem_univ _, rfl⟩))

set_option backward.isDefEq.respectTransparency.types false in
def reg9 (h : ∀ c, outs 18 main_v122 c = (pdats m outs 9 c).arrAt 2 cfg9.N) :
    Pipeline.RegionSeg (pcfgs (F := F)) adm (pdats m outs) () defs₀ Variants.none L lv 9 where
  win := launch9.win.to₀
  block_pos := launch9.block_pos
  stage_whole := launch9.stage_whole
  K := PEmpty
  osem k := k.elim
  ho := Pipeline.OwnSemFacts.none _
  hbody c := (body_obligation9 (fun c b => V17 m outs c b) c).loose
  hwaits := Pipeline.hwaits_of_owed_zero _ _ _ _ L lv 9 fun _ _ => rfl
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec9 c (fun b => V17 m outs c b)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (fun b => V17 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (fun b => V17 m outs c b) (fun b => V18 m outs c b) ((pdats m outs 9 c).arrAt · cfg9.N) (hF9 m outs h c) (hrest9 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI_Frame.lean ====
/-
  THE FRAME of the program: from any memory with zero counters every weakly fair execution of @main terminates,
  nothing faulting, and every argument array ends as launched. The host side — the segment list, every host stretch,
  the chaining, the launch's first state and the read-back of the arguments — is the generated conditional frame; given
  to it here are the ten regions' segment records at the constructed contents, and what rides along between the items.
-/
import proofs.«145243_j28355374088213_1_alg».proof.Proof.KI_Outs
import proofs.«145243_j28355374088213_1_alg».proof.Proof.KI_Seg0
import proofs.«145243_j28355374088213_1_alg».proof.Proof.KI_Seg1
import proofs.«145243_j28355374088213_1_alg».proof.Proof.KI_Seg2
import proofs.«145243_j28355374088213_1_alg».proof.Proof.KI_Seg3
import proofs.«145243_j28355374088213_1_alg».proof.Proof.KI_Seg4
import proofs.«145243_j28355374088213_1_alg».proof.Proof.KI_Seg5
import proofs.«145243_j28355374088213_1_alg».proof.Proof.KI_Seg6
import proofs.«145243_j28355374088213_1_alg».proof.Proof.KI_Seg7
import proofs.«145243_j28355374088213_1_alg».proof.Proof.KI_Seg8
import proofs.«145243_j28355374088213_1_alg».proof.Proof.KI_Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m (Ix := Unit) (U := UR sig nD τ) (Lvl := ℕ) emb₁ () Variants.none L lv (fun _ _ => rfl) ρ (outs m) (pdats m (outs m))
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m (outs m) (ok0 m)) (fun _ => .rfl) (fun _ => .rfl)
    (reg1 m (outs m) (ok1 m)) (fun _ => .rfl) (fun _ => .rfl)
    (reg2 m (outs m) (ok2 m)) (fun _ => .rfl) (fun _ => .rfl)
    (reg3 m (outs m) (ok3 m)) (fun _ => .rfl) (fun _ => .rfl)
    (reg4 m (outs m) (ok4 m)) (fun _ => .rfl) (fun _ => .rfl)
    (reg5 m (outs m) (ok5 m)) (fun _ => .rfl) (fun _ => .rfl)
    (reg6 m (outs m) (ok6 m)) (fun _ => .rfl) (fun _ => .rfl)
    (reg7 m (outs m) (ok7 m)) (fun _ => .rfl) (fun _ => .rfl)
    (reg8 m (outs m) (ok8 m)) (fun _ => .rfl) (fun _ => .rfl)
    (reg9 m (outs m) (ok9 m)) (fun _ => .rfl) (fun _ => .rfl)

end Cert.KernelIdeal.Hand

end
-- ==== Proof.KI_RunCond.lean ====
/-
  The run of @main WITH ITS RESULTS: the conditional frame's statement strengthened to say also what the two result
  arrays end holding — their contents in the last valuation of the chain (`V18`), i.e. what regions 7 and 9 left.
  Same hypotheses as the conditional frame (one segment record per region pinned to the thread states between the
  items); the proof is that theorem's, the final read-back taking the two result buffers beside the arguments.
-/
import proofs.«145243_j28355374088213_1_alg».proof.Proof.Gen.KernelIdeal.Regions

set_option maxRecDepth 1364

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V17 m outs c) ∗ E 9 c) ⊢ R9.pre c)
    (hpost9 : ∀ c : Dev nD, R9.post c ⊢ iprop(StableHlo.held (c : Thread nD τ) (Pipeline.ucRefs τ sig) (V18 m outs c) ∗ E 10 c)) :
    θ_run defs (onTc (τ := τ) (main (F := F))) ⟨m, fun _ => 0, ρ⟩ (fun r => ∀ c : Dev nD,
      r.2.mem ((c.tc : Thread nD τ).loc main_v106) = V18 m outs c main_v106
      ∧ r.2.mem ((c.tc : Thread nD τ).loc main_v122) = V18 m outs c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, hpre0 c, hpost0 c, hpre1 c, (hpost1 c).trans (hpre2 c), hpost2 c, hpre3 c, (hpost3 c).trans (hpre4 c), hpost4 c, hpre5 c, (hpost5 c).trans (hpre6 c), hpost6 c, hpre7 c, (hpost7 c).trans (hpre8 c), hpost8 c, hpre9 c, (hpost9 c).trans (sep_mono .rfl (hE10 c))⟩)
    (hinit := ?_) (QY := fun c s => s.mem ((c.tc : Thread nD τ).loc main_v106) = V18 m outs c main_v106 ∧ s.mem ((c.tc : Thread nD τ).loc main_v122) = V18 m outs c main_v122 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v106) (Finset.mem_filter.mpr ⟨StableHlo.devRef_mem_tcRefs main_v106, by decide⟩),
        h (Proc.devRef .tc main_v122) (Finset.mem_filter.mpr ⟨StableHlo.devRef_mem_tcRefs main_v122, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c),
        (h (Proc.devRef .tc main_arg9) (Finset.mem_filter.mpr ⟨StableHlo.devRef_mem_tcRefs main_arg9, by decide⟩)).trans (V18_main_arg9 m outs c),
        (h (Proc.devRef .tc main_arg10) (Finset.mem_filter.mpr ⟨StableHlo.devRef_mem_tcRefs main_arg10, by decide⟩)).trans (V18_main_arg10 m outs c),
        (h (Proc.devRef .tc main_arg11) (Finset.mem_filter.mpr ⟨StableHlo.devRef_mem_tcRefs main_arg11, by decide⟩)).trans (V18_main_arg11 m outs c),
        (h (Proc.devRef .tc main_arg12) (Finset.mem_filter.mpr ⟨StableHlo.devRef_mem_tcRefs main_arg12, by decide⟩)).trans (V18_main_arg12 m outs c),
        (h (Proc.devRef .tc main_arg13) (Finset.mem_filter.mpr ⟨StableHlo.devRef_mem_tcRefs main_arg13, by decide⟩)).trans (V18_main_arg13 m outs c)⟩
    · iexact HSI

end Cert.KernelIdeal.Hand

end
-- ==== Proof.KI_Run.lean ====
/-
  THE RUN WITH ITS RESULTS: every weakly fair execution of @main terminates, nothing faulting, the two result arrays
  end at their contents in the chain's last valuation — what regions 7 and 9 left — and every argument ends as launched.
  The same ten segment records as the frame's, given to the strengthened conditional run.
-/
import proofs.«145243_j28355374088213_1_alg».proof.Proof.KI_Outs
import proofs.«145243_j28355374088213_1_alg».proof.Proof.KI_RunCond
import proofs.«145243_j28355374088213_1_alg».proof.Proof.KI_Seg0
import proofs.«145243_j28355374088213_1_alg».proof.Proof.KI_Seg1
import proofs.«145243_j28355374088213_1_alg».proof.Proof.KI_Seg2
import proofs.«145243_j28355374088213_1_alg».proof.Proof.KI_Seg3
import proofs.«145243_j28355374088213_1_alg».proof.Proof.KI_Seg4
import proofs.«145243_j28355374088213_1_alg».proof.Proof.KI_Seg5
import proofs.«145243_j28355374088213_1_alg».proof.Proof.KI_Seg6
import proofs.«145243_j28355374088213_1_alg».proof.Proof.KI_Seg7
import proofs.«145243_j28355374088213_1_alg».proof.Proof.KI_Seg8
import proofs.«145243_j28355374088213_1_alg».proof.Proof.KI_Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_vals : θ_run defs (onTc (τ := τ) (main (F := F))) ⟨m, fun _ => 0, ρ⟩ (fun r => ∀ c : Dev nD,
      r.2.mem ((c.tc : Thread nD τ).loc main_v106) = V18 m (outs m) c main_v106
      ∧ r.2.mem ((c.tc : Thread nD τ).loc main_v122) = V18 m (outs m) c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_cond m (Ix := Unit) (U := UR sig nD τ) (Lvl := ℕ) emb₁ () Variants.none L lv (fun _ _ => rfl) ρ (outs m) (pdats m (outs m))
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m (outs m) (ok0 m)) (fun _ => .rfl) (fun _ => .rfl)
    (reg1 m (outs m) (ok1 m)) (fun _ => .rfl) (fun _ => .rfl)
    (reg2 m (outs m) (ok2 m)) (fun _ => .rfl) (fun _ => .rfl)
    (reg3 m (outs m) (ok3 m)) (fun _ => .rfl) (fun _ => .rfl)
    (reg4 m (outs m) (ok4 m)) (fun _ => .rfl) (fun _ => .rfl)
    (reg5 m (outs m) (ok5 m)) (fun _ => .rfl) (fun _ => .rfl)
    (reg6 m (outs m) (ok6 m)) (fun _ => .rfl) (fun _ => .rfl)
    (reg7 m (outs m) (ok7 m)) (fun _ => .rfl) (fun _ => .rfl)
    (reg8 m (outs m) (ok8 m)) (fun _ => .rfl) (fun _ => .rfl)
    (reg9 m (outs m) (ok9 m)) (fun _ => .rfl) (fun _ => .rfl)

end Cert.KernelIdeal.Hand

end
-- ==== Proof.KI_Keep.lean ====
/-
  Reading the chain of valuations: an item leaves every buffer it does not write as it found it, and each region's
  output array holds what the region left.
-/
import proofs.«145243_j28355374088213_1_alg».proof.Proof.KI_Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem U4_of (c : Dev nD) (r : Ref sig .tc) (h : r ∉ ([main_v31] : List (Ref sig .tc))) : U4 m c r = U3 m c r := by
  have e := V4_of m (outs m) c r h
  rw [V4_eq] at e
  exact e
theorem U5_of (c : Dev nD) (r : Ref sig .tc) (h : r ∉ hostOps1_W) : U5 m c r = U4 m c r := by
  have e := V5_of m (outs m) c r h
  rw [V5_eq, V4_eq] at e
  exact e
theorem U6_of (c : Dev nD) (r : Ref sig .tc) (h : r ∉ ([main_v46] : List (Ref sig .tc))) : U6 m c r = U5 m c r := by
  have e := V6_of m (outs m) c r h
  rw [V6_eq, V5_eq] at e
  exact e
theorem U7_of (c : Dev nD) (r : Ref sig .tc) (h : r ∉ ([main_v47] : List (Ref sig .tc))) : U7 m c r = U6 m c r := by
  have e := V7_of m (outs m) c r h
  rw [V7_eq, V6_eq] at e
  exact e
theorem U8_of (c : Dev nD) (r : Ref sig .tc) (h : r ∉ hostOps3_W) : U8 m c r = U7 m c r := by
  have e := V8_of m (outs m) c r h
  rw [V8_eq, V7_eq] at e
  exact e
theorem U9_of (c : Dev nD) (r : Ref sig .tc) (h : r ∉ ([main_v62] : List (Ref sig .tc))) : U9 m c r = U8 m c r := by
  have e := V9_of m (outs m) c r h
  rw [V9_eq, V8_eq] at e
  exact e
theorem U10_of (c : Dev nD) (r : Ref sig .tc) (h : r ∉ ([main_v63] : List (Ref sig .tc))) : U10 m c r = U9 m c r := by
  have e := V10_of m (outs m) c r h
  rw [V10_eq, V9_eq] at e
  exact e
theorem U11_of (c : Dev nD) (r : Ref sig .tc) (h : r ∉ hostOps5_W) : U11 m c r = U10 m c r := by
  have e := V11_of m (outs m) c r h
  rw [V11_eq, V10_eq] at e
  exact e
theorem U12_of (c : Dev nD) (r : Ref sig .tc) (h : r ∉ ([main_v90] : List (Ref sig .tc))) : U12 m c r = U11 m c r := by
  have e := V12_of m (outs m) c r h
  rw [V12_eq, V11_eq] at e
  exact e
theorem U13_of (c : Dev nD) (r : Ref sig .tc) (h : r ∉ ([main_v91] : List (Ref sig .tc))) : U13 m c r = U12 m c r := by
  have e := V13_of m (outs m) c r h
  rw [V13_eq, V12_eq] at e
  exact e
theorem U14_of (c : Dev nD) (r : Ref sig .tc) (h : r ∉ hostOps7_W) : U14 m c r = U13 m c r := by
  have e := V14_of m (outs m) c r h
  rw [V14_eq, V13_eq] at e
  exact e
theorem U15_of (c : Dev nD) (r : Ref sig .tc) (h : r ∉ ([main_v106] : List (Ref sig .tc))) : U15 m c r = U14 m c r := by
  have e := V15_of m (outs m) c r h
  rw [V15_eq, V14_eq] at e
  exact e
theorem U16_of (c : Dev nD) (r : Ref sig .tc) (h : r ∉ ([main_v107] : List (Ref sig .tc))) : U16 m c r = U15 m c r := by
  have e := V16_of m (outs m) c r h
  rw [V16_eq, V15_eq] at e
  exact e
theorem U17_of (c : Dev nD) (r : Ref sig .tc) (h : r ∉ hostOps9_W) : U17 m c r = U16 m c r := by
  have e := V17_of m (outs m) c r h
  rw [V17_eq, V16_eq] at e
  exact e
theorem U18_of (c : Dev nD) (r : Ref sig .tc) (h : r ∉ ([main_v122] : List (Ref sig .tc))) : U18 m c r = U17 m c r := by
  have e := V18_of m (outs m) c r h
  rw [V18_eq, V17_eq] at e
  exact e
theorem U4_out (c : Dev nD) : U4 m c main_v31 = O4 m c := by
  unfold U4; rw [Function.update_self]
theorem U6_out (c : Dev nD) : U6 m c main_v46 = O6 m c := by
  unfold U6; rw [Function.update_self]
theorem U7_out (c : Dev nD) : U7 m c main_v47 = O7 m c := by
  unfold U7; rw [Function.update_self]
theorem U9_out (c : Dev nD) : U9 m c main_v62 = O9 m c := by
  unfold U9; rw [Function.update_self]
theorem U10_out (c : Dev nD) : U10 m c main_v63 = O10 m c := by
  unfold U10; rw [Function.update_self]
theorem U12_out (c : Dev nD) : U12 m c main_v90 = O12 m c := by
  unfold U12; rw [Function.update_self]
theorem U13_out (c : Dev nD) : U13 m c main_v91 = O13 m c := by
  unfold U13; rw [Function.update_self]
theorem U15_out (c : Dev nD) : U15 m c main_v106 = O15 m c := by
  unfold U15; rw [Function.update_self]
theorem U16_out (c : Dev nD) : U16 m c main_v107 = O16 m c := by
  unfold U16; rw [Function.update_self]
theorem U18_out (c : Dev nD) : U18 m c main_v122 = O18 m c := by
  unfold U18; rw [Function.update_self]

end Cert.KernelIdeal.Hand

end
-- ==== Proof.KI_Stretch.lean ====
/-
  The host stretches of the kernel's @main between its regions, read as values: each result a stretch leaves is the
  same composition of host operations the reference applies at that place (the edge gather, the scaling by the
  normalisation, the scatter-add; the single LSTM step), so once the stretch's inputs are the reference's stages its
  outputs are the reference's later stages. Nothing here opens a gather or a scatter: both sides are one term.
-/
import proofs.«145243_j28355374088213_1_alg».proof.Proof.Gen.KernelIdeal.Launch
import proofs.«145243_j28355374088213_1_alg».proof.Proof.RefReadP
import Idealize.ShloMosaic.Lib.StableHlo.Run

noncomputable section

namespace Cert.KernelIdeal.HandValue

open Cert.KernelIdeal Cert.KernelIdeal.Gen
open Cert.ReferenceIdeal.ReadP
open Idealize.ShloMosaic Idealize.ShloMosaic.TcCoe Idealize.SL.Sem Idealize.ShloMosaic.StableHlo

variable {F : FTy → Type} [FloatOps F] [Named F]

/-! ## The stretches before the first region: the edge lists with self loops, and the normalisation -/

set_option maxHeartbeats 4000000 in
theorem pre_v3 (W : Valuation τ sig (Elt F)) :
    ((after hostOps0_2 (after hostOps0_1 (after hostOps0 W))) main_v3 : (⟨S1700000, .i32⟩ : BufTy).Contents (Elt F)) = val_main_v3 (F := F) (W main_arg1) := by
  after_results_simp
  rfl

set_option maxHeartbeats 4000000 in
theorem pre_v6 (W : Valuation τ sig (Elt F)) :
    ((after hostOps0_2 (after hostOps0_1 (after hostOps0 W))) main_v6 : (⟨S1700000, .i32⟩ : BufTy).Contents (Elt F)) = val_main_v6 (F := F) (W main_arg1) := by
  after_results_simp
  rfl

set_option maxHeartbeats 4000000 in
theorem pre_v30 (W : Valuation τ sig (Elt F)) :
    ((after hostOps0_2 (after hostOps0_1 (after hostOps0 W))) main_v30 : (⟨S1700000, .f32⟩ : BufTy).Contents (Elt F)) = val_main_v30 (F := F) (W main_arg1) := by
  after_results_simp
  rfl

/-! ## The aggregation stretches: gather along the sources, scale, scatter-add into the destinations -/

variable (W : Valuation τ sig (Elt F))
variable (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
  (x4 : (⟨S128x128, .f32⟩ : BufTy).Contents (Elt F)) (x5 : (⟨S128, .f32⟩ : BufTy).Contents (Elt F)) (x6 : (⟨S512x128, .f32⟩ : BufTy).Contents (Elt F)) (x8 x9 : (⟨S512, .f32⟩ : BufTy).Contents (Elt F))
  (x10 : (⟨S128x64, .f32⟩ : BufTy).Contents (Elt F)) (x11 : (⟨S64, .f32⟩ : BufTy).Contents (Elt F)) (x12 : (⟨S128x64, .f32⟩ : BufTy).Contents (Elt F)) (x13 : (⟨S64, .f32⟩ : BufTy).Contents (Elt F))

set_option maxHeartbeats 4000000 in
theorem st1_v44 (h : (W main_v31 : (⟨S100000x128, .f32⟩ : BufTy).Contents (Elt F)) = val_main_v31 (F := F) x0 x2)
    (h3 : (W main_v3 : (⟨S1700000, .i32⟩ : BufTy).Contents (Elt F)) = val_main_v3 (F := F) x1) (h6 : (W main_v6 : (⟨S1700000, .i32⟩ : BufTy).Contents (Elt F)) = val_main_v6 (F := F) x1)
    (h30 : (W main_v30 : (⟨S1700000, .f32⟩ : BufTy).Contents (Elt F)) = val_main_v30 (F := F) x1) :
    ((after hostOps1 W) main_v44 : (⟨S100000x128, .f32⟩ : BufTy).Contents (Elt F)) = val_main_v44 (F := F) x0 x1 x2 := by
  after_results_simp
  rw [h, h3, h6, h30]
  rfl

theorem st1_v45 : ((after hostOps1 W) main_v45 : (⟨S1x128, .f32⟩ : BufTy).Contents (Elt F)) = shapeCast S1x128 (W main_arg3) shapeCasts_S128_S1x128 := by
  after_results_simp
  rfl

set_option maxHeartbeats 4000000 in
theorem st3_v60 (h : (W main_v47 : (⟨S100000x128, .f32⟩ : BufTy).Contents (Elt F)) = val_main_v49 (F := F) x0 x1 x2 x3 x4)
    (h3 : (W main_v3 : (⟨S1700000, .i32⟩ : BufTy).Contents (Elt F)) = val_main_v3 (F := F) x1) (h6 : (W main_v6 : (⟨S1700000, .i32⟩ : BufTy).Contents (Elt F)) = val_main_v6 (F := F) x1)
    (h30 : (W main_v30 : (⟨S1700000, .f32⟩ : BufTy).Contents (Elt F)) = val_main_v30 (F := F) x1) :
    ((after hostOps3 W) main_v60 : (⟨S100000x128, .f32⟩ : BufTy).Contents (Elt F)) = val_main_v62 (F := F) x0 x1 x2 x3 x4 := by
  after_results_simp
  rw [h, h3, h6, h30]
  rfl

theorem st3_v61 : ((after hostOps3 W) main_v61 : (⟨S1x128, .f32⟩ : BufTy).Contents (Elt F)) = shapeCast S1x128 (W main_arg5) shapeCasts_S128_S1x128 := by
  after_results_simp
  rfl

set_option maxHeartbeats 4000000 in
theorem st7_v104 (h : (W main_v91 : (⟨S100000x64, .f32⟩ : BufTy).Contents (Elt F)) = val_main_v99 (F := F) x0 x1 x2 x3 x4 x5 x6 x8 x9 x10)
    (h3 : (W main_v3 : (⟨S1700000, .i32⟩ : BufTy).Contents (Elt F)) = val_main_v3 (F := F) x1) (h6 : (W main_v6 : (⟨S1700000, .i32⟩ : BufTy).Contents (Elt F)) = val_main_v6 (F := F) x1)
    (h30 : (W main_v30 : (⟨S1700000, .f32⟩ : BufTy).Contents (Elt F)) = val_main_v30 (F := F) x1) :
    ((after hostOps7 W) main_v104 : (⟨S100000x64, .f32⟩ : BufTy).Contents (Elt F)) = val_main_v112 (F := F) x0 x1 x2 x3 x4 x5 x6 x8 x9 x10 := by
  after_results_simp
  rw [h, h3, h6, h30]
  rfl

theorem st7_v105 : ((after hostOps7 W) main_v105 : (⟨S1x64, .f32⟩ : BufTy).Contents (Elt F)) = shapeCast S1x64 (W main_arg11) shapeCasts_S64_S1x64 := by
  after_results_simp
  rfl

set_option maxHeartbeats 4000000 in
theorem st9_v120 (h : (W main_v107 : (⟨S100000x64, .f32⟩ : BufTy).Contents (Elt F)) = val_main_v116 (F := F) x0 x1 x2 x3 x4 x5 x6 x8 x9 x12)
    (h3 : (W main_v3 : (⟨S1700000, .i32⟩ : BufTy).Contents (Elt F)) = val_main_v3 (F := F) x1) (h6 : (W main_v6 : (⟨S1700000, .i32⟩ : BufTy).Contents (Elt F)) = val_main_v6 (F := F) x1)
    (h30 : (W main_v30 : (⟨S1700000, .f32⟩ : BufTy).Contents (Elt F)) = val_main_v30 (F := F) x1) :
    ((after hostOps9 W) main_v120 : (⟨S100000x64, .f32⟩ : BufTy).Contents (Elt F)) = val_main_v129 (F := F) x0 x1 x2 x3 x4 x5 x6 x8 x9 x12 := by
  after_results_simp
  rw [h, h3, h6, h30]
  rfl

theorem st9_v121 : ((after hostOps9 W) main_v121 : (⟨S1x64, .f32⟩ : BufTy).Contents (Elt F)) = shapeCast S1x64 (W main_arg13) shapeCasts_S64_S1x64 := by
  after_results_simp
  rfl

/-! ## The LSTM stretch: one step from a zero state, on the pooled row -/

set_option maxHeartbeats 4000000 in
theorem st5_v89 (h : (W main_v63 : (⟨S1x128, .f32⟩ : BufTy).Contents (Elt F)) = val_main_v70 (F := F) x0 x1 x2 x3 x4 x5)
    (h6 : (W main_arg6 : (⟨S512x128, .f32⟩ : BufTy).Contents (Elt F)) = x6) (h8 : (W main_arg8 : (⟨S512, .f32⟩ : BufTy).Contents (Elt F)) = x8) (h9 : (W main_arg9 : (⟨S512, .f32⟩ : BufTy).Contents (Elt F)) = x9) :
    ((after hostOps5 W) main_v89 : (⟨S1x128, .f32⟩ : BufTy).Contents (Elt F)) = val_main_v96 (F := F) x0 x1 x2 x3 x4 x5 x6 x8 x9 := by
  after_results_simp
  rw [h, h6, h8, h9]
  rfl

end Cert.KernelIdeal.HandValue

end
-- ==== Proof.KI_Consts.lean ====
/-
  The float constants the two programs spell, as the extended reals their patterns denote at Ideal: +0.0 is 0 and the
  reference's divisor 100000.0 is the real 100000 (sign 0, exponent 2^16, significand 1 + 4411392 / 2^23).
-/
import Idealize.ShloMosaic.PureOps.Ideal

noncomputable section

namespace Cert.KernelIdeal.HandValue.Consts

open Idealize.ShloMosaic

theorem ofBits_zero : Ideal.ofBits .f32 0x00000000#32 = 0 := by
  simp [Ideal.ofBits, Ideal.ieee]

theorem ofBits_100000 : Ideal.ofBits .f32 0x47C35000#32 = ((100000 : ℝ) : EReal) := by
  simp [Ideal.ofBits, Ideal.ieee, -EReal.coe_mul]; norm_num

end Cert.KernelIdeal.HandValue.Consts

end
-- ==== Proof.KI_ValLib.lean ====
/-
  Shared lemmas for the values of the four matmul regions: the zero offsets of a whole-block rectangle, and the
  block-level matmul into a zero accumulator read at an index (row r, column j) as the sum over the contraction
  axis of the products of row r of the left block with column j of the right block. At the ideal values the
  truncation to bf16 of both operands and a shape cast of a block to its own shape are the identity.
-/
import proofs.«145243_j28355374088213_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- The two zero offsets of a whole-block rectangle, as the constant function. -/
theorem hz : (![0, 0] : Fin 2 → Nat) = fun _ => 0 := funext fun a => by fin_cases a <;> rfl

/-- Row coordinate of the left operand's index: the result's row. -/
theorem lhs128_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Column coordinate of the left operand's index: the contraction coordinate. -/
theorem lhs128_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- Row coordinate of the right operand's index: the contraction coordinate. -/
theorem rhs128_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Column coordinate of the right operand's index: the result's column. -/
theorem rhs128_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The [10000,128] by [128,128] block matmul into the zero accumulator, at (r, j): the sum over k of left (r, k) times right (k, j). -/
theorem matmul128_apply (x0 : FVec Ideal S10000x128 .bf16) (x1 : FVec Ideal S128x128 .bf16) (r : Fin 10000) (j : Fin 128) :
    matmul dot_S10000x128_S128x128_S10000x128_1_0_0_1_n_n none x0 x1 (constant S10000x128 .f32 0x00000000#32) (ix2 r j)
      = ∑ k : Fin 128, x0 (ix2 r k) * x1 (ix2 k j) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-- Row coordinate of the left operand's index: the result's row. -/
theorem lhs64_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- Column coordinate of the left operand's index: the contraction coordinate. -/
theorem lhs64_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- Row coordinate of the right operand's index: the contraction coordinate. -/
theorem rhs64_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- Column coordinate of the right operand's index: the result's column. -/
theorem rhs64_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The [10000,128] by [128,64] block matmul into the zero accumulator, at (r, j): the sum over k of left (r, k) times right (k, j). -/
theorem matmul64_apply (x0 : FVec Ideal S10000x128 .bf16) (x1 : FVec Ideal S128x64 .bf16) (r : Fin 10000) (j : Fin 64) :
    matmul dot_S10000x128_S128x64_S10000x64_1_0_0_1_n_n none x0 x1 (constant S10000x64 .f32 0x00000000#32) (ix2 r j)
      = ∑ k : Fin 128, x0 (ix2 r k) * x1 (ix2 k j) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r j) ((contrEquiv1 dot_S10000x128_S128x64_S10000x64_1_0_0_1_n_n 128 rfl rfl).symm k) = ix2 r k := funext fun a => Fin.ext (by
    match a with
    | ⟨0, _⟩ => exact lhs64_0 _ _
    | ⟨1, _⟩ => exact (lhs64_1 _ _).trans hk)
  have er : dot_S10000x128_S128x64_S10000x64_1_0_0_1_n_n.rhsIdx (ix2 r j) ((contrEquiv1 dot_S10000x128_S128x64_S10000x64_1_0_0_1_n_n 128 rfl rfl).symm k) = ix2 k j := funext fun a => Fin.ext (by
    match a with
    | ⟨0, _⟩ => exact (rhs64_0 _ _).trans hk
    | ⟨1, _⟩ => exact rhs64_1 _ _)
  rw [el, er]

/-- Region 0's payload at (r, j). -/
theorem pay0_apply (x0 : Vec Ideal S10000x128 .f32) (x1 : Vec Ideal S128x128 .f32) (r : Fin 10000) (j : Fin 128) :
    k0_pay1 (F := Ideal) x0 x1 (ix2 r j) = ∑ k : Fin 128, x0 (ix2 r k) * x1 (ix2 k j) := by
  unfold k0_pay1
  exact (matmul128_apply _ _ r j).trans (Finset.sum_congr rfl fun k _ => by rw [truncf_apply, truncf_apply])

/-- Region 2's payload at (r, j). -/
theorem pay2_apply (x0 : Vec Ideal S10000x128 .f32) (x1 : Vec Ideal S128x128 .f32) (r : Fin 10000) (j : Fin 128) :
    k2_pay1 (F := Ideal) x0 x1 (ix2 r j) = ∑ k : Fin 128, x0 (ix2 r k) * x1 (ix2 k j) := by
  unfold k2_pay1
  exact (matmul128_apply _ _ r j).trans (Finset.sum_congr rfl fun k _ => by rw [truncf_apply, truncf_apply, shapeCast_self])

/-- Region 6's payload at (r, j). -/
theorem pay6_apply (x0 : Vec Ideal S10000x128 .f32) (x1 : Vec Ideal S128x64 .f32) (r : Fin 10000) (j : Fin 64) :
    k6_pay1 (F := Ideal) x0 x1 (ix2 r j) = ∑ k : Fin 128, x0 (ix2 r k) * x1 (ix2 k j) := by
  unfold k6_pay1
  exact (matmul64_apply _ _ r j).trans (Finset.sum_congr rfl fun k _ => by rw [truncf_apply, truncf_apply, shapeCast_self])

/-- Region 8's payload at (r, j). -/
theorem pay8_apply (x0 : Vec Ideal S10000x128 .f32) (x1 : Vec Ideal S128x64 .f32) (r : Fin 10000) (j : Fin 64) :
    k8_pay1 (F := Ideal) x0 x1 (ix2 r j) = ∑ k : Fin 128, x0 (ix2 r k) * x1 (ix2 k j) := by
  unfold k8_pay1
  exact (matmul64_apply _ _ r j).trans (Finset.sum_congr rfl fun k _ => by rw [truncf_apply, truncf_apply, shapeCast_self])

end Cert.KernelIdeal.HandValue

end
-- ==== Proof.KI_Val0.lean ====
/-
  The value of region 0: the output array after the region, index by index, at the ideal values, as a function of
  the arrays the region is entered with. The grid's ten points each take ten thousand rows of the left array and the
  whole right array, multiply them, and write the product's ten thousand rows back: point t covers rows 10000 t to
  10000 t + 9999, so the array ends holding, at row r and column j, the sum over k of left (r, k) times right (k, j).
-/
import proofs.«145243_j28355374088213_1_alg».proof.Proof.KI_Reg0
import proofs.«145243_j28355374088213_1_alg».proof.Proof.KI_ValLib
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The matrix product of a [100000,128] array with a [128,128] array, index by index. -/
def prod0 (a0 : Vec Ideal S100000x128 .f32) (a1 : Vec Ideal S128x128 .f32) : Vec Ideal S100000x128 .f32 :=
  fun i => ∑ k : Fin 128, a0 (ix2 ⟨(i 0).val, idx2_lt0 i⟩ k) * a1 (ix2 k ⟨(i 1).val, idx2_lt1 i⟩)

/-- The printed index maps over the grid: the left and the output windows are at row block t, the right window at its one block. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 10000 t … 10000 t + 9999 of its array. -/
theorem iblk0_0_apply (c : Dev nD) (t : Fin cfg0.N) (p : Fin 10000) (k : Fin 128) (i : S100000x128.Idx)
    (h0 : (i 0).val = t.val * 10000 + p.val) (h1 : (i 1).val = k.val) :
    (iblk0 V c 0 t : Vec Ideal S10000x128 .f32) (ix2 p k) = (V c main_arg0 : Vec Ideal S100000x128 .f32) i := by
  obtain ⟨e0, e1, -⟩ := index_facts0 t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = (i 0).val; rw [e0, h0]; omega
  | ⟨1, _⟩ => show win0_0.index t (1 : Fin 2) * 128 + 1 * k.val = (i 1).val; rw [e1, h1]; omega

/-- The right window's block at every point is its whole array. -/
theorem iblk0_1_apply (c : Dev nD) (t : Fin cfg0.N) (k : Fin 128) (q : Fin 128) :
    (iblk0 V c 1 t : Vec Ideal S128x128 .f32) (ix2 k q) = (V c main_arg2 : Vec Ideal S128x128 .f32) (ix2 k q) := by
  obtain ⟨-, -, e0, e1, -⟩ := index_facts0 t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point t writes back is block t of the product of the two arrays as the region finds them. -/
theorem flushed0_eq (c : Dev nD) (t : Fin cfg0.N) :
    (dat0 (F := Ideal) V c).flushed 2 t = ((cfg0.win 2).blk t).view.read (Elt Ideal) (prod0 (V c main_arg0) (V c main_arg2)) := by
  show (cfg0.win 2).cut (grid0.coords t) ((dat0 (F := Ideal) V c).after 2 t) = _
  rw [after0_2]
  unfold out0
  rw [View.canon_unit_zero hz]
  simp only [View.ld_unit_zero (S := S10000x128) hz, View.ld_unit_zero (S := S128x128) hz]
  obtain ⟨-, -, -, -, e0, e1⟩ := index_facts0 t
  refine funext fun (y : S10000x128.Idx) => ?_
  obtain ⟨p, q, rfl⟩ : ∃ (p : Fin 10000) (q : Fin 128), y = ix2 p q := ⟨y 0, y 1, eq_ix2 y⟩
  rw [View.read_apply]
  show k0_pay1 (F := Ideal) (iblk0 V c 0 t) (iblk0 V c 1 t) (ix2 p q) = prod0 (V c main_arg0) (V c main_arg2) (((cfg0.win 2).blk t).view.emb (ix2 p q))
  rw [pay0_apply]
  unfold prod0
  refine Finset.sum_congr rfl fun k _ => ?_
  refine congrArg₂ (· * ·) (iblk0_0_apply V c t p k _ ?_ rfl) ((iblk0_1_apply V c t k q).trans ?_)
  · show win0_2.index t (0 : Fin 2) * 10000 + 1 * p.val = t.val * 10000 + p.val
    rw [e0]; omega
  · refine congrArg (fun z => (V c main_arg2 : Vec Ideal S128x128 .f32) (ix2 k z)) (Fin.ext ?_)
    show q.val = win0_2.index t (1 : Fin 2) * 128 + 1 * q.val
    rw [e1]; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every index of the output array is in the block of the point its row falls in: row r in point r / 10000. -/
theorem cover0 (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 10 := rfl
  refine ⟨⟨(i 0).val / 10000, by rw [hN]; omega⟩, flush0_2 _, ?_⟩
  obtain ⟨-, -, -, -, e0, e1⟩ := index_facts0 ⟨(i 0).val / 10000, by rw [hN]; omega⟩
  rw [mem_blk0]
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, _⟩ (1 : Fin 2) * 128 ≤ (i 1).val ∧ (i 1).val < win0_2.index ⟨(i 0).val / 10000, _⟩ (1 : Fin 2) * 128 + 128
    rw [e1]; omega

/-- The output array after the region is the product of the two arrays the region is entered with. -/
theorem final0 (c : Dev nD) : (dat0 (F := Ideal) V c).arrAt 2 cfg0.N = prod0 (V c main_arg0) (V c main_arg2) :=
  (dat0 (F := Ideal) V c).arrAt_eq_of_cover 2 (prod0 (V c main_arg0) (V c main_arg2)) (fun t _ => flushed0_eq V c t) cover0

/-- The product at row r, column j: the sum over k of left (r, k) times right (k, j). -/
theorem prod0_apply (a0 : Vec Ideal S100000x128 .f32) (a1 : Vec Ideal S128x128 .f32) (r : Fin 100000) (j : Fin 128) :
    prod0 a0 a1 (ix2 r j) = ∑ k : Fin 128, a0 (ix2 r k) * a1 (ix2 k j) := rfl

/-- The output array after the region at row r, column j: the sum over k of left (r, k) times right (k, j),
    sums and products of extended reals. -/
theorem final0_apply (c : Dev nD) (r : Fin 100000) (j : Fin 128) :
    @Eq EReal (((dat0 (F := Ideal) V c).arrAt 2 cfg0.N : Vec Ideal S100000x128 .f32) (ix2 r j))
      (∑ k : Fin 128, @HMul.hMul EReal EReal EReal instHMul ((V c main_arg0 : Vec Ideal S100000x128 .f32) (ix2 r k)) ((V c main_arg2 : Vec Ideal S128x128 .f32) (ix2 k j))) := by
  rw [final0]
  rfl

end Cert.KernelIdeal.HandValue

end
-- ==== Proof.KI_ValIdx.lean ====
/-
  Shared by the value modules of the pointwise regions: every region's body loads and stores its staged blocks
  whole, through rectangles whose two offsets are written `![0, 0]`; that offset vector is the zero function.
-/
import Idealize.ShloMosaic.Lib.Pipeline.Value
import Idealize.ShloMosaic.Lib.ValueIdx

namespace Cert.KernelIdeal.HandValue

/-- The two written offsets of a whole-block rectangle are zero on both axes. -/
theorem offsets_zero : (![0, 0] : Fin 2 → Nat) = fun _ => 0 := funext fun a => by fin_cases a <;> rfl

end Cert.KernelIdeal.HandValue
-- ==== Proof.KI_Val1.lean ====
/-
  The value of region 1 of @main: what its output array holds after the region, index by index, as a function of
  the arrays the region was entered with. The region's body is pointwise: at every grid point it adds the one row
  of its second operand to every row of its block of the first operand
  and takes the maximum with the constant zero. The ten row
  blocks tile the array, so the array ends holding that function of the two arrays at every index.
-/
import proofs.«145243_j28355374088213_1_alg».proof.Proof.KI_Reg1
import proofs.«145243_j28355374088213_1_alg».proof.Proof.KI_ValIdx
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one stored value at row `r`, column `j` of the block: the first block there plus the second
    operand's one row at column `j`, then the maximum with the constant zero. Both shape casts are to the operand's own shape, and the
    broadcast repeats the one row over the block's rows. -/
theorem pay1_apply (x0 : Vec Ideal S10000x128 .f32) (x1 : Vec Ideal S1x128 .f32) (r : Fin 10000) (j : Fin 128) :
    k1_pay1 x0 x1 (ix2 r j) = FloatOps.maximumf (F := Ideal) (φ := .f32) (FloatOps.addf (F := Ideal) (φ := .f32) (x0 (ix2 r j)) (x1 (ix2 (0 : Fin 1) j))) (Scalar.ofBits (F := Ideal) .f32 0x00000000#32) := by
  unfold k1_pay1
  show FloatOps.maximumf (F := Ideal) (φ := .f32)
      (FloatOps.addf (F := Ideal) (φ := .f32) (shapeCast S10000x128 (x0 : FVec Ideal S10000x128 .f32) shapeCasts_S10000x128_S10000x128 (ix2 r j))
        (broadcastTo S10000x128 (shapeCast S1x128 (x1 : FVec Ideal S1x128 .f32) shapeCasts_S1x128_S1x128) broadcasts_S1x128_S10000x128 (ix2 r j)))
      (Scalar.ofBits (F := Ideal) .f32 0x00000000#32) = _
  rw [shapeCast_self, shapeCast_self, broadcastTo_1b_ab_apply]

/-- What the output array ends holding, as ONE function of the two arrays the region reads: at row `i 0`, column
    `i 1`, the first array there plus the second array's one row at that column, then the maximum with the constant zero. -/
abbrev rowAddedMax1 (a0 : S100000x128.Idx → Elt Ideal .f32) (a1 : S1x128.Idx → Elt Ideal .f32) : S100000x128.Idx → Elt Ideal .f32 :=
  fun i => FloatOps.maximumf (F := Ideal) (φ := .f32) (FloatOps.addf (F := Ideal) (φ := .f32) (a0 i) (a1 (ix2 (0 : Fin 1) (i 1)))) (Scalar.ofBits (F := Ideal) .f32 0x00000000#32)

/-- The printed index maps over the ten grid points: the first operand's and the output's block at point `t` is row
    block `t` (column block 0), and the second operand's block is always the whole one-row array. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowAddedMax1` of the two arrays as the region finds them: the element
    at row `r`, column `j` of a block sits in its array at row (block index × 10000 + `r`), column `j`, and the
    first operand's block moves with the output's while the second operand's is the whole row. -/
theorem flushed1_eq (c : Dev nD) (t : Fin cfg1.N) :
    (dat1 V c).flushed 2 t = ((cfg1.win 2).blk t).view.read (Elt Ideal) (rowAddedMax1 (V c main_v44) (V c main_v45)) := by
  show (cfg1.win 2).cut (grid1.coords t) ((dat1 V c).after 2 t) = _
  rw [after1_2]
  unfold out1
  rw [View.canon_unit_zero offsets_zero]
  simp only [View.ld_unit_zero (S := S10000x128) offsets_zero, View.ld_unit_zero (S := S1x128) offsets_zero]
  obtain ⟨e00, e01, e10, e11, e20, e21⟩ := blockIdx1 t
  funext y
  obtain ⟨r, j, rfl⟩ : ∃ (r : Fin 10000) (j : Fin 128), y = ix2 r j := ⟨y 0, y 1, eq_ix2 y⟩
  show k1_pay1 (iblk1 V c 0 t) (iblk1 V c 1 t) (ix2 r j)
    = rowAddedMax1 (V c main_v44) (V c main_v45) (((cfg1.win 2).blk t).view.emb (ix2 r j))
  rw [pay1_apply]
  have h0 : iblk1 V c 0 t (ix2 r j) = V c main_v44 (((cfg1.win 2).blk t).view.emb (ix2 r j)) := by
    show V c main_v44 (((cfg1.win 0).blk t).view.emb (ix2 r j)) = V c main_v44 (((cfg1.win 2).blk t).view.emb (ix2 r j))
    refine congrArg (V c main_v44) (funext fun a => Fin.ext ?_)
    match a with
    | ⟨0, _⟩ => show win1_0.index t (0 : Fin 2) * 10000 + 1 * r.val = win1_2.index t (0 : Fin 2) * 10000 + 1 * r.val; omega
    | ⟨1, _⟩ => show win1_0.index t (1 : Fin 2) * 128 + 1 * j.val = win1_2.index t (1 : Fin 2) * 128 + 1 * j.val; omega
  have h1 : iblk1 V c 1 t (ix2 (0 : Fin 1) j)
      = V c main_v45 (ix2 (0 : Fin 1) ((((cfg1.win 2).blk t).view.emb (ix2 r j)) 1)) := by
    show V c main_v45 (((cfg1.win 1).blk t).view.emb (ix2 (0 : Fin 1) j)) = _
    refine congrArg (V c main_v45) (funext fun a => Fin.ext ?_)
    match a with
    | ⟨0, _⟩ => show win1_1.index t (0 : Fin 2) * 1 + 1 * 0 = 0; omega
    | ⟨1, _⟩ => show win1_1.index t (1 : Fin 2) * 128 + 1 * j.val = win1_2.index t (1 : Fin 2) * 128 + 1 * j.val; omega
  rw [h0, h1]

/-- An index of the output array is in point `t`'s block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- Every index of the output array is in some point's block: row `r` is in row block `r / 10000`, and every
    point writes its block back. -/
theorem rows_covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := rfl
  let t : Fin cfg1.N := ⟨(i 0).val / 10000, by rw [hN]; omega⟩
  obtain ⟨e00, e01, e10, e11, e20, e21⟩ := blockIdx1 t
  have ht : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region is `rowAddedMax1` of the two arrays the region was entered with. -/
theorem final1 (c : Dev nD) : (dat1 V c).arrAt 2 cfg1.N = rowAddedMax1 (V c main_v44) (V c main_v45) :=
  (dat1 V c).arrAt_eq_of_cover 2 (rowAddedMax1 (V c main_v44) (V c main_v45)) (fun t _ => flushed1_eq V c t) rows_covered1

/-- The same, read at row `r`, column `j`. -/
theorem final1_apply (c : Dev nD) (r : Fin 100000) (j : Fin 128) :
    ((dat1 (F := Ideal) V c).arrAt 2 cfg1.N) (ix2 r j)
      = FloatOps.maximumf (F := Ideal) (φ := .f32) (FloatOps.addf (F := Ideal) (φ := .f32) ((V c main_v44) (ix2 r j)) ((V c main_v45) (ix2 (0 : Fin 1) j))) (Scalar.ofBits (F := Ideal) .f32 0x00000000#32) := by
  rw [final1]

end Cert.KernelIdeal.HandValue

end
-- ==== Proof.KI_Val2.lean ====
/-
  The value of region 2: the output array after the region, index by index, at the ideal values, as a function of
  the arrays the region is entered with. The grid's ten points each take ten thousand rows of the left array and the
  whole right array, multiply them, and write the product's ten thousand rows back: point t covers rows 10000 t to
  10000 t + 9999, so the array ends holding, at row r and column j, the sum over k of left (r, k) times right (k, j).
-/
import proofs.«145243_j28355374088213_1_alg».proof.Proof.KI_Reg2
import proofs.«145243_j28355374088213_1_alg».proof.Proof.KI_ValLib
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The matrix product of a [100000,128] array with a [128,128] array, index by index. -/
def prod2 (a0 : Vec Ideal S100000x128 .f32) (a1 : Vec Ideal S128x128 .f32) : Vec Ideal S100000x128 .f32 :=
  fun i => ∑ k : Fin 128, a0 (ix2 ⟨(i 0).val, idx2_lt0 i⟩ k) * a1 (ix2 k ⟨(i 1).val, idx2_lt1 i⟩)

/-- The printed index maps over the grid: the left and the output windows are at row block t, the right window at its one block. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 10000 t … 10000 t + 9999 of its array. -/
theorem iblk2_0_apply (c : Dev nD) (t : Fin cfg2.N) (p : Fin 10000) (k : Fin 128) (i : S100000x128.Idx)
    (h0 : (i 0).val = t.val * 10000 + p.val) (h1 : (i 1).val = k.val) :
    (iblk2 V c 0 t : Vec Ideal S10000x128 .f32) (ix2 p k) = (V c main_v46 : Vec Ideal S100000x128 .f32) i := by
  obtain ⟨e0, e1, -⟩ := index_facts2 t
  unfold iblk2
  rw [View.read_apply]
  show V c main_v46 _ = V c main_v46 _
  refine congrArg (V c main_v46) ?_
  funext a
  apply Fin.ext
  match a with
  | ⟨0, _⟩ => show win2_0.index t (0 : Fin 2) * 10000 + 1 * p.val = (i 0).val; rw [e0, h0]; omega
  | ⟨1, _⟩ => show win2_0.index t (1 : Fin 2) * 128 + 1 * k.val = (i 1).val; rw [e1, h1]; omega

/-- The right window's block at every point is its whole array. -/
theorem iblk2_1_apply (c : Dev nD) (t : Fin cfg2.N) (k : Fin 128) (q : Fin 128) :
    (iblk2 V c 1 t : Vec Ideal S128x128 .f32) (ix2 k q) = (V c main_arg4 : Vec Ideal S128x128 .f32) (ix2 k q) := by
  obtain ⟨-, -, e0, e1, -⟩ := index_facts2 t
  unfold iblk2
  rw [View.read_apply]
  show V c main_arg4 _ = V c main_arg4 _
  refine congrArg (V c main_arg4) ?_
  funext a
  apply Fin.ext
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- What point t writes back is block t of the product of the two arrays as the region finds them. -/
theorem flushed2_eq (c : Dev nD) (t : Fin cfg2.N) :
    (dat2 (F := Ideal) V c).flushed 2 t = ((cfg2.win 2).blk t).view.read (Elt Ideal) (prod2 (V c main_v46) (V c main_arg4)) := by
  show (cfg2.win 2).cut (grid2.coords t) ((dat2 (F := Ideal) V c).after 2 t) = _
  rw [after2_2]
  unfold out2
  rw [View.canon_unit_zero hz]
  simp only [View.ld_unit_zero (S := S10000x128) hz, View.ld_unit_zero (S := S128x128) hz]
  obtain ⟨-, -, -, -, e0, e1⟩ := index_facts2 t
  refine funext fun (y : S10000x128.Idx) => ?_
  obtain ⟨p, q, rfl⟩ : ∃ (p : Fin 10000) (q : Fin 128), y = ix2 p q := ⟨y 0, y 1, eq_ix2 y⟩
  rw [View.read_apply]
  show k2_pay1 (F := Ideal) (iblk2 V c 0 t) (iblk2 V c 1 t) (ix2 p q) = prod2 (V c main_v46) (V c main_arg4) (((cfg2.win 2).blk t).view.emb (ix2 p q))
  rw [pay2_apply]
  unfold prod2
  refine Finset.sum_congr rfl fun k _ => ?_
  refine congrArg₂ (· * ·) (iblk2_0_apply V c t p k _ ?_ rfl) ((iblk2_1_apply V c t k q).trans ?_)
  · show win2_2.index t (0 : Fin 2) * 10000 + 1 * p.val = t.val * 10000 + p.val
    rw [e0]; omega
  · refine congrArg (fun z => (V c main_arg4 : Vec Ideal S128x128 .f32) (ix2 k z)) (Fin.ext ?_)
    show q.val = win2_2.index t (1 : Fin 2) * 128 + 1 * q.val
    rw [e1]; omega

/-- An index of the output array is in point t's block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v47).slice (win2_2.rect t)).set ↔ _
  rw [View.set_slice_whole, Rect.mem_set_unit]
  exact Iff.rfl

/-- Every index of the output array is in the block of the point its row falls in: row r in point r / 10000. -/
theorem cover2 (i : S100000x128.Idx) : ∃ t : Fin cfg2.N, (cfg2.win 2).flush t = true ∧ i ∈ ((cfg2.win 2).blk t).view.set := by
  have hi0 : (i 0).val < 100000 := idx2_lt0 i
  have hi1 : (i 1).val < 128 := idx2_lt1 i
  have hN : cfg2.N = 10 := rfl
  refine ⟨⟨(i 0).val / 10000, by rw [hN]; omega⟩, flush2_2 _, ?_⟩
  obtain ⟨-, -, -, -, e0, e1⟩ := index_facts2 ⟨(i 0).val / 10000, by rw [hN]; omega⟩
  rw [mem_blk2]
  intro a
  match a with
  | ⟨0, _⟩ =>
    show win2_2.index ⟨(i 0).val / 10000, _⟩ (0 : Fin 2) * 10000 ≤ (i 0).val ∧ (i 0).val < win2_2.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win2_2.index ⟨(i 0).val / 10000, _⟩ (1 : Fin 2) * 128 ≤ (i 1).val ∧ (i 1).val < win2_2.index ⟨(i 0).val / 10000, _⟩ (1 : Fin 2) * 128 + 128
    rw [e1]; omega

/-- The output array after the region is the product of the two arrays the region is entered with. -/
theorem final2 (c : Dev nD) : (dat2 (F := Ideal) V c).arrAt 2 cfg2.N = prod2 (V c main_v46) (V c main_arg4) :=
  (dat2 (F := Ideal) V c).arrAt_eq_of_cover 2 (prod2 (V c main_v46) (V c main_arg4)) (fun t _ => flushed2_eq V c t) cover2

/-- The product at row r, column j: the sum over k of left (r, k) times right (k, j). -/
theorem prod2_apply (a0 : Vec Ideal S100000x128 .f32) (a1 : Vec Ideal S128x128 .f32) (r : Fin 100000) (j : Fin 128) :
    prod2 a0 a1 (ix2 r j) = ∑ k : Fin 128, a0 (ix2 r k) * a1 (ix2 k j) := rfl

/-- The output array after the region at row r, column j: the sum over k of left (r, k) times right (k, j),
    sums and products of extended reals. -/
theorem final2_apply (c : Dev nD) (r : Fin 100000) (j : Fin 128) :
    @Eq EReal (((dat2 (F := Ideal) V c).arrAt 2 cfg2.N : Vec Ideal S100000x128 .f32) (ix2 r j))
      (∑ k : Fin 128, @HMul.hMul EReal EReal EReal instHMul ((V c main_v46 : Vec Ideal S100000x128 .f32) (ix2 r k)) ((V c main_arg4 : Vec Ideal S128x128 .f32) (ix2 k j))) := by
  rw [final2]
  rfl

end Cert.KernelIdeal.HandValue

end
-- ==== Proof.KI_Val3.lean ====
/-
  The value of region 3 of @main: what its output array holds after the region, index by index, as a function of
  the arrays the region was entered with. The region's body is pointwise: at every grid point it adds the one row
  of its second operand to every row of its block of the first operand
  and takes the maximum with the constant zero. The ten row
  blocks tile the array, so the array ends holding that function of the two arrays at every index.
-/
import proofs.«145243_j28355374088213_1_alg».proof.Proof.KI_Reg3
import proofs.«145243_j28355374088213_1_alg».proof.Proof.KI_ValIdx
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one stored value at row `r`, column `j` of the block: the first block there plus the second
    operand's one row at column `j`, then the maximum with the constant zero. Both shape casts are to the operand's own shape, and the
    broadcast repeats the one row over the block's rows. -/
theorem pay3_apply (x0 : Vec Ideal S10000x128 .f32) (x1 : Vec Ideal S1x128 .f32) (r : Fin 10000) (j : Fin 128) :
    k3_pay1 x0 x1 (ix2 r j) = FloatOps.maximumf (F := Ideal) (φ := .f32) (FloatOps.addf (F := Ideal) (φ := .f32) (x0 (ix2 r j)) (x1 (ix2 (0 : Fin 1) j))) (Scalar.ofBits (F := Ideal) .f32 0x00000000#32) := by
  unfold k3_pay1
  show FloatOps.maximumf (F := Ideal) (φ := .f32)
      (FloatOps.addf (F := Ideal) (φ := .f32) (shapeCast S10000x128 (x0 : FVec Ideal S10000x128 .f32) shapeCasts_S10000x128_S10000x128 (ix2 r j))
        (broadcastTo S10000x128 (shapeCast S1x128 (x1 : FVec Ideal S1x128 .f32) shapeCasts_S1x128_S1x128) broadcasts_S1x128_S10000x128 (ix2 r j)))
      (Scalar.ofBits (F := Ideal) .f32 0x00000000#32) = _
  rw [shapeCast_self, shapeCast_self, broadcastTo_1b_ab_apply]

/-- What the output array ends holding, as ONE function of the two arrays the region reads: at row `i 0`, column
    `i 1`, the first array there plus the second array's one row at that column, then the maximum with the constant zero. -/
abbrev rowAddedMax3 (a0 : S100000x128.Idx → Elt Ideal .f32) (a1 : S1x128.Idx → Elt Ideal .f32) : S100000x128.Idx → Elt Ideal .f32 :=
  fun i => FloatOps.maximumf (F := Ideal) (φ := .f32) (FloatOps.addf (F := Ideal) (φ := .f32) (a0 i) (a1 (ix2 (0 : Fin 1) (i 1)))) (Scalar.ofBits (F := Ideal) .f32 0x00000000#32)

/-- The printed index maps over the ten grid points: the first operand's and the output's block at point `t` is row
    block `t` (column block 0), and the second operand's block is always the whole one-row array. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `rowAddedMax3` of the two arrays as the region finds them: the element
    at row `r`, column `j` of a block sits in its array at row (block index × 10000 + `r`), column `j`, and the
    first operand's block moves with the output's while the second operand's is the whole row. -/
theorem flushed3_eq (c : Dev nD) (t : Fin cfg3.N) :
    (dat3 V c).flushed 2 t = ((cfg3.win 2).blk t).view.read (Elt Ideal) (rowAddedMax3 (V c main_v60) (V c main_v61)) := by
  show (cfg3.win 2).cut (grid3.coords t) ((dat3 V c).after 2 t) = _
  rw [after3_2]
  unfold out3
  rw [View.canon_unit_zero offsets_zero]
  simp only [View.ld_unit_zero (S := S10000x128) offsets_zero, View.ld_unit_zero (S := S1x128) offsets_zero]
  obtain ⟨e00, e01, e10, e11, e20, e21⟩ := blockIdx3 t
  funext y
  obtain ⟨r, j, rfl⟩ : ∃ (r : Fin 10000) (j : Fin 128), y = ix2 r j := ⟨y 0, y 1, eq_ix2 y⟩
  show k3_pay1 (iblk3 V c 0 t) (iblk3 V c 1 t) (ix2 r j)
    = rowAddedMax3 (V c main_v60) (V c main_v61) (((cfg3.win 2).blk t).view.emb (ix2 r j))
  rw [pay3_apply]
  have h0 : iblk3 V c 0 t (ix2 r j) = V c main_v60 (((cfg3.win 2).blk t).view.emb (ix2 r j)) := by
    show V c main_v60 (((cfg3.win 0).blk t).view.emb (ix2 r j)) = V c main_v60 (((cfg3.win 2).blk t).view.emb (ix2 r j))
    refine congrArg (V c main_v60) (funext fun a => Fin.ext ?_)
    match a with
    | ⟨0, _⟩ => show win3_0.index t (0 : Fin 2) * 10000 + 1 * r.val = win3_2.index t (0 : Fin 2) * 10000 + 1 * r.val; omega
    | ⟨1, _⟩ => show win3_0.index t (1 : Fin 2) * 128 + 1 * j.val = win3_2.index t (1 : Fin 2) * 128 + 1 * j.val; omega
  have h1 : iblk3 V c 1 t (ix2 (0 : Fin 1) j)
      = V c main_v61 (ix2 (0 : Fin 1) ((((cfg3.win 2).blk t).view.emb (ix2 r j)) 1)) := by
    show V c main_v61 (((cfg3.win 1).blk t).view.emb (ix2 (0 : Fin 1) j)) = _
    refine congrArg (V c main_v61) (funext fun a => Fin.ext ?_)
    match a with
    | ⟨0, _⟩ => show win3_1.index t (0 : Fin 2) * 1 + 1 * 0 = 0; omega
    | ⟨1, _⟩ => show win3_1.index t (1 : Fin 2) * 128 + 1 * j.val = win3_2.index t (1 : Fin 2) * 128 + 1 * j.val; omega
  rw [h0, h1]

/-- An index of the output array is in point `t`'s block iff each coordinate is in the block's range on its axis. -/
theorem mem_block3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v62).slice (win3_2.rect t)).set ↔ _
  rw [View.set_slice_whole, Rect.mem_set_unit]
  exact Iff.rfl

/-- Every index of the output array is in some point's block: row `r` is in row block `r / 10000`, and every
    point writes its block back. -/
theorem rows_covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := rfl
  let t : Fin cfg3.N := ⟨(i 0).val / 10000, by rw [hN]; omega⟩
  obtain ⟨e00, e01, e10, e11, e20, e21⟩ := blockIdx3 t
  have ht : t.val = (i 0).val / 10000 := rfl
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region is `rowAddedMax3` of the two arrays the region was entered with. -/
theorem final3 (c : Dev nD) : (dat3 V c).arrAt 2 cfg3.N = rowAddedMax3 (V c main_v60) (V c main_v61) :=
  (dat3 V c).arrAt_eq_of_cover 2 (rowAddedMax3 (V c main_v60) (V c main_v61)) (fun t _ => flushed3_eq V c t) rows_covered3

/-- The same, read at row `r`, column `j`. -/
theorem final3_apply (c : Dev nD) (r : Fin 100000) (j : Fin 128) :
    ((dat3 (F := Ideal) V c).arrAt 2 cfg3.N) (ix2 r j)
      = FloatOps.maximumf (F := Ideal) (φ := .f32) (FloatOps.addf (F := Ideal) (φ := .f32) ((V c main_v60) (ix2 r j)) ((V c main_v61) (ix2 (0 : Fin 1) j))) (Scalar.ofBits (F := Ideal) .f32 0x00000000#32) := by
  rw [final3]

end Cert.KernelIdeal.HandValue

end
-- ==== Proof.KI_Val5.lean ====
/-
  The value of region 5 of @main: what its output array holds after the region, index by index, as a function of
  the arrays the region was entered with. The region's body is pointwise: at every grid point it adds the one row
  of its second operand to every row of its block of the first operand. The ten row
  blocks tile the array, so the array ends holding that function of the two arrays at every index.
-/
import proofs.«145243_j28355374088213_1_alg».proof.Proof.KI_Reg5
import proofs.«145243_j28355374088213_1_alg».proof.Proof.KI_ValIdx
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one stored value at row `r`, column `j` of the block: the first block there plus the second
    operand's one row at column `j`. Both shape casts are to the operand's own shape, and the
    broadcast repeats the one row over the block's rows. -/
theorem pay5_apply (x0 : Vec Ideal S10000x128 .f32) (x1 : Vec Ideal S1x128 .f32) (r : Fin 10000) (j : Fin 128) :
    k5_pay1 x0 x1 (ix2 r j) = FloatOps.addf (F := Ideal) (φ := .f32) (x0 (ix2 r j)) (x1 (ix2 (0 : Fin 1) j)) := by
  unfold k5_pay1
  show FloatOps.addf (F := Ideal) (φ := .f32) (shapeCast S10000x128 (x0 : FVec Ideal S10000x128 .f32) shapeCasts_S10000x128_S10000x128 (ix2 r j))
      (broadcastTo S10000x128 (shapeCast S1x128 (x1 : FVec Ideal S1x128 .f32) shapeCasts_S1x128_S1x128) broadcasts_S1x128_S10000x128 (ix2 r j)) = _
  rw [shapeCast_self, shapeCast_self, broadcastTo_1b_ab_apply]

/-- What the output array ends holding, as ONE function of the two arrays the region reads: at row `i 0`, column
    `i 1`, the first array there plus the second array's one row at that column. -/
abbrev rowAdded5 (a0 : S100000x128.Idx → Elt Ideal .f32) (a1 : S1x128.Idx → Elt Ideal .f32) : S100000x128.Idx → Elt Ideal .f32 :=
  fun i => FloatOps.addf (F := Ideal) (φ := .f32) (a0 i) (a1 (ix2 (0 : Fin 1) (i 1)))

/-- The printed index maps over the ten grid points: the first operand's and the output's block at point `t` is row
    block `t` (column block 0), and the second operand's block is always the whole one-row array. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `rowAdded5` of the two arrays as the region finds them: the element
    at row `r`, column `j` of a block sits in its array at row (block index × 10000 + `r`), column `j`, and the
    first operand's block moves with the output's while the second operand's is the whole row. -/
theorem flushed5_eq (c : Dev nD) (t : Fin cfg5.N) :
    (dat5 V c).flushed 2 t = ((cfg5.win 2).blk t).view.read (Elt Ideal) (rowAdded5 (V c main_v62) (V c main_v89)) := by
  show (cfg5.win 2).cut (grid5.coords t) ((dat5 V c).after 2 t) = _
  rw [after5_2]
  unfold out5
  rw [View.canon_unit_zero offsets_zero]
  simp only [View.ld_unit_zero (S := S10000x128) offsets_zero, View.ld_unit_zero (S := S1x128) offsets_zero]
  obtain ⟨e00, e01, e10, e11, e20, e21⟩ := blockIdx5 t
  funext y
  obtain ⟨r, j, rfl⟩ : ∃ (r : Fin 10000) (j : Fin 128), y = ix2 r j := ⟨y 0, y 1, eq_ix2 y⟩
  show k5_pay1 (iblk5 V c 0 t) (iblk5 V c 1 t) (ix2 r j)
    = rowAdded5 (V c main_v62) (V c main_v89) (((cfg5.win 2).blk t).view.emb (ix2 r j))
  rw [pay5_apply]
  have h0 : iblk5 V c 0 t (ix2 r j) = V c main_v62 (((cfg5.win 2).blk t).view.emb (ix2 r j)) := by
    show V c main_v62 (((cfg5.win 0).blk t).view.emb (ix2 r j)) = V c main_v62 (((cfg5.win 2).blk t).view.emb (ix2 r j))
    refine congrArg (V c main_v62) (funext fun a => Fin.ext ?_)
    match a with
    | ⟨0, _⟩ => show win5_0.index t (0 : Fin 2) * 10000 + 1 * r.val = win5_2.index t (0 : Fin 2) * 10000 + 1 * r.val; omega
    | ⟨1, _⟩ => show win5_0.index t (1 : Fin 2) * 128 + 1 * j.val = win5_2.index t (1 : Fin 2) * 128 + 1 * j.val; omega
  have h1 : iblk5 V c 1 t (ix2 (0 : Fin 1) j)
      = V c main_v89 (ix2 (0 : Fin 1) ((((cfg5.win 2).blk t).view.emb (ix2 r j)) 1)) := by
    show V c main_v89 (((cfg5.win 1).blk t).view.emb (ix2 (0 : Fin 1) j)) = _
    refine congrArg (V c main_v89) (funext fun a => Fin.ext ?_)
    match a with
    | ⟨0, _⟩ => show win5_1.index t (0 : Fin 2) * 1 + 1 * 0 = 0; omega
    | ⟨1, _⟩ => show win5_1.index t (1 : Fin 2) * 128 + 1 * j.val = win5_2.index t (1 : Fin 2) * 128 + 1 * j.val; omega
  rw [h0, h1]

/-- An index of the output array is in point `t`'s block iff each coordinate is in the block's range on its axis. -/
theorem mem_block5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v90).slice (win5_2.rect t)).set ↔ _
  rw [View.set_slice_whole, Rect.mem_set_unit]
  exact Iff.rfl

/-- Every index of the output array is in some point's block: row `r` is in row block `r / 10000`, and every
    point writes its block back. -/
theorem rows_covered5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := rfl
  let t : Fin cfg5.N := ⟨(i 0).val / 10000, by rw [hN]; omega⟩
  obtain ⟨e00, e01, e10, e11, e20, e21⟩ := blockIdx5 t
  have ht : t.val = (i 0).val / 10000 := rfl
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The output array after the region is `rowAdded5` of the two arrays the region was entered with. -/
theorem final5 (c : Dev nD) : (dat5 V c).arrAt 2 cfg5.N = rowAdded5 (V c main_v62) (V c main_v89) :=
  (dat5 V c).arrAt_eq_of_cover 2 (rowAdded5 (V c main_v62) (V c main_v89)) (fun t _ => flushed5_eq V c t) rows_covered5

/-- The same, read at row `r`, column `j`. -/
theorem final5_apply (c : Dev nD) (r : Fin 100000) (j : Fin 128) :
    ((dat5 (F := Ideal) V c).arrAt 2 cfg5.N) (ix2 r j)
      = FloatOps.addf (F := Ideal) (φ := .f32) ((V c main_v62) (ix2 r j)) ((V c main_v89) (ix2 (0 : Fin 1) j)) := by
  rw [final5]

end Cert.KernelIdeal.HandValue

end
-- ==== Proof.KI_Val6.lean ====
/-
  The value of region 6: the output array after the region, index by index, at the ideal values, as a function of
  the arrays the region is entered with. The grid's ten points each take ten thousand rows of the left array and the
  whole right array, multiply them, and write the product's ten thousand rows back: point t covers rows 10000 t to
  10000 t + 9999, so the array ends holding, at row r and column j, the sum over k of left (r, k) times right (k, j).
-/
import proofs.«145243_j28355374088213_1_alg».proof.Proof.KI_Reg6
import proofs.«145243_j28355374088213_1_alg».proof.Proof.KI_ValLib
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The matrix product of a [100000,128] array with a [128,64] array, index by index. -/
def prod6 (a0 : Vec Ideal S100000x128 .f32) (a1 : Vec Ideal S128x64 .f32) : Vec Ideal S100000x64 .f32 :=
  fun i => ∑ k : Fin 128, a0 (ix2 ⟨(i 0).val, idx2_lt0 i⟩ k) * a1 (ix2 k ⟨(i 1).val, idx2_lt1 i⟩)

/-- The printed index maps over the grid: the left and the output windows are at row block t, the right window at its one block. -/
theorem index_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left window's block at point t is rows 10000 t … 10000 t + 9999 of its array. -/
theorem iblk6_0_apply (c : Dev nD) (t : Fin cfg6.N) (p : Fin 10000) (k : Fin 128) (i : S100000x128.Idx)
    (h0 : (i 0).val = t.val * 10000 + p.val) (h1 : (i 1).val = k.val) :
    (iblk6 V c 0 t : Vec Ideal S10000x128 .f32) (ix2 p k) = (V c main_v90 : Vec Ideal S100000x128 .f32) i := by
  obtain ⟨e0, e1, -⟩ := index_facts6 t
  unfold iblk6
  rw [View.read_apply]
  show V c main_v90 _ = V c main_v90 _
  refine congrArg (V c main_v90) ?_
  funext a
  apply Fin.ext
  match a with
  | ⟨0, _⟩ => show win6_0.index t (0 : Fin 2) * 10000 + 1 * p.val = (i 0).val; rw [e0, h0]; omega
  | ⟨1, _⟩ => show win6_0.index t (1 : Fin 2) * 128 + 1 * k.val = (i 1).val; rw [e1, h1]; omega

/-- The right window's block at every point is its whole array. -/
theorem iblk6_1_apply (c : Dev nD) (t : Fin cfg6.N) (k : Fin 128) (q : Fin 64) :
    (iblk6 V c 1 t : Vec Ideal S128x64 .f32) (ix2 k q) = (V c main_arg10 : Vec Ideal S128x64 .f32) (ix2 k q) := by
  obtain ⟨-, -, e0, e1, -⟩ := index_facts6 t
  unfold iblk6
  rw [View.read_apply]
  show V c main_arg10 _ = V c main_arg10 _
  refine congrArg (V c main_arg10) ?_
  funext a
  apply Fin.ext
  match a with
  | ⟨0, _⟩ => show win6_1.index t (0 : Fin 2) * 128 + 1 * k.val = k.val; rw [e0]; omega
  | ⟨1, _⟩ => show win6_1.index t (1 : Fin 2) * 64 + 1 * q.val = q.val; rw [e1]; omega

/-- What point t writes back is block t of the product of the two arrays as the region finds them. -/
theorem flushed6_eq (c : Dev nD) (t : Fin cfg6.N) :
    (dat6 (F := Ideal) V c).flushed 2 t = ((cfg6.win 2).blk t).view.read (Elt Ideal) (prod6 (V c main_v90) (V c main_arg10)) := by
  show (cfg6.win 2).cut (grid6.coords t) ((dat6 (F := Ideal) V c).after 2 t) = _
  rw [after6_2]
  unfold out6
  rw [View.canon_unit_zero hz]
  simp only [View.ld_unit_zero (S := S10000x128) hz, View.ld_unit_zero (S := S128x64) hz]
  obtain ⟨-, -, -, -, e0, e1⟩ := index_facts6 t
  refine funext fun (y : S10000x64.Idx) => ?_
  obtain ⟨p, q, rfl⟩ : ∃ (p : Fin 10000) (q : Fin 64), y = ix2 p q := ⟨y 0, y 1, eq_ix2 y⟩
  rw [View.read_apply]
  show k6_pay1 (F := Ideal) (iblk6 V c 0 t) (iblk6 V c 1 t) (ix2 p q) = prod6 (V c main_v90) (V c main_arg10) (((cfg6.win 2).blk t).view.emb (ix2 p q))
  rw [pay6_apply]
  unfold prod6
  refine Finset.sum_congr rfl fun k _ => ?_
  refine congrArg₂ (· * ·) (iblk6_0_apply V c t p k _ ?_ rfl) ((iblk6_1_apply V c t k q).trans ?_)
  · show win6_2.index t (0 : Fin 2) * 10000 + 1 * p.val = t.val * 10000 + p.val
    rw [e0]; omega
  · refine congrArg (fun z => (V c main_arg10 : Vec Ideal S128x64 .f32) (ix2 k z)) (Fin.ext ?_)
    show q.val = win6_2.index t (1 : Fin 2) * 64 + 1 * q.val
    rw [e1]; omega

/-- An index of the output array is in point t's block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v91).slice (win6_2.rect t)).set ↔ _
  rw [View.set_slice_whole, Rect.mem_set_unit]
  exact Iff.rfl

/-- Every index of the output array is in the block of the point its row falls in: row r in point r / 10000. -/
theorem cover6 (i : S100000x64.Idx) : ∃ t : Fin cfg6.N, (cfg6.win 2).flush t = true ∧ i ∈ ((cfg6.win 2).blk t).view.set := by
  have hi0 : (i 0).val < 100000 := idx2_lt0 i
  have hi1 : (i 1).val < 64 := idx2_lt1 i
  have hN : cfg6.N = 10 := rfl
  refine ⟨⟨(i 0).val / 10000, by rw [hN]; omega⟩, flush6_2 _, ?_⟩
  obtain ⟨-, -, -, -, e0, e1⟩ := index_facts6 ⟨(i 0).val / 10000, by rw [hN]; omega⟩
  rw [mem_blk6]
  intro a
  match a with
  | ⟨0, _⟩ =>
    show win6_2.index ⟨(i 0).val / 10000, _⟩ (0 : Fin 2) * 10000 ≤ (i 0).val ∧ (i 0).val < win6_2.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win6_2.index ⟨(i 0).val / 10000, _⟩ (1 : Fin 2) * 64 ≤ (i 1).val ∧ (i 1).val < win6_2.index ⟨(i 0).val / 10000, _⟩ (1 : Fin 2) * 64 + 64
    rw [e1]; omega

/-- The output array after the region is the product of the two arrays the region is entered with. -/
theorem final6 (c : Dev nD) : (dat6 (F := Ideal) V c).arrAt 2 cfg6.N = prod6 (V c main_v90) (V c main_arg10) :=
  (dat6 (F := Ideal) V c).arrAt_eq_of_cover 2 (prod6 (V c main_v90) (V c main_arg10)) (fun t _ => flushed6_eq V c t) cover6

/-- The product at row r, column j: the sum over k of left (r, k) times right (k, j). -/
theorem prod6_apply (a0 : Vec Ideal S100000x128 .f32) (a1 : Vec Ideal S128x64 .f32) (r : Fin 100000) (j : Fin 64) :
    prod6 a0 a1 (ix2 r j) = ∑ k : Fin 128, a0 (ix2 r k) * a1 (ix2 k j) := rfl

/-- The output array after the region at row r, column j: the sum over k of left (r, k) times right (k, j),
    sums and products of extended reals. -/
theorem final6_apply (c : Dev nD) (r : Fin 100000) (j : Fin 64) :
    @Eq EReal (((dat6 (F := Ideal) V c).arrAt 2 cfg6.N : Vec Ideal S100000x64 .f32) (ix2 r j))
      (∑ k : Fin 128, @HMul.hMul EReal EReal EReal instHMul ((V c main_v90 : Vec Ideal S100000x128 .f32) (ix2 r k)) ((V c main_arg10 : Vec Ideal S128x64 .f32) (ix2 k j))) := by
  rw [final6]
  rfl

end Cert.KernelIdeal.HandValue

end
-- ==== Proof.KI_Val7.lean ====
/-
  The value of region 7 of @main: what its output array holds after the region, index by index, as a function of
  the arrays the region was entered with. The region's body is pointwise: at every grid point it adds the one row
  of its second operand to every row of its block of the first operand. The ten row
  blocks tile the array, so the array ends holding that function of the two arrays at every index.
-/
import proofs.«145243_j28355374088213_1_alg».proof.Proof.KI_Reg7
import proofs.«145243_j28355374088213_1_alg».proof.Proof.KI_ValIdx
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one stored value at row `r`, column `j` of the block: the first block there plus the second
    operand's one row at column `j`. Both shape casts are to the operand's own shape, and the
    broadcast repeats the one row over the block's rows. -/
theorem pay7_apply (x0 : Vec Ideal S10000x64 .f32) (x1 : Vec Ideal S1x64 .f32) (r : Fin 10000) (j : Fin 64) :
    k7_pay1 x0 x1 (ix2 r j) = FloatOps.addf (F := Ideal) (φ := .f32) (x0 (ix2 r j)) (x1 (ix2 (0 : Fin 1) j)) := by
  unfold k7_pay1
  show FloatOps.addf (F := Ideal) (φ := .f32) (shapeCast S10000x64 (x0 : FVec Ideal S10000x64 .f32) shapeCasts_S10000x64_S10000x64 (ix2 r j))
      (broadcastTo S10000x64 (shapeCast S1x64 (x1 : FVec Ideal S1x64 .f32) shapeCasts_S1x64_S1x64) broadcasts_S1x64_S10000x64 (ix2 r j)) = _
  rw [shapeCast_self, shapeCast_self, broadcastTo_1b_ab_apply]

/-- What the output array ends holding, as ONE function of the two arrays the region reads: at row `i 0`, column
    `i 1`, the first array there plus the second array's one row at that column. -/
abbrev rowAdded7 (a0 : S100000x64.Idx → Elt Ideal .f32) (a1 : S1x64.Idx → Elt Ideal .f32) : S100000x64.Idx → Elt Ideal .f32 :=
  fun i => FloatOps.addf (F := Ideal) (φ := .f32) (a0 i) (a1 (ix2 (0 : Fin 1) (i 1)))

/-- The printed index maps over the ten grid points: the first operand's and the output's block at point `t` is row
    block `t` (column block 0), and the second operand's block is always the whole one-row array. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of `rowAdded7` of the two arrays as the region finds them: the element
    at row `r`, column `j` of a block sits in its array at row (block index × 10000 + `r`), column `j`, and the
    first operand's block moves with the output's while the second operand's is the whole row. -/
theorem flushed7_eq (c : Dev nD) (t : Fin cfg7.N) :
    (dat7 V c).flushed 2 t = ((cfg7.win 2).blk t).view.read (Elt Ideal) (rowAdded7 (V c main_v104) (V c main_v105)) := by
  show (cfg7.win 2).cut (grid7.coords t) ((dat7 V c).after 2 t) = _
  rw [after7_2]
  unfold out7
  rw [View.canon_unit_zero offsets_zero]
  simp only [View.ld_unit_zero (S := S10000x64) offsets_zero, View.ld_unit_zero (S := S1x64) offsets_zero]
  obtain ⟨e00, e01, e10, e11, e20, e21⟩ := blockIdx7 t
  funext y
  obtain ⟨r, j, rfl⟩ : ∃ (r : Fin 10000) (j : Fin 64), y = ix2 r j := ⟨y 0, y 1, eq_ix2 y⟩
  show k7_pay1 (iblk7 V c 0 t) (iblk7 V c 1 t) (ix2 r j)
    = rowAdded7 (V c main_v104) (V c main_v105) (((cfg7.win 2).blk t).view.emb (ix2 r j))
  rw [pay7_apply]
  have h0 : iblk7 V c 0 t (ix2 r j) = V c main_v104 (((cfg7.win 2).blk t).view.emb (ix2 r j)) := by
    show V c main_v104 (((cfg7.win 0).blk t).view.emb (ix2 r j)) = V c main_v104 (((cfg7.win 2).blk t).view.emb (ix2 r j))
    refine congrArg (V c main_v104) (funext fun a => Fin.ext ?_)
    match a with
    | ⟨0, _⟩ => show win7_0.index t (0 : Fin 2) * 10000 + 1 * r.val = win7_2.index t (0 : Fin 2) * 10000 + 1 * r.val; omega
    | ⟨1, _⟩ => show win7_0.index t (1 : Fin 2) * 64 + 1 * j.val = win7_2.index t (1 : Fin 2) * 64 + 1 * j.val; omega
  have h1 : iblk7 V c 1 t (ix2 (0 : Fin 1) j)
      = V c main_v105 (ix2 (0 : Fin 1) ((((cfg7.win 2).blk t).view.emb (ix2 r j)) 1)) := by
    show V c main_v105 (((cfg7.win 1).blk t).view.emb (ix2 (0 : Fin 1) j)) = _
    refine congrArg (V c main_v105) (funext fun a => Fin.ext ?_)
    match a with
    | ⟨0, _⟩ => show win7_1.index t (0 : Fin 2) * 1 + 1 * 0 = 0; omega
    | ⟨1, _⟩ => show win7_1.index t (1 : Fin 2) * 64 + 1 * j.val = win7_2.index t (1 : Fin 2) * 64 + 1 * j.val; omega
  rw [h0, h1]

/-- An index of the output array is in point `t`'s block iff each coordinate is in the block's range on its axis. -/
theorem mem_block7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v106).slice (win7_2.rect t)).set ↔ _
  rw [View.set_slice_whole, Rect.mem_set_unit]
  exact Iff.rfl

/-- Every index of the output array is in some point's block: row `r` is in row block `r / 10000`, and every
    point writes its block back. -/
theorem rows_covered7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 10 := rfl
  let t : Fin cfg7.N := ⟨(i 0).val / 10000, by rw [hN]; omega⟩
  obtain ⟨e00, e01, e10, e11, e20, e21⟩ := blockIdx7 t
  have ht : t.val = (i 0).val / 10000 := rfl
  refine ⟨t, flush7_2 t, ?_⟩
  rw [mem_block7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- The output array after the region is `rowAdded7` of the two arrays the region was entered with. -/
theorem final7 (c : Dev nD) : (dat7 V c).arrAt 2 cfg7.N = rowAdded7 (V c main_v104) (V c main_v105) :=
  (dat7 V c).arrAt_eq_of_cover 2 (rowAdded7 (V c main_v104) (V c main_v105)) (fun t _ => flushed7_eq V c t) rows_covered7

/-- The same, read at row `r`, column `j`. -/
theorem final7_apply (c : Dev nD) (r : Fin 100000) (j : Fin 64) :
    ((dat7 (F := Ideal) V c).arrAt 2 cfg7.N) (ix2 r j)
      = FloatOps.addf (F := Ideal) (φ := .f32) ((V c main_v104) (ix2 r j)) ((V c main_v105) (ix2 (0 : Fin 1) j)) := by
  rw [final7]

end Cert.KernelIdeal.HandValue

end
-- ==== Proof.KI_Val8.lean ====
/-
  The value of region 8: the output array after the region, index by index, at the ideal values, as a function of
  the arrays the region is entered with. The grid's ten points each take ten thousand rows of the left array and the
  whole right array, multiply them, and write the product's ten thousand rows back: point t covers rows 10000 t to
  10000 t + 9999, so the array ends holding, at row r and column j, the sum over k of left (r, k) times right (k, j).
-/
import proofs.«145243_j28355374088213_1_alg».proof.Proof.KI_Reg8
import proofs.«145243_j28355374088213_1_alg».proof.Proof.KI_ValLib
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The matrix product of a [100000,128] array with a [128,64] array, index by index. -/
def prod8 (a0 : Vec Ideal S100000x128 .f32) (a1 : Vec Ideal S128x64 .f32) : Vec Ideal S100000x64 .f32 :=
  fun i => ∑ k : Fin 128, a0 (ix2 ⟨(i 0).val, idx2_lt0 i⟩ k) * a1 (ix2 k ⟨(i 1).val, idx2_lt1 i⟩)

/-- The printed index maps over the grid: the left and the output windows are at row block t, the right window at its one block. -/
theorem index_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The left window's block at point t is rows 10000 t … 10000 t + 9999 of its array. -/
theorem iblk8_0_apply (c : Dev nD) (t : Fin cfg8.N) (p : Fin 10000) (k : Fin 128) (i : S100000x128.Idx)
    (h0 : (i 0).val = t.val * 10000 + p.val) (h1 : (i 1).val = k.val) :
    (iblk8 V c 0 t : Vec Ideal S10000x128 .f32) (ix2 p k) = (V c main_v90 : Vec Ideal S100000x128 .f32) i := by
  obtain ⟨e0, e1, -⟩ := index_facts8 t
  unfold iblk8
  rw [View.read_apply]
  show V c main_v90 _ = V c main_v90 _
  refine congrArg (V c main_v90) ?_
  funext a
  apply Fin.ext
  match a with
  | ⟨0, _⟩ => show win8_0.index t (0 : Fin 2) * 10000 + 1 * p.val = (i 0).val; rw [e0, h0]; omega
  | ⟨1, _⟩ => show win8_0.index t (1 : Fin 2) * 128 + 1 * k.val = (i 1).val; rw [e1, h1]; omega

/-- The right window's block at every point is its whole array. -/
theorem iblk8_1_apply (c : Dev nD) (t : Fin cfg8.N) (k : Fin 128) (q : Fin 64) :
    (iblk8 V c 1 t : Vec Ideal S128x64 .f32) (ix2 k q) = (V c main_arg12 : Vec Ideal S128x64 .f32) (ix2 k q) := by
  obtain ⟨-, -, e0, e1, -⟩ := index_facts8 t
  unfold iblk8
  rw [View.read_apply]
  show V c main_arg12 _ = V c main_arg12 _
  refine congrArg (V c main_arg12) ?_
  funext a
  apply Fin.ext
  match a with
  | ⟨0, _⟩ => show win8_1.index t (0 : Fin 2) * 128 + 1 * k.val = k.val; rw [e0]; omega
  | ⟨1, _⟩ => show win8_1.index t (1 : Fin 2) * 64 + 1 * q.val = q.val; rw [e1]; omega

/-- What point t writes back is block t of the product of the two arrays as the region finds them. -/
theorem flushed8_eq (c : Dev nD) (t : Fin cfg8.N) :
    (dat8 (F := Ideal) V c).flushed 2 t = ((cfg8.win 2).blk t).view.read (Elt Ideal) (prod8 (V c main_v90) (V c main_arg12)) := by
  show (cfg8.win 2).cut (grid8.coords t) ((dat8 (F := Ideal) V c).after 2 t) = _
  rw [after8_2]
  unfold out8
  rw [View.canon_unit_zero hz]
  simp only [View.ld_unit_zero (S := S10000x128) hz, View.ld_unit_zero (S := S128x64) hz]
  obtain ⟨-, -, -, -, e0, e1⟩ := index_facts8 t
  refine funext fun (y : S10000x64.Idx) => ?_
  obtain ⟨p, q, rfl⟩ : ∃ (p : Fin 10000) (q : Fin 64), y = ix2 p q := ⟨y 0, y 1, eq_ix2 y⟩
  rw [View.read_apply]
  show k8_pay1 (F := Ideal) (iblk8 V c 0 t) (iblk8 V c 1 t) (ix2 p q) = prod8 (V c main_v90) (V c main_arg12) (((cfg8.win 2).blk t).view.emb (ix2 p q))
  rw [pay8_apply]
  unfold prod8
  refine Finset.sum_congr rfl fun k _ => ?_
  refine congrArg₂ (· * ·) (iblk8_0_apply V c t p k _ ?_ rfl) ((iblk8_1_apply V c t k q).trans ?_)
  · show win8_2.index t (0 : Fin 2) * 10000 + 1 * p.val = t.val * 10000 + p.val
    rw [e0]; omega
  · refine congrArg (fun z => (V c main_arg12 : Vec Ideal S128x64 .f32) (ix2 k z)) (Fin.ext ?_)
    show q.val = win8_2.index t (1 : Fin 2) * 64 + 1 * q.val
    rw [e1]; omega

/-- An index of the output array is in point t's block iff each coordinate is in the block's range on its axis. -/
theorem mem_blk8 (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v107).slice (win8_2.rect t)).set ↔ _
  rw [View.set_slice_whole, Rect.mem_set_unit]
  exact Iff.rfl

/-- Every index of the output array is in the block of the point its row falls in: row r in point r / 10000. -/
theorem cover8 (i : S100000x64.Idx) : ∃ t : Fin cfg8.N, (cfg8.win 2).flush t = true ∧ i ∈ ((cfg8.win 2).blk t).view.set := by
  have hi0 : (i 0).val < 100000 := idx2_lt0 i
  have hi1 : (i 1).val < 64 := idx2_lt1 i
  have hN : cfg8.N = 10 := rfl
  refine ⟨⟨(i 0).val / 10000, by rw [hN]; omega⟩, flush8_2 _, ?_⟩
  obtain ⟨-, -, -, -, e0, e1⟩ := index_facts8 ⟨(i 0).val / 10000, by rw [hN]; omega⟩
  rw [mem_blk8]
  intro a
  match a with
  | ⟨0, _⟩ =>
    show win8_2.index ⟨(i 0).val / 10000, _⟩ (0 : Fin 2) * 10000 ≤ (i 0).val ∧ (i 0).val < win8_2.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win8_2.index ⟨(i 0).val / 10000, _⟩ (1 : Fin 2) * 64 ≤ (i 1).val ∧ (i 1).val < win8_2.index ⟨(i 0).val / 10000, _⟩ (1 : Fin 2) * 64 + 64
    rw [e1]; omega

/-- The output array after the region is the product of the two arrays the region is entered with. -/
theorem final8 (c : Dev nD) : (dat8 (F := Ideal) V c).arrAt 2 cfg8.N = prod8 (V c main_v90) (V c main_arg12) :=
  (dat8 (F := Ideal) V c).arrAt_eq_of_cover 2 (prod8 (V c main_v90) (V c main_arg12)) (fun t _ => flushed8_eq V c t) cover8

/-- The product at row r, column j: the sum over k of left (r, k) times right (k, j). -/
theorem prod8_apply (a0 : Vec Ideal S100000x128 .f32) (a1 : Vec Ideal S128x64 .f32) (r : Fin 100000) (j : Fin 64) :
    prod8 a0 a1 (ix2 r j) = ∑ k : Fin 128, a0 (ix2 r k) * a1 (ix2 k j) := rfl

/-- The output array after the region at row r, column j: the sum over k of left (r, k) times right (k, j),
    sums and products of extended reals. -/
theorem final8_apply (c : Dev nD) (r : Fin 100000) (j : Fin 64) :
    @Eq EReal (((dat8 (F := Ideal) V c).arrAt 2 cfg8.N : Vec Ideal S100000x64 .f32) (ix2 r j))
      (∑ k : Fin 128, @HMul.hMul EReal EReal EReal instHMul ((V c main_v90 : Vec Ideal S100000x128 .f32) (ix2 r k)) ((V c main_arg12 : Vec Ideal S128x64 .f32) (ix2 k j))) := by
  rw [final8]
  rfl

end Cert.KernelIdeal.HandValue

end
-- ==== Proof.KI_Val9.lean ====
/-
  The value of region 9 of @main: what its output array holds after the region, index by index, as a function of
  the arrays the region was entered with. The region's body is pointwise: at every grid point it adds the one row
  of its second operand to every row of its block of the first operand
  and takes the minimum with the constant ten. The ten row
  blocks tile the array, so the array ends holding that function of the two arrays at every index.
-/
import proofs.«145243_j28355374088213_1_alg».proof.Proof.KI_Reg9
import proofs.«145243_j28355374088213_1_alg».proof.Proof.KI_ValIdx
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one stored value at row `r`, column `j` of the block: the first block there plus the second
    operand's one row at column `j`, then the minimum with the constant ten. Both shape casts are to the operand's own shape, and the
    broadcast repeats the one row over the block's rows. -/
theorem pay9_apply (x0 : Vec Ideal S10000x64 .f32) (x1 : Vec Ideal S1x64 .f32) (r : Fin 10000) (j : Fin 64) :
    k9_pay1 x0 x1 (ix2 r j) = FloatOps.minimumf (F := Ideal) (φ := .f32) (FloatOps.addf (F := Ideal) (φ := .f32) (x0 (ix2 r j)) (x1 (ix2 (0 : Fin 1) j))) (Scalar.ofBits (F := Ideal) .f32 0x41200000#32) := by
  unfold k9_pay1
  show FloatOps.minimumf (F := Ideal) (φ := .f32)
      (FloatOps.addf (F := Ideal) (φ := .f32) (shapeCast S10000x64 (x0 : FVec Ideal S10000x64 .f32) shapeCasts_S10000x64_S10000x64 (ix2 r j))
        (broadcastTo S10000x64 (shapeCast S1x64 (x1 : FVec Ideal S1x64 .f32) shapeCasts_S1x64_S1x64) broadcasts_S1x64_S10000x64 (ix2 r j)))
      (Scalar.ofBits (F := Ideal) .f32 0x41200000#32) = _
  rw [shapeCast_self, shapeCast_self, broadcastTo_1b_ab_apply]

/-- What the output array ends holding, as ONE function of the two arrays the region reads: at row `i 0`, column
    `i 1`, the first array there plus the second array's one row at that column, then the minimum with the constant ten. -/
abbrev rowAddedMin9 (a0 : S100000x64.Idx → Elt Ideal .f32) (a1 : S1x64.Idx → Elt Ideal .f32) : S100000x64.Idx → Elt Ideal .f32 :=
  fun i => FloatOps.minimumf (F := Ideal) (φ := .f32) (FloatOps.addf (F := Ideal) (φ := .f32) (a0 i) (a1 (ix2 (0 : Fin 1) (i 1)))) (Scalar.ofBits (F := Ideal) .f32 0x41200000#32)

/-- The printed index maps over the ten grid points: the first operand's and the output's block at point `t` is row
    block `t` (column block 0), and the second operand's block is always the whole one-row array. -/
theorem blockIdx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point `t` writes back is block `t` of `rowAddedMin9` of the two arrays as the region finds them: the element
    at row `r`, column `j` of a block sits in its array at row (block index × 10000 + `r`), column `j`, and the
    first operand's block moves with the output's while the second operand's is the whole row. -/
theorem flushed9_eq (c : Dev nD) (t : Fin cfg9.N) :
    (dat9 V c).flushed 2 t = ((cfg9.win 2).blk t).view.read (Elt Ideal) (rowAddedMin9 (V c main_v120) (V c main_v121)) := by
  show (cfg9.win 2).cut (grid9.coords t) ((dat9 V c).after 2 t) = _
  rw [after9_2]
  unfold out9
  rw [View.canon_unit_zero offsets_zero]
  simp only [View.ld_unit_zero (S := S10000x64) offsets_zero, View.ld_unit_zero (S := S1x64) offsets_zero]
  obtain ⟨e00, e01, e10, e11, e20, e21⟩ := blockIdx9 t
  funext y
  obtain ⟨r, j, rfl⟩ : ∃ (r : Fin 10000) (j : Fin 64), y = ix2 r j := ⟨y 0, y 1, eq_ix2 y⟩
  show k9_pay1 (iblk9 V c 0 t) (iblk9 V c 1 t) (ix2 r j)
    = rowAddedMin9 (V c main_v120) (V c main_v121) (((cfg9.win 2).blk t).view.emb (ix2 r j))
  rw [pay9_apply]
  have h0 : iblk9 V c 0 t (ix2 r j) = V c main_v120 (((cfg9.win 2).blk t).view.emb (ix2 r j)) := by
    show V c main_v120 (((cfg9.win 0).blk t).view.emb (ix2 r j)) = V c main_v120 (((cfg9.win 2).blk t).view.emb (ix2 r j))
    refine congrArg (V c main_v120) (funext fun a => Fin.ext ?_)
    match a with
    | ⟨0, _⟩ => show win9_0.index t (0 : Fin 2) * 10000 + 1 * r.val = win9_2.index t (0 : Fin 2) * 10000 + 1 * r.val; omega
    | ⟨1, _⟩ => show win9_0.index t (1 : Fin 2) * 64 + 1 * j.val = win9_2.index t (1 : Fin 2) * 64 + 1 * j.val; omega
  have h1 : iblk9 V c 1 t (ix2 (0 : Fin 1) j)
      = V c main_v121 (ix2 (0 : Fin 1) ((((cfg9.win 2).blk t).view.emb (ix2 r j)) 1)) := by
    show V c main_v121 (((cfg9.win 1).blk t).view.emb (ix2 (0 : Fin 1) j)) = _
    refine congrArg (V c main_v121) (funext fun a => Fin.ext ?_)
    match a with
    | ⟨0, _⟩ => show win9_1.index t (0 : Fin 2) * 1 + 1 * 0 = 0; omega
    | ⟨1, _⟩ => show win9_1.index t (1 : Fin 2) * 64 + 1 * j.val = win9_2.index t (1 : Fin 2) * 64 + 1 * j.val; omega
  rw [h0, h1]

/-- An index of the output array is in point `t`'s block iff each coordinate is in the block's range on its axis. -/
theorem mem_block9 (t : Fin cfg9.N) (i : S100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v122).slice (win9_2.rect t)).set ↔ _
  rw [View.set_slice_whole, Rect.mem_set_unit]
  exact Iff.rfl

/-- Every index of the output array is in some point's block: row `r` is in row block `r / 10000`, and every
    point writes its block back. -/
theorem rows_covered9 (i : S100000x64.Idx) :
    ∃ t : Fin cfg9.N, (cfg9.win 2).flush t = true ∧ i ∈ ((cfg9.win 2).blk t).view.set := by
  have hi0 : (i 0).val < 100000 := (i 0).isLt
  have hi1 : (i 1).val < 64 := (i 1).isLt
  have hN : cfg9.N = 10 := rfl
  let t : Fin cfg9.N := ⟨(i 0).val / 10000, by rw [hN]; omega⟩
  obtain ⟨e00, e01, e10, e11, e20, e21⟩ := blockIdx9 t
  have ht : t.val = (i 0).val / 10000 := rfl
  refine ⟨t, flush9_2 t, ?_⟩
  rw [mem_block9]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 64 ≤ (i 1).val ∧ (i 1).val < win9_2.index t (1 : Fin 2) * 64 + 64; omega

/-- The output array after the region is `rowAddedMin9` of the two arrays the region was entered with. -/
theorem final9 (c : Dev nD) : (dat9 V c).arrAt 2 cfg9.N = rowAddedMin9 (V c main_v120) (V c main_v121) :=
  (dat9 V c).arrAt_eq_of_cover 2 (rowAddedMin9 (V c main_v120) (V c main_v121)) (fun t _ => flushed9_eq V c t) rows_covered9

/-- The same, read at row `r`, column `j`. -/
theorem final9_apply (c : Dev nD) (r : Fin 100000) (j : Fin 64) :
    ((dat9 (F := Ideal) V c).arrAt 2 cfg9.N) (ix2 r j)
      = FloatOps.minimumf (F := Ideal) (φ := .f32) (FloatOps.addf (F := Ideal) (φ := .f32) ((V c main_v120) (ix2 r j)) ((V c main_v121) (ix2 (0 : Fin 1) j))) (Scalar.ofBits (F := Ideal) .f32 0x41200000#32) := by
  rw [final9]

end Cert.KernelIdeal.HandValue

end
-- ==== Proof.KI_Reg4Value.lean ====
/-
  The VALUE of region 4 at the ideal instance (extended reals, every operation exact): the result array the region
  leaves holds, at lane `j`, the sum of the input array's column `j` over all 100000 rows times the named constant
  1/100000 — the column mean. The scratch after `n` points is the sum of the first `n` row blocks' column sums
  (by induction on the point: the zero block, then one block's 10000 rows added per point), each block read through
  its window being rows `10000 t … 10000 t + 9999` of the array, and ten blocks of 10000 rows are the 100000 rows.
-/
import proofs.«145243_j28355374088213_1_alg».proof.Proof.KI_Reg4
import Idealize.ShloMosaic.Lib.ValueIdx
import Idealize.ShloMosaic.Lib.Pipeline.Value
import Idealize.ShloMosaic.PureOps.Ideal.Laws
import Idealize.ShloMosaic.PureOps.IdealRules

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The kernel's named reciprocal denotes the rational 1/100000, by the certificate's table. -/
theorem k4_inv_100000 : Named.named (F := Ideal) κ "inv_100000" (φ := .f32) 0x3727C5AC#32 = ((1 / 100000 : ℝ) : EReal) :=
  IdealRules.named_const.ideal_named_scalar _ _ _ _ rfl

/-- The zero block is zero at every lane. -/
theorem k4pay1_apply (i : S1x128.Idx) : (k4_pay1 (F := Ideal)) i = 0 := by
  unfold k4_pay1
  simp only [shapeCast_self, broadcast_apply]
  exact Ideal.ofBits_zero_f32

/-- One point's update at lane `j`: the block's column `j` summed over its 10000 rows, added. -/
theorem k4pay2_apply (s : Vec Ideal S1x128 .f32) (x : Vec Ideal S10000x128 .f32) (j : Fin 128) :
    k4_pay2 s x (ix2 (0 : Fin 1) j) = s (ix2 (0 : Fin 1) j) + ∑ k : Fin 10000, x (ix2 k j) := by
  unfold k4_pay2
  simp only [shapeCast_self]
  rw [addf_apply, shapeCast_addUnit_apply (n := 1) ![128]]
  refine congrArg _ ((Ideal.multiReduction_add_single x _ reduces_S10000x128_S128 _ _ _).trans
    (Finset.sum_congr rfl fun k _ => congrArg x ?_))
  funext a
  match a with
  | ⟨0, _⟩ => exact Fin.ext rfl
  | ⟨1, _⟩ => exact Fin.ext rfl

/-- The last point's store at a lane: the scratch there times 1/100000. -/
theorem k4pay3_apply (v : Vec Ideal S1x128 .f32) (i : S1x128.Idx) :
    k4_pay3 v i = v i * ((1 / 100000 : ℝ) : EReal) := by
  unfold k4_pay3
  rw [mulf_apply, broadcast_apply, k4_inv_100000]

/-- The input array as the region finds it, as a matrix of extended reals. -/
abbrev X62 (c : Dev nD) : S100000x128.Idx → EReal := V c main_v62

/-- The input window's block index at point `t` is (`t`, 0). -/
theorem idx4_0 (t : Fin cfg4.N) : win4_0.index t 0 = t.val ∧ win4_0.index t 1 = 0 := by
  rcases fin_N4 t with rfl | rfl | rfl | rfl | rfl | rfl | rfl | rfl | rfl | rfl <;> decide

/-- Row `r` of the block at point `t` is row `10000 t + r` of the array. -/
theorem iblk4_apply (c : Dev nD) (t : Fin cfg4.N) (r : Fin 10000) (j : Fin 128) (h : 10000 * t.val + r.val < 100000) :
    (iblk4 V c 0 t : Vec Ideal S10000x128 .f32) (ix2 r j) = X62 V c (ix2 ⟨10000 * t.val + r.val, h⟩ j) := by
  have hi := idx4_0 t
  unfold iblk4
  rw [View.read_apply]
  show V c main_v62 _ = V c main_v62 _
  congr 1
  funext a
  apply Fin.ext
  match a with
  | ⟨0, _⟩ => show win4_0.index t 0 * 10000 + 1 * r.val = 10000 * t.val + r.val; rw [hi.1]; omega
  | ⟨1, _⟩ => show win4_0.index t 1 * 128 + 1 * j.val = j.val; rw [hi.2]; omega

/-- The array's column `j` as a function of the row's number (zero past the end). -/
def col (c : Dev nD) (j : Fin 128) (m : ℕ) : EReal :=
  if h : m < 100000 then X62 V c (ix2 ⟨m, h⟩ j) else 0

/-- The scratch after `n` points, at lane `j`: the first `n` blocks' rows of column `j`, summed. -/
theorem acc4_apply (c : Dev nD) (j : Fin 128) : ∀ n, n ≤ 10 →
    acc4 V c n (ix2 (0 : Fin 1) j) = ∑ t ∈ Finset.range n, ∑ r : Fin 10000, col V c j (10000 * t + r.val)
  | 0, _ => by rw [acc4_zero, k4pay1_apply, Finset.sum_range_zero]
  | n + 1, hn => by
    have hN : cfg4.N = 10 := N_4
    have hlt : n < cfg4.N := by omega
    rw [acc4_succ V c ⟨n, hlt⟩, k4pay2_apply, acc4_apply c j n (by omega), Finset.sum_range_succ]
    refine congrArg _ (Finset.sum_congr rfl fun r _ => ?_)
    have h : 10000 * n + r.val < 100000 := by have := r.isLt; omega
    rw [iblk4_apply V c ⟨n, hlt⟩ r j h, col, dif_pos h]

/-- Ten blocks of 10000 rows are the 100000 rows. -/
theorem k4_sum_blocks (g : ℕ → EReal) :
    ∑ t ∈ Finset.range 10, ∑ r : Fin 10000, g (10000 * t + r.val) = ∑ m : Fin 100000, g m.val := by
  rw [← Fin.sum_univ_eq_sum_range (fun t => ∑ r : Fin 10000, g (10000 * t + r.val)) 10, ← Fintype.sum_prod_type',
    ← Equiv.sum_comp (finProdFinEquiv.trans (finCongr (by norm_num : 10 * 10000 = 100000))) (fun m : Fin 100000 => g m.val)]
  refine Finset.sum_congr rfl fun p _ => congrArg g ?_
  show 10000 * p.1.val + p.2.val = p.2.val + 10000 * p.1.val
  omega

/-- THE VALUE: at lane `j` the result array holds the column's sum over the 100000 rows times 1/100000. -/
theorem value4 (c : Dev nD) (j : Fin 128) :
    (dat4 (F := Ideal) V c).arrAt 1 cfg4.N (ix2 (0 : Fin 1) j)
      = (∑ r : Fin 100000, X62 V c (ix2 r j)) * ((1 / 100000 : ℝ) : EReal) := by
  have e1 : acc4 V c 10 (ix2 (0 : Fin 1) j) = ∑ t ∈ Finset.range 10, ∑ r : Fin 10000, col V c j (10000 * t + r.val) :=
    acc4_apply V c j 10 (le_refl _)
  have e2 : (∑ m : Fin 100000, col V c j m.val) = ∑ r : Fin 100000, X62 V c (ix2 r j) :=
    Finset.sum_congr rfl fun m _ => by rw [col, dif_pos m.isLt]
  refine (congrFun (final4 V c) (ix2 (0 : Fin 1) j)).trans ?_
  refine (k4pay3_apply (acc4 V c 10) (ix2 (0 : Fin 1) j)).trans ?_
  exact congrArg (· * ((1 / 100000 : ℝ) : EReal)) (e1.trans ((k4_sum_blocks (col V c j)).trans e2))

end Cert.KernelIdeal.HandValue

end
-- ==== Proof.KI_Bridge.lean ====
/-
  THE BRIDGE: the kernel program's buffers, stage by stage along its @main, hold the reference's stages.
  A region's output array is what its pipeline leaves (the closed forms of the regions' values); a host stretch's
  results are the reference's later stages once its inputs are (the stretch lemmas); a buffer nobody writes is
  carried unchanged. Index by index the two programs compute the same extended real: the four matmuls are the same
  sums of 128 products; the bias / activation regions the same pointwise operations of a broadcast row; the mean is
  the column's sum times 1/100000 on one side and divided by 100000 on the other, equal on every extended real.
  No step needs the inputs finite: only commutativity and associativity of the sum, and division by a nonzero real.
-/
import proofs.«145243_j28355374088213_1_alg».proof.Proof.KI_Keep
import proofs.«145243_j28355374088213_1_alg».proof.Proof.KI_Stretch
import proofs.«145243_j28355374088213_1_alg».proof.Proof.KI_Consts
import proofs.«145243_j28355374088213_1_alg».proof.Proof.KI_Val0
import proofs.«145243_j28355374088213_1_alg».proof.Proof.KI_Val1
import proofs.«145243_j28355374088213_1_alg».proof.Proof.KI_Val2
import proofs.«145243_j28355374088213_1_alg».proof.Proof.KI_Val3
import proofs.«145243_j28355374088213_1_alg».proof.Proof.KI_Val5
import proofs.«145243_j28355374088213_1_alg».proof.Proof.KI_Val6
import proofs.«145243_j28355374088213_1_alg».proof.Proof.KI_Val7
import proofs.«145243_j28355374088213_1_alg».proof.Proof.KI_Val8
import proofs.«145243_j28355374088213_1_alg».proof.Proof.KI_Val9
import proofs.«145243_j28355374088213_1_alg».proof.Proof.KI_Reg4Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Cert.ReferenceIdeal.ReadP
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The launch contents of an argument array. -/
abbrev A (r : Ref sig .tc) : Buf (Elt Ideal) ((c : Thread nD τ).loc r) := m ((c : Thread nD τ).loc r)

/-! ## Buffers carried unchanged from the launch, and the edge lists and normalisation -/

theorem u3_arg0 : U3 m c main_arg0 = A m c main_arg0 := by
  unfold U3; exact (V3_of m c main_arg0 (by decide)).trans ((V2_of m c main_arg0 (by decide)).trans ((V1_of m c main_arg0 (by decide)).trans rfl))
theorem u3_arg2 : U3 m c main_arg2 = A m c main_arg2 := by
  unfold U3; exact (V3_of m c main_arg2 (by decide)).trans ((V2_of m c main_arg2 (by decide)).trans ((V1_of m c main_arg2 (by decide)).trans rfl))
theorem u3_arg3 : U3 m c main_arg3 = A m c main_arg3 := by
  unfold U3; exact (V3_of m c main_arg3 (by decide)).trans ((V2_of m c main_arg3 (by decide)).trans ((V1_of m c main_arg3 (by decide)).trans rfl))
theorem u3_arg4 : U3 m c main_arg4 = A m c main_arg4 := by
  unfold U3; exact (V3_of m c main_arg4 (by decide)).trans ((V2_of m c main_arg4 (by decide)).trans ((V1_of m c main_arg4 (by decide)).trans rfl))
theorem u3_arg5 : U3 m c main_arg5 = A m c main_arg5 := by
  unfold U3; exact (V3_of m c main_arg5 (by decide)).trans ((V2_of m c main_arg5 (by decide)).trans ((V1_of m c main_arg5 (by decide)).trans rfl))
theorem u3_arg6 : U3 m c main_arg6 = A m c main_arg6 := by
  unfold U3; exact (V3_of m c main_arg6 (by decide)).trans ((V2_of m c main_arg6 (by decide)).trans ((V1_of m c main_arg6 (by decide)).trans rfl))
theorem u3_arg8 : U3 m c main_arg8 = A m c main_arg8 := by
  unfold U3; exact (V3_of m c main_arg8 (by decide)).trans ((V2_of m c main_arg8 (by decide)).trans ((V1_of m c main_arg8 (by decide)).trans rfl))
theorem u3_arg9 : U3 m c main_arg9 = A m c main_arg9 := by
  unfold U3; exact (V3_of m c main_arg9 (by decide)).trans ((V2_of m c main_arg9 (by decide)).trans ((V1_of m c main_arg9 (by decide)).trans rfl))
theorem u3_arg10 : U3 m c main_arg10 = A m c main_arg10 := by
  unfold U3; exact (V3_of m c main_arg10 (by decide)).trans ((V2_of m c main_arg10 (by decide)).trans ((V1_of m c main_arg10 (by decide)).trans rfl))
theorem u3_arg11 : U3 m c main_arg11 = A m c main_arg11 := by
  unfold U3; exact (V3_of m c main_arg11 (by decide)).trans ((V2_of m c main_arg11 (by decide)).trans ((V1_of m c main_arg11 (by decide)).trans rfl))
theorem u3_arg12 : U3 m c main_arg12 = A m c main_arg12 := by
  unfold U3; exact (V3_of m c main_arg12 (by decide)).trans ((V2_of m c main_arg12 (by decide)).trans ((V1_of m c main_arg12 (by decide)).trans rfl))
theorem u3_arg13 : U3 m c main_arg13 = A m c main_arg13 := by
  unfold U3; exact (V3_of m c main_arg13 (by decide)).trans ((V2_of m c main_arg13 (by decide)).trans ((V1_of m c main_arg13 (by decide)).trans rfl))

theorem u3_v3 : (U3 m c main_v3 : (⟨S1700000, .i32⟩ : BufTy).Contents (Elt Ideal)) = val_main_v3 (F := Ideal) (A m c main_arg1) := by
  unfold U3; exact pre_v3 (V0 m c)
theorem u3_v6 : (U3 m c main_v6 : (⟨S1700000, .i32⟩ : BufTy).Contents (Elt Ideal)) = val_main_v6 (F := Ideal) (A m c main_arg1) := by
  unfold U3; exact pre_v6 (V0 m c)
theorem u3_v30 : (U3 m c main_v30 : (⟨S1700000, .f32⟩ : BufTy).Contents (Elt Ideal)) = val_main_v30 (F := Ideal) (A m c main_arg1) := by
  unfold U3; exact pre_v30 (V0 m c)

/-! ## Region 0: x · W1 -/

theorem u4_v31 : (U4 m c main_v31 : Vec Ideal S100000x128 .f32) = val_main_v31 (F := Ideal) (A m c main_arg0) (A m c main_arg2) := by
  rw [U4_out]; unfold O4
  rw [final0 (fun c b => U3 m c b) c]
  funext i
  obtain ⟨r, j, rfl⟩ : ∃ (r : Fin 100000) (j : Fin 128), i = ix2 r j := ⟨i 0, i 1, eq_ix2 i⟩
  rw [prod0_apply, val_main_v31_apply]
  have hl : ∀ k : Fin 128, lidx_main_v31 (ix2 r j) k = ix2 r k := fun k => (by funext a; apply Fin.ext; match a with | ⟨0, _⟩ => rfl | ⟨1, _⟩ => rfl)
  have hr : ∀ k : Fin 128, ridx_main_v31 (ix2 r j) k = ix2 k j := fun k => (by funext a; apply Fin.ext; match a with | ⟨0, _⟩ => rfl | ⟨1, _⟩ => rfl)
  simp only [hl, hr]
  rw [u3_arg0 m c, u3_arg2 m c]

/-! ## The first aggregation; region 1: relu (agg + b1); region 2: · W2 -/

theorem u5_v44 : (U5 m c main_v44 : Vec Ideal S100000x128 .f32) = val_main_v44 (F := Ideal) (A m c main_arg0) (A m c main_arg1) (A m c main_arg2) := by
  unfold U5
  exact st1_v44 (U4 m c) _ _ _ (u4_v31 m c)
    (((U4_of m c main_v3 (by decide))).trans (u3_v3 m c)) (((U4_of m c main_v6 (by decide))).trans (u3_v6 m c)) (((U4_of m c main_v30 (by decide))).trans (u3_v30 m c))

theorem u5_v45 : (U5 m c main_v45 : Vec Ideal S1x128 .f32) = shapeCast S1x128 (A m c main_arg3) shapeCasts_S128_S1x128 := by
  unfold U5
  rw [st1_v45 (U4 m c), ((U4_of m c main_arg3 (by decide))).trans (u3_arg3 m c)]

theorem u6_v46 : (U6 m c main_v46 : Vec Ideal S100000x128 .f32) = val_main_v48 (F := Ideal) (A m c main_arg0) (A m c main_arg1) (A m c main_arg2) (A m c main_arg3) := by
  rw [U6_out]; unfold O6
  funext i
  obtain ⟨r, j, rfl⟩ : ∃ (r : Fin 100000) (j : Fin 128), i = ix2 r j := ⟨i 0, i 1, eq_ix2 i⟩
  refine (final1_apply (fun c b => U5 m c b) c r j).trans ?_
  rw [u5_v44 m c, u5_v45 m c, shapeCast_a_1a_apply, val_main_v48_apply, val_main_v47_apply, val_main_v46_apply, val_main_v45_apply, val_main_call1_v0_apply, val_main_call1_cst_apply]
  have e1 : idx_main_v45 (idx_main_v46 (ix2 r j)) = ix1 j := (by funext a; apply Fin.ext; match a with | ⟨0, _⟩ => rfl)
  rw [e1]

theorem u7_v47 : (U7 m c main_v47 : Vec Ideal S100000x128 .f32) = val_main_v49 (F := Ideal) (A m c main_arg0) (A m c main_arg1) (A m c main_arg2) (A m c main_arg3) (A m c main_arg4) := by
  rw [U7_out]; unfold O7
  rw [final2 (fun c b => U6 m c b) c]
  funext i
  obtain ⟨r, j, rfl⟩ : ∃ (r : Fin 100000) (j : Fin 128), i = ix2 r j := ⟨i 0, i 1, eq_ix2 i⟩
  rw [prod2_apply, val_main_v49_apply]
  have hl : ∀ k : Fin 128, lidx_main_v49 (ix2 r j) k = ix2 r k := fun k => (by funext a; apply Fin.ext; match a with | ⟨0, _⟩ => rfl | ⟨1, _⟩ => rfl)
  have hr : ∀ k : Fin 128, ridx_main_v49 (ix2 r j) k = ix2 k j := fun k => (by funext a; apply Fin.ext; match a with | ⟨0, _⟩ => rfl | ⟨1, _⟩ => rfl)
  simp only [hl, hr]
  rw [u6_v46 m c, ((U6_of m c main_arg4 (by decide)).trans ((U5_of m c main_arg4 (by decide)).trans ((U4_of m c main_arg4 (by decide))))).trans (u3_arg4 m c)]

/-! ## The second aggregation; region 3: relu (agg + b2) -/

theorem u8_v60 : (U8 m c main_v60 : Vec Ideal S100000x128 .f32) = val_main_v62 (F := Ideal) (A m c main_arg0) (A m c main_arg1) (A m c main_arg2) (A m c main_arg3) (A m c main_arg4) := by
  unfold U8
  exact st3_v60 (U7 m c) _ _ _ _ _ (u7_v47 m c)
    (((U7_of m c main_v3 (by decide)).trans ((U6_of m c main_v3 (by decide)).trans ((U5_of m c main_v3 (by decide)).trans ((U4_of m c main_v3 (by decide)))))).trans (u3_v3 m c)) (((U7_of m c main_v6 (by decide)).trans ((U6_of m c main_v6 (by decide)).trans ((U5_of m c main_v6 (by decide)).trans ((U4_of m c main_v6 (by decide)))))).trans (u3_v6 m c)) (((U7_of m c main_v30 (by decide)).trans ((U6_of m c main_v30 (by decide)).trans ((U5_of m c main_v30 (by decide)).trans ((U4_of m c main_v30 (by decide)))))).trans (u3_v30 m c))

theorem u8_v61 : (U8 m c main_v61 : Vec Ideal S1x128 .f32) = shapeCast S1x128 (A m c main_arg5) shapeCasts_S128_S1x128 := by
  unfold U8
  rw [st3_v61 (U7 m c), ((U7_of m c main_arg5 (by decide)).trans ((U6_of m c main_arg5 (by decide)).trans ((U5_of m c main_arg5 (by decide)).trans ((U4_of m c main_arg5 (by decide)))))).trans (u3_arg5 m c)]

theorem u9_v62 : (U9 m c main_v62 : Vec Ideal S100000x128 .f32) = val_main_v66 (F := Ideal) (A m c main_arg0) (A m c main_arg1) (A m c main_arg2) (A m c main_arg3) (A m c main_arg4) (A m c main_arg5) := by
  rw [U9_out]; unfold O9
  funext i
  obtain ⟨r, j, rfl⟩ : ∃ (r : Fin 100000) (j : Fin 128), i = ix2 r j := ⟨i 0, i 1, eq_ix2 i⟩
  refine (final3_apply (fun c b => U8 m c b) c r j).trans ?_
  rw [u8_v60 m c, u8_v61 m c, shapeCast_a_1a_apply, val_main_v66_apply, val_main_v65_apply, val_main_v64_apply, val_main_v63_apply, val_main_call2_v0_apply, val_main_call2_cst_apply]
  have e1 : idx_main_v63 (idx_main_v64 (ix2 r j)) = ix1 j := (by funext a; apply Fin.ext; match a with | ⟨0, _⟩ => rfl)
  rw [e1]

/-! ## Region 4: the mean over the 100000 rows -/

theorem u10_v63 : (U10 m c main_v63 : Vec Ideal S1x128 .f32) = val_main_v70 (F := Ideal) (A m c main_arg0) (A m c main_arg1) (A m c main_arg2) (A m c main_arg3) (A m c main_arg4) (A m c main_arg5) := by
  rw [U10_out]; unfold O10
  funext i
  obtain ⟨u, j, rfl⟩ : ∃ (u : Fin 1) (j : Fin 128), i = ix2 u j := ⟨i 0, i 1, eq_ix2 i⟩
  obtain rfl : u = 0 := Subsingleton.elim _ _
  refine (value4 (fun c b => U9 m c b) c j).trans ?_
  rw [val_main_v70_apply, val_main_v68_apply, val_main_v69_apply, val_main_v67_apply, val_main_cst_13_apply, val_main_cst_14_apply]
  have hx : X62 (fun c b => U9 m c b) c = val_main_v66 (F := Ideal) (A m c main_arg0) (A m c main_arg1) (A m c main_arg2) (A m c main_arg3) (A m c main_arg4) (A m c main_arg5) := u9_v62 m c
  rw [hx]
  simp only [Ideal.hostDivf_def, Ideal.ofBits_def]
  rw [Consts.ofBits_zero, zero_add, Consts.ofBits_100000, Ideal.div_coe (by norm_num : (100000 : ℝ) ≠ 0)]
  have e1 : ∀ k : Fin 100000, idx_main_v67 (idx_main_v68 (ix2 (0 : Fin 1) j)) k = ix2 k j := fun k => (by funext a; apply Fin.ext; match a with | ⟨0, _⟩ => rfl | ⟨1, _⟩ => rfl)
  simp only [e1]

/-! ## The LSTM step; region 5: h2 + h_t; regions 6 and 8: · Wmu, · Wls -/

theorem u11_v89 : (U11 m c main_v89 : Vec Ideal S1x128 .f32) = val_main_v96 (F := Ideal) (A m c main_arg0) (A m c main_arg1) (A m c main_arg2) (A m c main_arg3) (A m c main_arg4) (A m c main_arg5) (A m c main_arg6) (A m c main_arg8) (A m c main_arg9) := by
  unfold U11
  exact st5_v89 (U10 m c) _ _ _ _ _ _ _ _ _ (u10_v63 m c)
    (((U10_of m c main_arg6 (by decide)).trans ((U9_of m c main_arg6 (by decide)).trans ((U8_of m c main_arg6 (by decide)).trans ((U7_of m c main_arg6 (by decide)).trans ((U6_of m c main_arg6 (by decide)).trans ((U5_of m c main_arg6 (by decide)).trans ((U4_of m c main_arg6 (by decide))))))))).trans (u3_arg6 m c)) (((U10_of m c main_arg8 (by decide)).trans ((U9_of m c main_arg8 (by decide)).trans ((U8_of m c main_arg8 (by decide)).trans ((U7_of m c main_arg8 (by decide)).trans ((U6_of m c main_arg8 (by decide)).trans ((U5_of m c main_arg8 (by decide)).trans ((U4_of m c main_arg8 (by decide))))))))).trans (u3_arg8 m c)) (((U10_of m c main_arg9 (by decide)).trans ((U9_of m c main_arg9 (by decide)).trans ((U8_of m c main_arg9 (by decide)).trans ((U7_of m c main_arg9 (by decide)).trans ((U6_of m c main_arg9 (by decide)).trans ((U5_of m c main_arg9 (by decide)).trans ((U4_of m c main_arg9 (by decide))))))))).trans (u3_arg9 m c))

theorem u11_v62 : (U11 m c main_v62 : Vec Ideal S100000x128 .f32) = val_main_v66 (F := Ideal) (A m c main_arg0) (A m c main_arg1) (A m c main_arg2) (A m c main_arg3) (A m c main_arg4) (A m c main_arg5) :=
  ((U11_of m c main_v62 (by decide)).trans ((U10_of m c main_v62 (by decide)))).trans (u9_v62 m c)

theorem u12_v90 : (U12 m c main_v90 : Vec Ideal S100000x128 .f32) = val_main_v98 (F := Ideal) (A m c main_arg0) (A m c main_arg1) (A m c main_arg2) (A m c main_arg3) (A m c main_arg4) (A m c main_arg5) (A m c main_arg6) (A m c main_arg8) (A m c main_arg9) := by
  rw [U12_out]; unfold O12
  funext i
  obtain ⟨r, j, rfl⟩ : ∃ (r : Fin 100000) (j : Fin 128), i = ix2 r j := ⟨i 0, i 1, eq_ix2 i⟩
  refine (final5_apply (fun c b => U11 m c b) c r j).trans ?_
  rw [u11_v62 m c, u11_v89 m c, val_main_v98_apply, val_main_v97_apply]
  have e1 : idx_main_v97 (ix2 r j) = ix2 (0 : Fin 1) j := (by funext a; apply Fin.ext; match a with | ⟨0, _⟩ => rfl | ⟨1, _⟩ => rfl)
  rw [e1]

theorem u13_v91 : (U13 m c main_v91 : Vec Ideal S100000x64 .f32) = val_main_v99 (F := Ideal) (A m c main_arg0) (A m c main_arg1) (A m c main_arg2) (A m c main_arg3) (A m c main_arg4) (A m c main_arg5) (A m c main_arg6) (A m c main_arg8) (A m c main_arg9) (A m c main_arg10) := by
  rw [U13_out]; unfold O13
  rw [final6 (fun c b => U12 m c b) c]
  funext i
  obtain ⟨r, j, rfl⟩ : ∃ (r : Fin 100000) (j : Fin 64), i = ix2 r j := ⟨i 0, i 1, eq_ix2 i⟩
  rw [prod6_apply, val_main_v99_apply]
  have hl : ∀ k : Fin 128, lidx_main_v99 (ix2 r j) k = ix2 r k := fun k => (by funext a; apply Fin.ext; match a with | ⟨0, _⟩ => rfl | ⟨1, _⟩ => rfl)
  have hr : ∀ k : Fin 128, ridx_main_v99 (ix2 r j) k = ix2 k j := fun k => (by funext a; apply Fin.ext; match a with | ⟨0, _⟩ => rfl | ⟨1, _⟩ => rfl)
  simp only [hl, hr]
  rw [u12_v90 m c, ((U12_of m c main_arg10 (by decide)).trans ((U11_of m c main_arg10 (by decide)).trans ((U10_of m c main_arg10 (by decide)).trans ((U9_of m c main_arg10 (by decide)).trans ((U8_of m c main_arg10 (by decide)).trans ((U7_of m c main_arg10 (by decide)).trans ((U6_of m c main_arg10 (by decide)).trans ((U5_of m c main_arg10 (by decide)).trans ((U4_of m c main_arg10 (by decide))))))))))).trans (u3_arg10 m c)]

/-! ## The third aggregation; region 7: + bmu — the first result -/

theorem u14_v104 : (U14 m c main_v104 : Vec Ideal S100000x64 .f32) = val_main_v112 (F := Ideal) (A m c main_arg0) (A m c main_arg1) (A m c main_arg2) (A m c main_arg3) (A m c main_arg4) (A m c main_arg5) (A m c main_arg6) (A m c main_arg8) (A m c main_arg9) (A m c main_arg10) := by
  unfold U14
  exact st7_v104 (U13 m c) _ _ _ _ _ _ _ _ _ _ (u13_v91 m c)
    (((U13_of m c main_v3 (by decide)).trans ((U12_of m c main_v3 (by decide)).trans ((U11_of m c main_v3 (by decide)).trans ((U10_of m c main_v3 (by decide)).trans ((U9_of m c main_v3 (by decide)).trans ((U8_of m c main_v3 (by decide)).trans ((U7_of m c main_v3 (by decide)).trans ((U6_of m c main_v3 (by decide)).trans ((U5_of m c main_v3 (by decide)).trans ((U4_of m c main_v3 (by decide)))))))))))).trans (u3_v3 m c)) (((U13_of m c main_v6 (by decide)).trans ((U12_of m c main_v6 (by decide)).trans ((U11_of m c main_v6 (by decide)).trans ((U10_of m c main_v6 (by decide)).trans ((U9_of m c main_v6 (by decide)).trans ((U8_of m c main_v6 (by decide)).trans ((U7_of m c main_v6 (by decide)).trans ((U6_of m c main_v6 (by decide)).trans ((U5_of m c main_v6 (by decide)).trans ((U4_of m c main_v6 (by decide)))))))))))).trans (u3_v6 m c)) (((U13_of m c main_v30 (by decide)).trans ((U12_of m c main_v30 (by decide)).trans ((U11_of m c main_v30 (by decide)).trans ((U10_of m c main_v30 (by decide)).trans ((U9_of m c main_v30 (by decide)).trans ((U8_of m c main_v30 (by decide)).trans ((U7_of m c main_v30 (by decide)).trans ((U6_of m c main_v30 (by decide)).trans ((U5_of m c main_v30 (by decide)).trans ((U4_of m c main_v30 (by decide)))))))))))).trans (u3_v30 m c))

theorem u14_v105 : (U14 m c main_v105 : Vec Ideal S1x64 .f32) = shapeCast S1x64 (A m c main_arg11) shapeCasts_S64_S1x64 := by
  unfold U14
  rw [st7_v105 (U13 m c), ((U13_of m c main_arg11 (by decide)).trans ((U12_of m c main_arg11 (by decide)).trans ((U11_of m c main_arg11 (by decide)).trans ((U10_of m c main_arg11 (by decide)).trans ((U9_of m c main_arg11 (by decide)).trans ((U8_of m c main_arg11 (by decide)).trans ((U7_of m c main_arg11 (by decide)).trans ((U6_of m c main_arg11 (by decide)).trans ((U5_of m c main_arg11 (by decide)).trans ((U4_of m c main_arg11 (by decide)))))))))))).trans (u3_arg11 m c)]

theorem u15_v106 : (U15 m c main_v106 : Vec Ideal S100000x64 .f32) = val_main_v115 (F := Ideal) (A m c main_arg0) (A m c main_arg1) (A m c main_arg2) (A m c main_arg3) (A m c main_arg4) (A m c main_arg5) (A m c main_arg6) (A m c main_arg8) (A m c main_arg9) (A m c main_arg10) (A m c main_arg11) := by
  rw [U15_out]; unfold O15
  funext i
  obtain ⟨r, j, rfl⟩ : ∃ (r : Fin 100000) (j : Fin 64), i = ix2 r j := ⟨i 0, i 1, eq_ix2 i⟩
  refine (final7_apply (fun c b => U14 m c b) c r j).trans ?_
  rw [u14_v104 m c, u14_v105 m c, shapeCast_a_1a_apply, val_main_v115_apply, val_main_v114_apply, val_main_v113_apply]
  have e1 : idx_main_v113 (idx_main_v114 (ix2 r j)) = ix1 j := (by funext a; apply Fin.ext; match a with | ⟨0, _⟩ => rfl)
  rw [e1]

/-! ## The fourth aggregation; region 9: min (agg + bls, 10) — the second result -/

theorem u15_v90 : (U15 m c main_v90 : Vec Ideal S100000x128 .f32) = val_main_v98 (F := Ideal) (A m c main_arg0) (A m c main_arg1) (A m c main_arg2) (A m c main_arg3) (A m c main_arg4) (A m c main_arg5) (A m c main_arg6) (A m c main_arg8) (A m c main_arg9) :=
  ((U15_of m c main_v90 (by decide)).trans ((U14_of m c main_v90 (by decide)).trans ((U13_of m c main_v90 (by decide))))).trans (u12_v90 m c)

theorem u16_v107 : (U16 m c main_v107 : Vec Ideal S100000x64 .f32) = val_main_v116 (F := Ideal) (A m c main_arg0) (A m c main_arg1) (A m c main_arg2) (A m c main_arg3) (A m c main_arg4) (A m c main_arg5) (A m c main_arg6) (A m c main_arg8) (A m c main_arg9) (A m c main_arg12) := by
  rw [U16_out]; unfold O16
  rw [final8 (fun c b => U15 m c b) c]
  funext i
  obtain ⟨r, j, rfl⟩ : ∃ (r : Fin 100000) (j : Fin 64), i = ix2 r j := ⟨i 0, i 1, eq_ix2 i⟩
  rw [prod8_apply, val_main_v116_apply]
  have hl : ∀ k : Fin 128, lidx_main_v116 (ix2 r j) k = ix2 r k := fun k => (by funext a; apply Fin.ext; match a with | ⟨0, _⟩ => rfl | ⟨1, _⟩ => rfl)
  have hr : ∀ k : Fin 128, ridx_main_v116 (ix2 r j) k = ix2 k j := fun k => (by funext a; apply Fin.ext; match a with | ⟨0, _⟩ => rfl | ⟨1, _⟩ => rfl)
  simp only [hl, hr]
  rw [u15_v90 m c, ((U15_of m c main_arg12 (by decide)).trans ((U14_of m c main_arg12 (by decide)).trans ((U13_of m c main_arg12 (by decide)).trans ((U12_of m c main_arg12 (by decide)).trans ((U11_of m c main_arg12 (by decide)).trans ((U10_of m c main_arg12 (by decide)).trans ((U9_of m c main_arg12 (by decide)).trans ((U8_of m c main_arg12 (by decide)).trans ((U7_of m c main_arg12 (by decide)).trans ((U6_of m c main_arg12 (by decide)).trans ((U5_of m c main_arg12 (by decide)).trans ((U4_of m c main_arg12 (by decide)))))))))))))).trans (u3_arg12 m c)]

theorem u17_v120 : (U17 m c main_v120 : Vec Ideal S100000x64 .f32) = val_main_v129 (F := Ideal) (A m c main_arg0) (A m c main_arg1) (A m c main_arg2) (A m c main_arg3) (A m c main_arg4) (A m c main_arg5) (A m c main_arg6) (A m c main_arg8) (A m c main_arg9) (A m c main_arg12) := by
  unfold U17
  exact st9_v120 (U16 m c) _ _ _ _ _ _ _ _ _ _ (u16_v107 m c)
    (((U16_of m c main_v3 (by decide)).trans ((U15_of m c main_v3 (by decide)).trans ((U14_of m c main_v3 (by decide)).trans ((U13_of m c main_v3 (by decide)).trans ((U12_of m c main_v3 (by decide)).trans ((U11_of m c main_v3 (by decide)).trans ((U10_of m c main_v3 (by decide)).trans ((U9_of m c main_v3 (by decide)).trans ((U8_of m c main_v3 (by decide)).trans ((U7_of m c main_v3 (by decide)).trans ((U6_of m c main_v3 (by decide)).trans ((U5_of m c main_v3 (by decide)).trans ((U4_of m c main_v3 (by decide))))))))))))))).trans (u3_v3 m c)) (((U16_of m c main_v6 (by decide)).trans ((U15_of m c main_v6 (by decide)).trans ((U14_of m c main_v6 (by decide)).trans ((U13_of m c main_v6 (by decide)).trans ((U12_of m c main_v6 (by decide)).trans ((U11_of m c main_v6 (by decide)).trans ((U10_of m c main_v6 (by decide)).trans ((U9_of m c main_v6 (by decide)).trans ((U8_of m c main_v6 (by decide)).trans ((U7_of m c main_v6 (by decide)).trans ((U6_of m c main_v6 (by decide)).trans ((U5_of m c main_v6 (by decide)).trans ((U4_of m c main_v6 (by decide))))))))))))))).trans (u3_v6 m c)) (((U16_of m c main_v30 (by decide)).trans ((U15_of m c main_v30 (by decide)).trans ((U14_of m c main_v30 (by decide)).trans ((U13_of m c main_v30 (by decide)).trans ((U12_of m c main_v30 (by decide)).trans ((U11_of m c main_v30 (by decide)).trans ((U10_of m c main_v30 (by decide)).trans ((U9_of m c main_v30 (by decide)).trans ((U8_of m c main_v30 (by decide)).trans ((U7_of m c main_v30 (by decide)).trans ((U6_of m c main_v30 (by decide)).trans ((U5_of m c main_v30 (by decide)).trans ((U4_of m c main_v30 (by decide))))))))))))))).trans (u3_v30 m c))

theorem u17_v121 : (U17 m c main_v121 : Vec Ideal S1x64 .f32) = shapeCast S1x64 (A m c main_arg13) shapeCasts_S64_S1x64 := by
  unfold U17
  rw [st9_v121 (U16 m c), ((U16_of m c main_arg13 (by decide)).trans ((U15_of m c main_arg13 (by decide)).trans ((U14_of m c main_arg13 (by decide)).trans ((U13_of m c main_arg13 (by decide)).trans ((U12_of m c main_arg13 (by decide)).trans ((U11_of m c main_arg13 (by decide)).trans ((U10_of m c main_arg13 (by decide)).trans ((U9_of m c main_arg13 (by decide)).trans ((U8_of m c main_arg13 (by decide)).trans ((U7_of m c main_arg13 (by decide)).trans ((U6_of m c main_arg13 (by decide)).trans ((U5_of m c main_arg13 (by decide)).trans ((U4_of m c main_arg13 (by decide))))))))))))))).trans (u3_arg13 m c)]

theorem u18_v122 : (U18 m c main_v122 : Vec Ideal S100000x64 .f32) = val_main_v134 (F := Ideal) (A m c main_arg0) (A m c main_arg1) (A m c main_arg2) (A m c main_arg3) (A m c main_arg4) (A m c main_arg5) (A m c main_arg6) (A m c main_arg8) (A m c main_arg9) (A m c main_arg12) (A m c main_arg13) := by
  rw [U18_out]; unfold O18
  funext i
  obtain ⟨r, j, rfl⟩ : ∃ (r : Fin 100000) (j : Fin 64), i = ix2 r j := ⟨i 0, i 1, eq_ix2 i⟩
  refine (final9_apply (fun c b => U17 m c b) c r j).trans ?_
  rw [u17_v120 m c, u17_v121 m c, shapeCast_a_1a_apply, val_main_v134_apply, val_main_v133_apply, val_main_v132_apply, val_main_v131_apply, val_main_v130_apply, val_main_cst_25_apply]
  have e1 : idx_main_v130 (idx_main_v131 (ix2 r j)) = ix1 j := (by funext a; apply Fin.ext; match a with | ⟨0, _⟩ => rfl)
  rw [e1]

/-! ## The two results, in the conditional run's last valuation -/

theorem result0 : (V18 m (outs m) c main_v106 : Vec Ideal S100000x64 .f32) = val_main_v115 (F := Ideal) (A m c main_arg0) (A m c main_arg1) (A m c main_arg2) (A m c main_arg3) (A m c main_arg4) (A m c main_arg5) (A m c main_arg6) (A m c main_arg8) (A m c main_arg9) (A m c main_arg10) (A m c main_arg11) := by
  rw [V18_eq]
  exact ((U18_of m c main_v106 (by decide)).trans ((U17_of m c main_v106 (by decide)).trans ((U16_of m c main_v106 (by decide))))).trans (u15_v106 m c)

theorem result1 : (V18 m (outs m) c main_v122 : Vec Ideal S100000x64 .f32) = val_main_v134 (F := Ideal) (A m c main_arg0) (A m c main_arg1) (A m c main_arg2) (A m c main_arg3) (A m c main_arg4) (A m c main_arg5) (A m c main_arg6) (A m c main_arg8) (A m c main_arg9) (A m c main_arg12) (A m c main_arg13) := by
  rw [V18_eq]
  exact u18_v122 m c

end Cert.KernelIdeal.HandValue

end
-- ==== Proof.lean ====
/-
  The certificate's five claims for the graph autoencoder's forward pass: a GCN of two layers, a mean pool, one LSTM
  step from a zero state added back to every node, and two GCN heads (the second clamped at 10) — the kernel program
  running its ten gridded pallas_calls (four row-blocked matmuls, four bias / activation passes, the mean with its
  carried accumulator, the broadcast add) among the host's edge gather / scatter-add stretches, against the plain jnp
  reference.

  * The three frames. The kernel programs' (word level and idealized) are the hand-assembled run of @main as host
    stretches and regions: per region the body's symbolic run and its pipeline's proof data, the regions' records over
    the thread state, and the generated conditional frame for the host side. The reference's frame is its run with the
    results dropped.
  * preserves: the one rewrite of the ideal pass names the mean's factor 1/100000.
  * algebraic: at Ideal both programs end with the same two arrays. Stage by stage the kernel's buffers hold the
    reference's stages: a row-blocked matmul with a zero accumulator is the whole matrix product, index by index the
    sum of 128 products; the bias / activation passes are pointwise; the host stretches are the same operations on both
    sides; and the mean is (∑ rows) · (1/100000) against (∑ rows) / 100000, equal on every extended real. The inputs'
    finiteness is never used.
-/
import proofs.«145243_j28355374088213_1_alg».proof.Defs
import proofs.«145243_j28355374088213_1_alg».proof.Proof.Gen.Kernel
import proofs.«145243_j28355374088213_1_alg».proof.Proof.Gen.KernelIdeal
import proofs.«145243_j28355374088213_1_alg».proof.Proof.Gen.ReferenceIdeal
import proofs.«145243_j28355374088213_1_alg».proof.Proof.Gen.Pre_finite_inputs
import proofs.«145243_j28355374088213_1_alg».proof.Proof.K_Frame
import proofs.«145243_j28355374088213_1_alg».proof.Proof.KI_Frame
import proofs.«145243_j28355374088213_1_alg».proof.Proof.KI_Run
import proofs.«145243_j28355374088213_1_alg».proof.Proof.KI_Bridge
import proofs.«145243_j28355374088213_1_alg».proof.Proof.RefRunP
import proofs.«145243_j28355374088213_1_alg».proof.Proof.RefReadEqP
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Hand.frame m ρ

theorem frame_ki : Cert.frame_KernelIdeal :=
  fun m ρ _ => Cert.KernelIdeal.Hand.frame m ρ

theorem frame_ri : Cert.frame_ReferenceIdeal :=
  fun m ρ _ => (θ_run Cert.ReferenceIdeal.defs _ _).mono (fun _ h c => (h c).2.2) (Cert.ReferenceIdeal.ValueP.run (F := Ideal) m ρ)

/-- The ledger's one entry: the certificate's table gives "inv_100000" the value 1/100000, and the printed constant is
    that value at Ideal. -/
theorem preserves : Cert.preserves_Kernel_KernelIdeal :=
  IdealRules.named_const.statement Cert.KernelIdeal.κ "inv_100000" .f32 0x3727C5AC#32 ((1 / 100000 : ℝ) : EReal) rfl

/-- Both programs run, and the kernel's two result arrays — what its regions 7 and 9 leave — are the reference's
    last stages of arguments that agree. -/
theorem algebraic : Cert.algebraic_KernelIdeal_ReferenceIdeal := by
  intro m ρ m' ρ' _ hagree
  refine ⟨fun c => Cert.KernelIdeal.Gen.V18 m (Cert.KernelIdeal.Hand.outs m) c Cert.KernelIdeal.main_v106,
    fun c => Cert.KernelIdeal.Gen.V18 m (Cert.KernelIdeal.Hand.outs m) c Cert.KernelIdeal.main_v122,
    Cert.KernelIdeal.Hand.run_vals m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v115_eq, (hagree c).1, (hagree c).2.1, (hagree c).2.2.1, (hagree c).2.2.2.1, (hagree c).2.2.2.2.1, (hagree c).2.2.2.2.2.1, (hagree c).2.2.2.2.2.2.1, (hagree c).2.2.2.2.2.2.2.2.1, (hagree c).2.2.2.2.2.2.2.2.2.1, (hagree c).2.2.2.2.2.2.2.2.2.2.1, (hagree c).2.2.2.2.2.2.2.2.2.2.2.1]
    exact (Cert.KernelIdeal.HandValue.result0 m c).symm
  · rw [Cert.ReferenceIdeal.ReadP.val_main_v134_eq, (hagree c).1, (hagree c).2.1, (hagree c).2.2.1, (hagree c).2.2.2.1, (hagree c).2.2.2.2.1, (hagree c).2.2.2.2.2.1, (hagree c).2.2.2.2.2.2.1, (hagree c).2.2.2.2.2.2.2.2.1, (hagree c).2.2.2.2.2.2.2.2.2.1, (hagree c).2.2.2.2.2.2.2.2.2.2.2.2.1, (hagree c).2.2.2.2.2.2.2.2.2.2.2.2.2]
    exact (Cert.KernelIdeal.HandValue.result1 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
